-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x513x8192 : Shape := ⟨3, ![1, 513, 8192]⟩
abbrev S_ : Shape := ⟨0, ![]⟩

class Facts : Prop where
  bcast_S_S1x513x8192 : S_.BroadcastsInDim S1x513x8192 (![] : Fin 0 → Fin S1x513x8192.rank)
  reducesTo_S1x513x8192_S_d0_1_2 : S1x513x8192.ReducesTo [0, 1, 2] S_
  h_S_ : 0 < S_.numel

variable [Facts]

def fn {F : FTy → Type} [FloatOps F] (main_arg0 : FVec F S1x513x8192 .f32) : IVec S_ 1 :=
  let main_v0 : FVec F S1x513x8192 .f32 := Host.absf main_arg0
  let main_cst : FVec F S_ .f32 := constant S_ .f32 0x7F800000#32
  let main_v1 : FVec F S1x513x8192 .f32 := broadcastInDim S1x513x8192 ![] bcast_S_S1x513x8192 main_cst
  let main_v2 : IVec S1x513x8192 1 := cmpf .olt main_v0 main_v1
  let main_c : IVec S_ 1 := constantI S_ 1 1#1
  let main_v3 : IVec S_ 1 := (fun x v => Host.reduce IntOp.andi x v reducesTo_S1x513x8192_S_d0_1_2 h_S_) main_v2 main_c
  main_v3
-- ==== Kernel.lean ====
abbrev S1x513x8192 : Shape := ⟨3, ![1, 513, 8192]⟩
abbrev S1x8192 : Shape := ⟨2, ![1, 8192]⟩
abbrev S1x513x2048 : Shape := ⟨3, ![1, 513, 2048]⟩
abbrev S1x2048 : Shape := ⟨2, ![1, 2048]⟩
abbrev S1x1x2048 : Shape := ⟨3, ![1, 1, 2048]⟩
abbrev S1x512x2048 : Shape := ⟨3, ![1, 512, 2048]⟩
abbrev S8192 : Shape := ⟨1, ![8192]⟩
abbrev S_ : Shape := ⟨0, ![]⟩
abbrev S1x8705x8192 : Shape := ⟨3, ![1, 8705, 8192]⟩
abbrev S1x513x256 : Shape := ⟨3, ![1, 513, 256]⟩
abbrev S1x256 : Shape := ⟨2, ![1, 256]⟩
abbrev S1x8705x256 : Shape := ⟨3, ![1, 8705, 256]⟩
abbrev S1x8192x256 : Shape := ⟨3, ![1, 8192, 256]⟩
abbrev S1x1x256 : Shape := ⟨3, ![1, 1, 256]⟩

abbrev nBuf : Space → Nat
  | .hbm => 17
  | .vmem => 16
  | .smem => 0
  | _ => 0

abbrev bufTy : (tb : Table) → Fin (tcTables nBuf tb) → BufTy
  | .hbm, ⟨0, _⟩ => ⟨S1x513x8192, .f32⟩
  | .hbm, ⟨1, _⟩ => ⟨S1x513x8192, .f32⟩
  | .hbm, ⟨2, _⟩ => ⟨S1x8192, .f32⟩
  | .hbm, ⟨3, _⟩ => ⟨S1x8192, .f32⟩
  | .hbm, ⟨4, _⟩ => ⟨S8192, .f32⟩
  | .hbm, ⟨5, _⟩ => ⟨S8192, .i32⟩
  | .hbm, ⟨6, _⟩ => ⟨S_, .i32⟩
  | .hbm, ⟨7, _⟩ => ⟨S_, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S1x8192, .i32⟩
  | .hbm, ⟨16, _⟩ => ⟨S1x8705x8192, .f32⟩
  | .local _ .vmem, ⟨0, _⟩ => ⟨S1x513x2048, .f32⟩
  | .local _ .vmem, ⟨1, _⟩ => ⟨S1x513x2048, .f32⟩
  | .local _ .vmem, ⟨2, _⟩ => ⟨S1x513x2048, .f32⟩
  | .local _ .vmem, ⟨3, _⟩ => ⟨S1x513x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x513x256, .f32⟩
  | .local _ .vmem, ⟨9, _⟩ => ⟨S1x513x256, .f32⟩
  | .local _ .vmem, ⟨10, _⟩ => ⟨S1x256, .i32⟩
  | .local _ .vmem, ⟨11, _⟩ => ⟨S1x256, .i32⟩
  | .local _ .vmem, ⟨12, _⟩ => ⟨S1x256, .f32⟩
  | .local _ .vmem, ⟨13, _⟩ => ⟨S1x256, .f32⟩
  | .local _ .vmem, ⟨14, _⟩ => ⟨S1x8705x256, .f32⟩
  | .local _ .vmem, ⟨15, _⟩ => ⟨S1x8705x256, .f32⟩
  | _, _ => ⟨S1x513x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_call0_call0_c : Ref sig .tc := ⟨.hbm, 6, rfl⟩
abbrev main_call0_call0_v0 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x513x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x513x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S1x513x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x8705x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x513x2048_S1x513x2048_0_0_0 : ∀ a, (![0, 0, 0] : Fin 3 → Nat) a + S1x513x2048.size a ≤ S1x513x2048.size a
  h_S1x513x2048 : 0 < S1x513x2048.numel
  slices_S1x513x2048_o0_0_0_S1x1x2048 : S1x513x2048.Slices ![0, 0, 0] S1x1x2048
  shapeCasts_S1x1x2048_S1x2048 : S1x1x2048.ShapeCasts S1x2048
  slices_S1x513x2048_o0_1_0_S1x512x2048 : S1x513x2048.Slices ![0, 1, 0] S1x512x2048
  reduces_S1x512x2048_S1x2048 : S1x512x2048.Reduces [1] S1x2048
  natLt_1_32 : 1 < 32
  shapeCasts_S1x2048_S1x1x2048 : S1x2048.ShapeCasts S1x1x2048
  broadcasts_S1x1x2048_S1x512x2048 : S1x1x2048.Broadcasts S1x512x2048
  inb_S1x513x2048_S1x1x2048_0_0_0 : ∀ a, (![0, 0, 0] : Fin 3 → Nat) a + S1x1x2048.size a ≤ S1x513x2048.size a
  h_S1x1x2048 : 0 < S1x1x2048.numel
  inb_S1x513x2048_S1x512x2048_0_1_0 : ∀ a, (![0, 1, 0] : Fin 3 → Nat) a + S1x512x2048.size a ≤ S1x513x2048.size a
  h_S1x512x2048 : 0 < S1x512x2048.numel
  inb_S1x2048_S1x2048_0_0 : ∀ a, (![0, 0] : Fin 2 → Nat) a + S1x2048.size a ≤ S1x2048.size a
  h_S1x2048 : 0 < S1x2048.numel
  shapeCasts_S1x8192_S8192 : S1x8192.ShapeCasts S8192
  bcast_S_S_ : S_.BroadcastsInDim S_ (![] : Fin 0 → Fin S_.rank)
  reduceWindows_S8192_S8192_w8192s1p8191_0 : S8192.ReduceWindows (![8192] : Fin 1 → Nat) ![1] ![8191] ![0] S8192
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  inb_S1x513x256_S1x513x256_0_0_0 : ∀ a, (![0, 0, 0] : Fin 3 → Nat) a + S1x513x256.size a ≤ S1x513x256.size a
  h_S1x513x256 : 0 < S1x513x256.numel
  shapeCasts_S1x513x256_S1x513x256 : S1x513x256.ShapeCasts S1x513x256
  inb_S1x8705x256_S1x513x256_0_0_0 : ∀ a, (![0, 0, 0] : Fin 3 → Nat) a + S1x513x256.size a ≤ S1x8705x256.size a
  iota_S1x8192x256_d1_w32 : S1x8192x256.Iotas .tc 32 [1]
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  broadcasts_S1x1x256_S1x8192x256 : S1x1x256.Broadcasts S1x8192x256
  shapeCasts_S1x1x256_S1x1x256 : S1x1x256.ShapeCasts S1x1x256
  inb_S1x8705x256_S1x8192x256_0_513_0 : ∀ a, (![0, 513, 0] : Fin 3 → Nat) a + S1x8192x256.size a ≤ S1x8705x256.size a
  h_S1x8192x256 : 0 < S1x8192x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x513x2048.size a ≤ S1x513x8192.size a
  hwx0_0 : ∀ i : grid0.Coords, EltTy.bits .f32 = 32 ∨ (Rect.block (s := S1x513x8192) S1x513x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x513x2048.size a ≤ S1x513x8192.size a
  hwx0_1 : ∀ i : grid0.Coords, EltTy.bits .f32 = 32 ∨ (Rect.block (s := S1x513x8192) S1x513x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x513x256.size a ≤ S1x513x8192.size a
  hwx1_0 : ∀ i : grid1.Coords, EltTy.bits .f32 = 32 ∨ (Rect.block (s := S1x513x8192) S1x513x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x8192.size a
  hwx1_1 : ∀ i : grid1.Coords, EltTy.bits .i32 = 32 ∨ (Rect.block (s := S1x8192) S1x256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x8192.size a
  hwx1_2 : ∀ i : grid1.Coords, EltTy.bits .f32 = 32 ∨ (Rect.block (s := S1x8192) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8705x256.size a ≤ S1x8705x8192.size a
  hwx1_3 : ∀ i : grid1.Coords, EltTy.bits .f32 = 32 ∨ (Rect.block (s := S1x8705x8192) S1x8705x256.size (cc1_transform_3 i) (hinb1_3 i)).WholeWords (EltTy.packing .f32)

variable [Facts₀]

abbrev win0_0 : Pipeline.Window sig grid0 :=
  Pipeline.Window.ofSpec (Memref.whole main_arg0) S1x513x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x513x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S1x513x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x8705x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x513x8192 : Shape := ⟨3, ![1, 513, 8192]⟩
abbrev S1x512x8192 : Shape := ⟨3, ![1, 512, 8192]⟩
abbrev S_ : Shape := ⟨0, ![]⟩
abbrev S1x8192 : Shape := ⟨2, ![1, 8192]⟩
abbrev S1x1x8192 : Shape := ⟨3, ![1, 1, 8192]⟩
abbrev S8192 : Shape := ⟨1, ![8192]⟩
abbrev S1x8705x8192 : Shape := ⟨3, ![1, 8705, 8192]⟩
abbrev S1 : Shape := ⟨1, ![1]⟩
abbrev S8192x1 : Shape := ⟨2, ![8192, 1]⟩
abbrev S8192x2 : Shape := ⟨2, ![8192, 2]⟩

abbrev nBuf : Space → Nat
  | .hbm => 97
  | .vmem => 0
  | .smem => 0
  | _ => 0

abbrev bufTy : (tb : Table) → Fin (tcTables nBuf tb) → BufTy
  | .hbm, ⟨0, _⟩ => ⟨S1x513x8192, .f32⟩
  | .hbm, ⟨1, _⟩ => ⟨S1x512x8192, .f32⟩
  | .hbm, ⟨2, _⟩ => ⟨S1x512x8192, .f32⟩
  | .hbm, ⟨3, _⟩ => ⟨S_, .f32⟩
  | .hbm, ⟨4, _⟩ => ⟨S1x8192, .f32⟩
  | .hbm, ⟨5, _⟩ => ⟨S1x1x8192, .f32⟩
  | .hbm, ⟨6, _⟩ => ⟨S1x8192, .f32⟩
  | .hbm, ⟨7, _⟩ => ⟨S1x8192, .f32⟩
  | .hbm, ⟨8, _⟩ => ⟨S1x1x8192, .f32⟩
  | .hbm, ⟨9, _⟩ => ⟨S1x8192, .f32⟩
  | .hbm, ⟨10, _⟩ => ⟨S1x8192, .f32⟩
  | .hbm, ⟨11, _⟩ => ⟨S1x8192, .f32⟩
  | .hbm, ⟨12, _⟩ => ⟨S_, .f32⟩
  | .hbm, ⟨13, _⟩ => ⟨S1x8192, .f32⟩
  | .hbm, ⟨14, _⟩ => ⟨S1x8192, .i1⟩
  | .hbm, ⟨15, _⟩ => ⟨S1x8192, .f32⟩
  | .hbm, ⟨16, _⟩ => ⟨S_, .f32⟩
  | .hbm, ⟨17, _⟩ => ⟨S1x8192, .f32⟩
  | .hbm, ⟨18, _⟩ => ⟨S1x8192, .i1⟩
  | .hbm, ⟨19, _⟩ => ⟨S1x8192, .f32⟩
  | .hbm, ⟨20, _⟩ => ⟨S1x8192, .i1⟩
  | .hbm, ⟨21, _⟩ => ⟨S_, .f32⟩
  | .hbm, ⟨22, _⟩ => ⟨S1x8192, .f32⟩
  | .hbm, ⟨23, _⟩ => ⟨S1x8192, .f32⟩
  | .hbm, ⟨24, _⟩ => ⟨S1x8192, .f32⟩
  | .hbm, ⟨25, _⟩ => ⟨S1x8192, .f32⟩
  | .hbm, ⟨26, _⟩ => ⟨S1x8192, .f32⟩
  | .hbm, ⟨27, _⟩ => ⟨S1x8192, .f32⟩
  | .hbm, ⟨28, _⟩ => ⟨S1x8192, .f32⟩
  | .hbm, ⟨29, _⟩ => ⟨S1x8192, .f32⟩
  | .hbm, ⟨30, _⟩ => ⟨S_, .f32⟩
  | .hbm, ⟨31, _⟩ => ⟨S1x8192, .f32⟩
  | .hbm, ⟨32, _⟩ => ⟨S1x8192, .f32⟩
  | .hbm, ⟨33, _⟩ => ⟨S1x8192, .f32⟩
  | .hbm, ⟨34, _⟩ => ⟨S1x8192, .f32⟩
  | .hbm, ⟨35, _⟩ => ⟨S_, .f32⟩
  | .hbm, ⟨36, _⟩ => ⟨S1x8192, .f32⟩
  | .hbm, ⟨37, _⟩ => ⟨S1x8192, .f32⟩
  | .hbm, ⟨38, _⟩ => ⟨S1x1x8192, .f32⟩
  | .hbm, ⟨39, _⟩ => ⟨S1x8192, .f32⟩
  | .hbm, ⟨40, _⟩ => ⟨S1x8192, .f32⟩
  | .hbm, ⟨41, _⟩ => ⟨S1x8192, .f32⟩
  | .hbm, ⟨42, _⟩ => ⟨S1x8192, .f32⟩
  | .hbm, ⟨43, _⟩ => ⟨S1x1x8192, .f32⟩
  | .hbm, ⟨44, _⟩ => ⟨S1x8192, .f32⟩
  | .hbm, ⟨45, _⟩ => ⟨S1x8192, .f32⟩
  | .hbm, ⟨46, _⟩ => ⟨S1x8192, .f32⟩
  | .hbm, ⟨47, _⟩ => ⟨S1x512x8192, .f32⟩
  | .hbm, ⟨48, _⟩ => ⟨S1x8192, .f32⟩
  | .hbm, ⟨49, _⟩ => ⟨S1x8192, .f32⟩
  | .hbm, ⟨50, _⟩ => ⟨S1x1x8192, .f32⟩
  | .hbm, ⟨51, _⟩ => ⟨S1x512x8192, .f32⟩
  | .hbm, ⟨52, _⟩ => ⟨S1x512x8192, .f32⟩
  | .hbm, ⟨53, _⟩ => ⟨S1x1x8192, .f32⟩
  | .hbm, ⟨54, _⟩ => ⟨S1x513x8192, .f32⟩
  | .hbm, ⟨55, _⟩ => ⟨S8192, .f32⟩
  | .hbm, ⟨56, _⟩ => ⟨S8192, .i32⟩
  | .hbm, ⟨57, _⟩ => ⟨S_, .i32⟩
  | .hbm, ⟨58, _⟩ => ⟨S_, .i32⟩
  | .hbm, ⟨59, _⟩ => ⟨S8192, .i32⟩
  | .hbm, ⟨60, _⟩ => ⟨S_, .i32⟩
  | .hbm, ⟨61, _⟩ => ⟨S8192, .i32⟩
  | .hbm, ⟨62, _⟩ => ⟨S8192, .i32⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S_, .i32⟩
  | .hbm, ⟨67, _⟩ => ⟨S8192, .i32⟩
  | .hbm, ⟨68, _⟩ => ⟨S8192, .i32⟩
  | .hbm, ⟨69, _⟩ => ⟨S_, .f32⟩
  | .hbm, ⟨70, _⟩ => ⟨S1x8192, .f32⟩
  | .hbm, ⟨71, _⟩ => ⟨S1x8192, .f32⟩
  | .hbm, ⟨72, _⟩ => ⟨S1x8192, .f32⟩
  | .hbm, ⟨73, _⟩ => ⟨S_, .f32⟩
  | .hbm, ⟨74, _⟩ => ⟨S1x8705x8192, .f32⟩
  | .hbm, ⟨75, _⟩ => ⟨S_, .i32⟩
  | .hbm, ⟨76, _⟩ => ⟨S1, .i32⟩
  | .hbm, ⟨77, _⟩ => ⟨S1x8705x8192, .f32⟩
  | .hbm, ⟨78, _⟩ => ⟨S8192, .i32⟩
  | .hbm, ⟨79, _⟩ => ⟨S_, .i32⟩
  | .hbm, ⟨80, _⟩ => ⟨S8192, .i32⟩
  | .hbm, ⟨81, _⟩ => ⟨S8192, .i1⟩
  | .hbm, ⟨82, _⟩ => ⟨S_, .i32⟩
  | .hbm, ⟨83, _⟩ => ⟨S8192, .i32⟩
  | .hbm, ⟨84, _⟩ => ⟨S8192, .i32⟩
  | .hbm, ⟨85, _⟩ => ⟨S8192, .i32⟩
  | .hbm, ⟨86, _⟩ => ⟨S_, .i32⟩
  | .hbm, ⟨87, _⟩ => ⟨S8192, .i32⟩
  | .hbm, ⟨88, _⟩ => ⟨S8192, .i1⟩
  | .hbm, ⟨89, _⟩ => ⟨S_, .i32⟩
  | .hbm, ⟨90, _⟩ => ⟨S8192, .i32⟩
  | .hbm, ⟨91, _⟩ => ⟨S8192, .i32⟩
  | .hbm, ⟨92, _⟩ => ⟨S8192, .i32⟩
  | .hbm, ⟨93, _⟩ => ⟨S8192x1, .i32⟩
  | .hbm, ⟨94, _⟩ => ⟨S8192x1, .i32⟩
  | .hbm, ⟨95, _⟩ => ⟨S8192x2, .i32⟩
  | .hbm, ⟨96, _⟩ => ⟨S1x8705x8192, .f32⟩
  | _, _ => ⟨S1x513x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_3 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_4 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_call1_call0_c : Ref sig .tc := ⟨.hbm, 57, rfl⟩
abbrev main_call1_call0_v0 : Ref sig .tc := ⟨.hbm, 58, rfl⟩
abbrev main_v50 : Ref sig .tc := ⟨.hbm, 59, rfl⟩
abbrev main_c : Ref sig .tc := ⟨.hbm, 60, rfl⟩
abbrev main_v51 : Ref sig .tc := ⟨.hbm, 61, rfl⟩
abbrev main_v52 : Ref sig .tc := ⟨.hbm, 62, rfl⟩
abbrev main_c_5 : Ref sig .tc := ⟨.hbm, 63, rfl⟩
abbrev main_v53 : Ref sig .tc := ⟨.hbm, 64, rfl⟩
abbrev main_v54 : Ref sig .tc := ⟨.hbm, 65, rfl⟩
abbrev main_c_6 : Ref sig .tc := ⟨.hbm, 66, rfl⟩
abbrev main_v55 : Ref sig .tc := ⟨.hbm, 67, rfl⟩
abbrev main_v56 : Ref sig .tc := ⟨.hbm, 68, rfl⟩
abbrev main_cst_7 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_c_9 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_c_10 : Ref sig .tc := ⟨.hbm, 79, rfl⟩
abbrev main_v64 : Ref sig .tc := ⟨.hbm, 80, rfl⟩
abbrev main_v65 : Ref sig .tc := ⟨.hbm, 81, rfl⟩
abbrev main_c_11 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_c_12 : Ref sig .tc := ⟨.hbm, 86, rfl⟩
abbrev main_v69 : Ref sig .tc := ⟨.hbm, 87, rfl⟩
abbrev main_v70 : Ref sig .tc := ⟨.hbm, 88, rfl⟩
abbrev main_c_13 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩

abbrev nD : Nat := 1
abbrev τ : Topo := Topo.v7x

variable {F : FTy → Type} [FloatOps F]

class Facts₀ : Prop where
  slices_S1x513x8192_S1x512x8192_0_1_0 : S1x513x8192.Slices ![0, 1, 0] S1x512x8192
  reducesTo_S1x512x8192_S1x8192_d1 : S1x512x8192.ReducesTo [1] S1x8192
  h_S_ : 0 < S_.numel
  slices_S1x513x8192_S1x1x8192_0_0_0 : S1x513x8192.Slices ![0, 0, 0] S1x1x8192
  shapeCasts_S1x1x8192_S1x8192 : S1x1x8192.ShapeCasts S1x8192
  bcast_S_S1x8192 : S_.BroadcastsInDim S1x8192 (![] : Fin 0 → Fin S1x8192.rank)
  bcast_S1x8192_S1x1x8192_0_2 : S1x8192.BroadcastsInDim S1x1x8192 (![0, 2] : Fin 2 → Fin S1x1x8192.rank)
  bcast_S1x1x8192_S1x512x8192_0_1_2 : S1x1x8192.BroadcastsInDim S1x512x8192 (![0, 1, 2] : Fin 3 → Fin S1x512x8192.rank)
  concatenates_S1x1x8192_S1x512x8192_S1x513x8192_d1 : Shape.Concatenates [S1x1x8192, S1x512x8192] S1x513x8192 1
  shapeCasts_S1x8192_S8192 : S1x8192.ShapeCasts S8192
  bcast_S_S_ : S_.BroadcastsInDim S_ (![] : Fin 0 → Fin S_.rank)
  reduceWindows_S8192_S8192_w8192s1p8191_0 : S8192.ReduceWindows (![8192] : Fin 1 → Nat) ![1] ![8191] ![0] S8192
  bcast_S_S8192 : S_.BroadcastsInDim S8192 (![] : Fin 0 → Fin S8192.rank)
  bcast_S_S1x8705x8192 : S_.BroadcastsInDim S1x8705x8192 (![] : Fin 0 → Fin S1x8705x8192.rank)
  bcast_S_S1 : S_.BroadcastsInDim S1 (![] : Fin 0 → Fin S1.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  scatter_S1x8705x8192_S1_S1x513x8192_012_n_1_0_wf : ScatterDims.WF S1x8705x8192 S1 S1x513x8192 [0, 1, 2] [] [1] 0
  scatter_S1x8705x8192_S8192x2_S1x8192_0_12_12_1_wf : ScatterDims.WF S1x8705x8192 S8192x2 S1x8192 [0] [1, 2] [1, 2] 1

variable [Facts₀]

def scatter_S1x8705x8192_S1_S1x513x8192_012_n_1_0 : ScatterDims S1x8705x8192 S1 S1x513x8192 where
  updateWindowDims := [0, 1, 2]
  insertedWindowDims := []
  scatterDimsToOperandDims := [1]
  indexVectorDim := 0
  wf := scatter_S1x8705x8192_S1_S1x513x8192_012_n_1_0_wf
def scatter_S1x8705x8192_S8192x2_S1x8192_0_12_12_1 : ScatterDims S1x8705x8192 S8192x2 S1x8192 where
  updateWindowDims := [0]
  insertedWindowDims := [1, 2]
  scatterDimsToOperandDims := [1, 2]
  indexVectorDim := 1
  wf := scatter_S1x8705x8192_S8192x2_S1x8192_0_12_12_1_wf

class Facts : Prop extends Facts₀ where

variable [Facts]
-- ==== Proof.KernelRun.lean ====
/-
  The kernel program's run with its RESULT named. The program is two pipelined regions with a stretch of host
  operations between them; its memory at each segment boundary is a fold from the launch memory. Every weakly
  fair execution terminates, nothing faulting, with the result array holding what the fold leaves there —
  the second region's output array after its last write-back — and the argument array as launched. This is
  the launch of the program's segments that proves its frame, with the final state read at the result array
  as well as at the argument.
-/
import proofs.«125602_j15221364097584_1_alg».proof.Proof.FramePb

set_option maxRecDepth 16384

noncomputable section

namespace Cert.KernelIdeal.Named

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting; the result array ends at the
    last boundary's contents and the argument array as launched. -/
theorem run_named : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v9 (by decide)), (h c _ (mem_uc main_arg0 (by decide))).trans (W5_main_arg0 m ρ c)⟩)

/-- The last boundary's contents at the result array: the second region's output array after its last
    write-back. -/
theorem result_eq (c : Dev nD) :
    W5 m ρ c (Proc.devRef .tc main_v9) = (dat1 (V4 m ρ) c).arrAt 3 cfg1.N :=
  W5_arr m ρ c 3

end Cert.KernelIdeal.Named

end
-- ==== Proof.Glue.lean ====
/-
  Between the two regions. The first region leaves three arrays: the transformed array, the crossing
  indicators and the new coefficients. The host then turns the indicators into each column's slot — the
  indicators as 32-bit integers, their running count by a window sum, less one, clipped below at zero, with a
  leading unit axis — and the second region is entered with the transformed array and the coefficients as
  the first region left them and with the slots. Nothing else the second region reads is written in between.
-/
import proofs.«125602_j15221364097584_1_alg».proof.Proof.FramePb
import Idealize.ShloMosaic.Lib.StableHlo.Run

set_option maxRecDepth 16384

noncomputable section

namespace Cert.KernelIdeal.Glue

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Each column's slot, with the batch axis, from the crossing indicators: the host operations between the
    regions, composed. -/
def slots (cr : (⟨S1x8192, .f32⟩ : BufTy).Contents (Elt F)) : (⟨S1x8192, .i32⟩ : BufTy).Contents (Elt F) :=
  broadcastInDim S1x8192 ![1] bcast_S8192_S1x8192_1
    (maxsi
      (subi
        (Host.reduceWindow IntOp.addi ![8192] ![1] ![8191] ![0]
          (fptosi 32 (shapeCast S8192 cr shapeCasts_S1x8192_S8192))
          (broadcastInDim S_ ![] bcast_S_S_ (constantI S_ 32 0#32)) reduceWindows_S8192_S8192_w8192s1p8191_0 h_S_)
        (broadcastInDim S8192 ![] bcast_S_S8192 (constantI S_ 32 1#32)))
      (broadcastInDim S8192 ![] bcast_S_S8192 (constantI S_ 32 0#32)))

/-- The second region is entered with the slots computed from the indicators the first region left. -/
theorem entry_slots (c : Dev nD) : V4 m ρ c main_v8 = slots (V1 m ρ c main_v0_1) := by
  show StableHlo.after hostOps1_2 (StableHlo.after hostOps1_1 (StableHlo.after hostOps1 (W1 m ρ c))) (Proc.devRef .tc main_v8) = _
  after_results
  unfold slots
  simp only [TRef.toBuf, TRef.ofBuf, cast_eq]
  rfl

/-- No host operation between the regions writes the transformed array. -/
theorem entry_transformed (c : Dev nD) : V4 m ρ c main_v0_0 = V1 m ρ c main_v0_0 := by
  show StableHlo.after hostOps1_2 (StableHlo.after hostOps1_1 (StableHlo.after hostOps1 (W1 m ρ c))) (Proc.devRef .tc main_v0_0) = _
  after_results

/-- No host operation between the regions writes the new coefficients. -/
theorem entry_vals (c : Dev nD) : V4 m ρ c main_v0_2 = V1 m ρ c main_v0_2 := by
  show StableHlo.after hostOps1_2 (StableHlo.after hostOps1_1 (StableHlo.after hostOps1 (W1 m ρ c))) (Proc.devRef .tc main_v0_2) = _
  after_results

/-- What the first region leaves in its three output arrays is what is read there afterwards. -/
theorem exit0_transformed (c : Dev nD) : V1 m ρ c main_v0_0 = (dat0 (V0 m ρ) c).arrAt 1 cfg0.N := W1_arr m ρ c 1
theorem exit0_cross (c : Dev nD) : V1 m ρ c main_v0_1 = (dat0 (V0 m ρ) c).arrAt 2 cfg0.N := W1_arr m ρ c 2
theorem exit0_vals (c : Dev nD) : V1 m ρ c main_v0_2 = (dat0 (V0 m ρ) c).arrAt 3 cfg0.N := W1_arr m ρ c 3

end Cert.KernelIdeal.Glue

end
-- ==== Proof.LibPlaneLayout.lean ====
/-
  A stack of planes `[C, H, W]` and its keepdims statistics, read at coordinates.

  A per-row statistic of a stack of planes lives in `[C, H]`, is given a trailing unit axis (`[C, H, 1]`) and is
  broadcast back over the columns; a per-column one lives in `[C, W]`, gets a middle unit axis (`[C, 1, W]`) and is
  broadcast over the rows; a per-plane one lives in `[C]`, gets two unit axes (`[C, 1, 1]`) and is broadcast over
  the whole plane.  Each of these casts and broadcasts, and the two single-axis sums that produce the statistics,
  is read here at an index written by its coordinates, for any extents.
-/
import Idealize.ShloMosaic.PureOps.Ideal.Laws
import Idealize.ShloMosaic.Lib.ValueIdx
import Idealize.ShloMosaic.Lib.Pipeline.Value

namespace Cert.Lib.PlaneLayout

open Idealize.ShloMosaic Idealize.ShloMosaic.ValueIdx

variable {α : Type} {C H W : Nat}

/-! ## Unit axes added by a shape cast -/

/-- `[C, H] → [C, H, 1]`: the entry at `(c, h, ·)` is the operand's at `(c, h)`. -/
theorem shapeCast_ch_ch1_apply (x : (⟨2, ![C, H]⟩ : Shape).Idx → α)
    (h : (⟨2, ![C, H]⟩ : Shape).ShapeCasts ⟨3, ![C, H, 1]⟩) (c : Fin C) (r : Fin H) (u : Fin 1) :
    shapeCast ⟨3, ![C, H, 1]⟩ x h (ix3 c r u) = x (ix2 c r) :=
  shapeCast_apply x h _ _ (by
    have hu : u.val = 0 := by omega
    rw [Shape.rowMajor_val_three, Shape.rowMajor_val_two]
    show c.val * H + r.val = (c.val * H + r.val) * 1 + u.val
    rw [hu, Nat.mul_one, Nat.add_zero])

/-- `[C, W] → [C, 1, W]`: the entry at `(c, ·, w)` is the operand's at `(c, w)`. -/
theorem shapeCast_cw_c1w_apply (x : (⟨2, ![C, W]⟩ : Shape).Idx → α)
    (h : (⟨2, ![C, W]⟩ : Shape).ShapeCasts ⟨3, ![C, 1, W]⟩) (c : Fin C) (u : Fin 1) (w : Fin W) :
    shapeCast ⟨3, ![C, 1, W]⟩ x h (ix3 c u w) = x (ix2 c w) :=
  shapeCast_apply x h _ _ (by
    have hu : u.val = 0 := by omega
    rw [Shape.rowMajor_val_three, Shape.rowMajor_val_two]
    show c.val * W + w.val = (c.val * 1 + u.val) * W + w.val
    rw [hu, Nat.mul_one, Nat.add_zero])

/-- `[C] → [C, 1, 1]`: the entry at `(c, ·, ·)` is the operand's at `c`. -/
theorem shapeCast_c_c11_apply (x : (⟨1, ![C]⟩ : Shape).Idx → α)
    (h : (⟨1, ![C]⟩ : Shape).ShapeCasts ⟨3, ![C, 1, 1]⟩) (c : Fin C) (u u' : Fin 1) :
    shapeCast ⟨3, ![C, 1, 1]⟩ x h (ix3 c u u') = x (ix1 c) :=
  shapeCast_apply x h _ _ (by
    have hu : u.val = 0 := by omega
    have hu' : u'.val = 0 := by omega
    rw [Shape.rowMajor_val_three, Shape.rowMajor_val_one]
    show c.val = (c.val * 1 + u.val) * 1 + u'.val
    simp only [hu, hu', Nat.mul_one, Nat.add_zero])

/-- `[C, H, W] → [1, 1, C, H, W]`: the entry at `(·, ·, c, h, w)` is the operand's at `(c, h, w)`. -/
theorem shapeCast_chw_11chw_apply (x : (⟨3, ![C, H, W]⟩ : Shape).Idx → α)
    (h : (⟨3, ![C, H, W]⟩ : Shape).ShapeCasts ⟨5, ![1, 1, C, H, W]⟩) (u u' : Fin 1) (c : Fin C) (r : Fin H) (w : Fin W) :
    shapeCast ⟨5, ![1, 1, C, H, W]⟩ x h (ix5 u u' c r w) = x (ix3 c r w) :=
  shapeCast_apply x h _ _ (by
    have hu : u.val = 0 := by omega
    have hu' : u'.val = 0 := by omega
    rw [Shape.rowMajor_val_five, Shape.rowMajor_val_three]
    show (c.val * H + r.val) * W + w.val = ((((u.val * 1 + u'.val) * C + c.val) * H + r.val) * W + w.val)
    simp only [hu, hu', Nat.zero_mul, Nat.zero_add])

/-! ## The statistics broadcast back over the plane -/

/-- `[C, H, 1] → [C, H, W]`: every column of row `(c, h)` reads the row's entry. -/
theorem broadcastTo_ch1_chw_apply (x : (⟨3, ![C, H, 1]⟩ : Shape).Idx → α)
    (h : (⟨3, ![C, H, 1]⟩ : Shape).Broadcasts ⟨3, ![C, H, W]⟩) (c : Fin C) (r : Fin H) (w : Fin W) :
    broadcastTo ⟨3, ![C, H, W]⟩ x h (ix3 c r w) = x (ix3 c r (0 : Fin 1)) :=
  broadcastTo_apply x h _ _ (fun a => match a with
    | ⟨0, _⟩ => by show c.val = if C = 1 then 0 else c.val; have := c.isLt; split <;> omega
    | ⟨1, _⟩ => by show r.val = if H = 1 then 0 else r.val; have := r.isLt; split <;> omega
    | ⟨2, _⟩ => by show 0 = if (1 : Nat) = 1 then 0 else w.val; rw [if_pos rfl])

/-- `[C, 1, W] → [C, H, W]`: every row of column `(c, w)` reads the column's entry. -/
theorem broadcastTo_c1w_chw_apply (x : (⟨3, ![C, 1, W]⟩ : Shape).Idx → α)
    (h : (⟨3, ![C, 1, W]⟩ : Shape).Broadcasts ⟨3, ![C, H, W]⟩) (c : Fin C) (r : Fin H) (w : Fin W) :
    broadcastTo ⟨3, ![C, H, W]⟩ x h (ix3 c r w) = x (ix3 c (0 : Fin 1) w) :=
  broadcastTo_apply x h _ _ (fun a => match a with
    | ⟨0, _⟩ => by show c.val = if C = 1 then 0 else c.val; have := c.isLt; split <;> omega
    | ⟨1, _⟩ => by show 0 = if (1 : Nat) = 1 then 0 else r.val; rw [if_pos rfl]
    | ⟨2, _⟩ => by show w.val = if W = 1 then 0 else w.val; have := w.isLt; split <;> omega)

/-- `[C, 1, 1] → [C, H, W]`: every entry of plane `c` reads the plane's entry. -/
theorem broadcastTo_c11_chw_apply (x : (⟨3, ![C, 1, 1]⟩ : Shape).Idx → α)
    (h : (⟨3, ![C, 1, 1]⟩ : Shape).Broadcasts ⟨3, ![C, H, W]⟩) (c : Fin C) (r : Fin H) (w : Fin W) :
    broadcastTo ⟨3, ![C, H, W]⟩ x h (ix3 c r w) = x (ix3 c (0 : Fin 1) (0 : Fin 1)) :=
  broadcastTo_apply x h _ _ (fun a => match a with
    | ⟨0, _⟩ => by show c.val = if C = 1 then 0 else c.val; have := c.isLt; split <;> omega
    | ⟨1, _⟩ => by show 0 = if (1 : Nat) = 1 then 0 else r.val; rw [if_pos rfl]
    | ⟨2, _⟩ => by show 0 = if (1 : Nat) = 1 then 0 else w.val; rw [if_pos rfl])

/-! ## The single-axis sums -/

/-- A float sum of `[C, H, W]` over its last axis, at `(c, h)`, is the sum of row `(c, h)`. -/
theorem multiReduction_add_rows {φ : FTy} (src : FVec Ideal ⟨3, ![C, H, W]⟩ φ) (acc : BitVec φ.bits)
    (h : (⟨3, ![C, H, W]⟩ : Shape).Reduces [2] ⟨2, ![C, H]⟩) (hφ : FKind.Formats φ) (hacc : acc = FKind.add.neutral φ hφ)
    (c : Fin C) (r : Fin H) :
    multiReduction .add [2] ⟨2, ![C, H]⟩ src acc h hφ hacc (ix2 c r) = ∑ w : Fin W, src (ix3 c r w) := by
  rw [Ideal.multiReduction_add_single]
  refine Finset.sum_congr rfl fun k _ => congrArg src (funext fun a => Fin.ext ?_)
  match a with
  | ⟨0, _⟩ => rfl
  | ⟨1, _⟩ => rfl
  | ⟨2, _⟩ => rfl

/-- A float sum of `[C, H, W]` over its middle axis, at `(c, w)`, is the sum of column `(c, w)`. -/
theorem multiReduction_add_cols {φ : FTy} (src : FVec Ideal ⟨3, ![C, H, W]⟩ φ) (acc : BitVec φ.bits)
    (h : (⟨3, ![C, H, W]⟩ : Shape).Reduces [1] ⟨2, ![C, W]⟩) (hφ : FKind.Formats φ) (hacc : acc = FKind.add.neutral φ hφ)
    (c : Fin C) (w : Fin W) :
    multiReduction .add [1] ⟨2, ![C, W]⟩ src acc h hφ hacc (ix2 c w) = ∑ r : Fin H, src (ix3 c r w) := by
  rw [Ideal.multiReduction_add_single]
  refine Finset.sum_congr rfl fun k _ => congrArg src (funext fun a => Fin.ext ?_)
  match a with
  | ⟨0, _⟩ => rfl
  | ⟨1, _⟩ => rfl
  | ⟨2, _⟩ => rfl

/-- The two sums at `f32` from the zero accumulator, with the accumulator's side condition stated as a printed
    program states it (the zero pattern equal to itself). -/
theorem multiReduction_add_rows_f32 (src : FVec Ideal ⟨3, ![C, H, W]⟩ .f32)
    (h : (⟨3, ![C, H, W]⟩ : Shape).Reduces [2] ⟨2, ![C, H]⟩) (hφ : FKind.Formats .f32)
    (hacc : (0x00000000#32 : BitVec 32) = 0x00000000#32) (c : Fin C) (r : Fin H) :
    multiReduction .add [2] ⟨2, ![C, H]⟩ src 0x00000000#32 h hφ hacc (ix2 c r) = ∑ w : Fin W, src (ix3 c r w) :=
  multiReduction_add_rows src _ h hφ hacc c r

theorem multiReduction_add_cols_f32 (src : FVec Ideal ⟨3, ![C, H, W]⟩ .f32)
    (h : (⟨3, ![C, H, W]⟩ : Shape).Reduces [1] ⟨2, ![C, W]⟩) (hφ : FKind.Formats .f32)
    (hacc : (0x00000000#32 : BitVec 32) = 0x00000000#32) (c : Fin C) (w : Fin W) :
    multiReduction .add [1] ⟨2, ![C, W]⟩ src 0x00000000#32 h hφ hacc (ix2 c w) = ∑ r : Fin H, src (ix3 c r w) :=
  multiReduction_add_cols src _ h hφ hacc c w

end Cert.Lib.PlaneLayout
-- ==== Proof.Region1.lean ====
/-
  The second region. At a grid point the body holds a 256-column tile: the tile of the transformed array, of
  the slots and of the new coefficients. It stores the transformed tile into rows 0 … 512 of its output block
  and, into rows 513 …, the dense compare: row `513 + r` holds a column's coefficient where the column's slot
  is `r` and zero elsewhere. The two stores tile the block, so the block is ONE function of the block index; the
  blocks tile the output array, so the array after the region is one function of the three arrays the region
  was entered with, index by index.
-/
import proofs.«125602_j15221364097584_1_alg».proof.Proof.FramePb
import proofs.«125602_j15221364097584_1_alg».proof.Proof.LibPlaneLayout
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open Cert.Lib.PlaneLayout

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The output block as one function of the block index, from the three input tiles: the transformed tile in
    rows 0 … 512; in row `513 + r`, a column's coefficient where its slot is `r`, else zero. -/
def blockOf (x0 : Vec F S1x513x256 .f32) (x1 : Vec F S1x256 .i32) (x2 : Vec F S1x256 .f32) : Vec F S1x8705x256 .f32 := fun y =>
  if h : (y 1).val < 513 then x0 (ix3 (y 0) ⟨(y 1).val, h⟩ (y 2))
  else Scalar.select (IntOp.cmpi .eq (BitVec.ofNat 32 ((y 1).val - 513)) (x1 (ix2 (y 0) (y 2)))) (x2 (ix2 (y 0) (y 2))) (Scalar.ofBits .f32 0x00000000#32)

/-- The store of the transformed tile, read where its rectangle puts it. -/
theorem copy_at (x0 : Vec F S1x513x256 .f32) (x1 : Vec F S1x256 .i32) (x2 : Vec F S1x256 .f32) (a : Fin 1) (r : Fin 513) (j : Fin 256) :
    k1_pay1 x0 (ix3 a r j)
      = blockOf x0 x1 x2 ((Rect.unit (s := S1x8705x256) ![0, 0, 0] ![1, 513, 256] inb_S1x8705x256_S1x513x256_0_0_0).emb (ix3 a r j)) := by
  have e0 : ((Rect.unit (s := S1x8705x256) ![0, 0, 0] ![1, 513, 256] inb_S1x8705x256_S1x513x256_0_0_0).emb (ix3 a r j)) 0 = a :=
    Fin.ext (by show 0 + 1 * a.val = a.val; omega)
  have e1 : (((Rect.unit (s := S1x8705x256) ![0, 0, 0] ![1, 513, 256] inb_S1x8705x256_S1x513x256_0_0_0).emb (ix3 a r j)) 1).val = r.val := by
    show 0 + 1 * r.val = r.val; omega
  have e2 : ((Rect.unit (s := S1x8705x256) ![0, 0, 0] ![1, 513, 256] inb_S1x8705x256_S1x513x256_0_0_0).emb (ix3 a r j)) 2 = j :=
    Fin.ext (by show 0 + 1 * j.val = j.val; omega)
  have hlt : (((Rect.unit (s := S1x8705x256) ![0, 0, 0] ![1, 513, 256] inb_S1x8705x256_S1x513x256_0_0_0).emb (ix3 a r j)) 1).val < 513 := by
    rw [e1]; exact r.isLt
  unfold blockOf k1_pay1
  rw [dif_pos hlt, shapeCast_self]
  refine congrArg x0 (funext fun d => ?_)
  match d with
  | ⟨0, _⟩ => exact e0.symm
  | ⟨1, _⟩ => exact Fin.ext e1.symm
  | ⟨2, _⟩ => exact e2.symm

/-- The store of the dense compare, read where its rectangle puts it. -/
theorem compare_at (x0 : Vec F S1x513x256 .f32) (x1 : Vec F S1x256 .i32) (x2 : Vec F S1x256 .f32) (a : Fin 1) (r : Fin 8192) (j : Fin 256) :
    k1_pay2 x1 x2 (ix3 a r j)
      = blockOf x0 x1 x2 ((Rect.unit (s := S1x8705x256) ![0, 513, 0] ![1, 8192, 256] inb_S1x8705x256_S1x8192x256_0_513_0).emb (ix3 a r j)) := by
  have e0 : ((Rect.unit (s := S1x8705x256) ![0, 513, 0] ![1, 8192, 256] inb_S1x8705x256_S1x8192x256_0_513_0).emb (ix3 a r j)) 0 = a :=
    Fin.ext (by show 0 + 1 * a.val = a.val; omega)
  have e1 : (((Rect.unit (s := S1x8705x256) ![0, 513, 0] ![1, 8192, 256] inb_S1x8705x256_S1x8192x256_0_513_0).emb (ix3 a r j)) 1).val = 513 + r.val := by
    show 513 + 1 * r.val = 513 + r.val; omega
  have e2 : ((Rect.unit (s := S1x8705x256) ![0, 513, 0] ![1, 8192, 256] inb_S1x8705x256_S1x8192x256_0_513_0).emb (ix3 a r j)) 2 = j :=
    Fin.ext (by show 0 + 1 * j.val = j.val; omega)
  have hge : ¬ (((Rect.unit (s := S1x8705x256) ![0, 513, 0] ![1, 8192, 256] inb_S1x8705x256_S1x8192x256_0_513_0).emb (ix3 a r j)) 1).val < 513 := by
    rw [e1]; omega
  unfold blockOf
  rw [dif_neg hge, e0, e1, e2, Nat.add_sub_cancel_left]
  show Scalar.select (IntOp.cmpi .eq (iota .tc S1x8192x256 32 [1] iota_S1x8192x256_d1_w32 (ix3 a r j))
        (broadcastTo S1x8192x256 (shapeCast S1x1x256 (shapeCast S1x256 x1 shapeCasts_S1x256_S1x256) shapeCasts_S1x256_S1x1x256) broadcasts_S1x1x256_S1x8192x256 (ix3 a r j)))
      (broadcastTo S1x8192x256 (shapeCast S1x1x256 (shapeCast S1x1x256 (shapeCast S1x256 x2 shapeCasts_S1x256_S1x256) shapeCasts_S1x256_S1x1x256) shapeCasts_S1x1x256_S1x1x256) broadcasts_S1x1x256_S1x8192x256 (ix3 a r j))
      (Scalar.ofBits .f32 0x00000000#32) = _
  rw [iota_single_apply, broadcastTo_c1w_chw_apply, broadcastTo_c1w_chw_apply]
  simp only [shapeCast_self]
  rw [shapeCast_cw_c1w_apply, shapeCast_cw_c1w_apply]

/-- What the body leaves in the output's staging buffer is that one function of the three input tiles. -/
theorem out_eq (c : Dev nD) (i : grid1.Coords) (arg1 : Memref sig .tc .vmem S1x513x256 .f32) (harg1 : arg1.IsWhole) (arg2 : Memref sig .tc .vmem S1x256 .i32) (harg2 : arg2.IsWhole) (arg3 : Memref sig .tc .vmem S1x256 .f32) (harg3 : arg3.IsWhole) (arg4 : Memref sig .tc .vmem S1x8705x256 .f32) (harg4 : arg4.IsWhole)
    (x0 : Vec F S1x513x256 .f32) (x1 : Vec F S1x256 .i32) (x2 : Vec F S1x256 .f32) :
    out1_A_3 c i arg1 harg1 arg2 harg2 arg3 harg3 arg4 harg4 x0 x1 x2 = blockOf x0 x1 x2 := by
  unfold out1_A_3
  rw [View.read_writes_eq_canon _ _ _ (cover1_A_3 c i arg1 harg1 arg2 harg2 arg3 harg3 arg4 harg4 x0 x1 x2)]
  funext y
  refine View.canon_apply_of_pieces (blockOf x0 x1 x2) _ ?_ y (cover1_A_3 c i arg1 harg1 arg2 harg2 arg3 harg3 arg4 harg4 x0 x1 x2 y)
  unfold kernelRun1_A
  dsimp only
  simp only [View.readAt_eq_ld, harg1.read_unread, harg2.read_unread, harg3.read_unread,
    View.ld_unit_zero (S := S1x256) hz2, View.ld_unit_zero (S := S1x513x256) hz3]
  intro p hp x
  rcases List.mem_cons.mp hp with rfl | hp
  · obtain ⟨a, r, j, rfl⟩ : ∃ (a : Fin 1) (r : Fin 8192) (j : Fin 256), x = ix3 a r j := ⟨x 0, x 1, x 2, eq_ix3 x⟩
    exact compare_at x0 x1 x2 a r j
  · rcases List.mem_cons.mp hp with rfl | hp
    · obtain ⟨a, r, j, rfl⟩ : ∃ (a : Fin 1) (r : Fin 513) (j : Fin 256), x = ix3 a r j := ⟨x 0, x 1, x 2, eq_ix3 x⟩
      exact copy_at x0 x1 x2 a r j
    · exact absurd hp List.not_mem_nil

/-! ## From blocks to the array -/

/-- The output array as one function of the three arrays the region is entered with: rows 0 … 512 the
    transformed array; row `513 + r` holds a column's coefficient where its slot is `r`, else zero. -/
def arrOf (T : S1x513x8192.Idx → Elt F .f32) (R : S1x8192.Idx → Elt F .i32) (v : S1x8192.Idx → Elt F .f32) :
    S1x8705x8192.Idx → Elt F .f32 := fun i =>
  if h : (i 1).val < 513 then T (ix3 (i 0) ⟨(i 1).val, h⟩ (i 2))
  else Scalar.select (IntOp.cmpi .eq (BitVec.ofNat 32 ((i 1).val - 513)) (R (ix2 (i 0) (i 2)))) (v (ix2 (i 0) (i 2))) (Scalar.ofBits .f32 0x00000000#32)

/-- The printed index maps over the grid: every window's block index is the grid point on the column axis and
    zero on the others. -/
theorem idx_facts : ∀ t : Fin cfg1.N,
    win1_0.index t (0 : Fin 3) = 0 ∧ win1_0.index t (1 : Fin 3) = 0 ∧ win1_0.index t (2 : Fin 3) = t.val
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 3) = 0 ∧ win1_3.index t (1 : Fin 3) = 0 ∧ win1_3.index t (2 : Fin 3) = t.val :=
  (by decide +kernel : ∀ t : Fin grid1.N, _)

section Entry
variable (V : (c : Dev nD) → (b : Ref sig .tc) → Buf (Elt F) ((c : Thread nD τ).loc b))

/-- What grid point `t` writes back is block `t` of that one function of the arrays the region finds. -/
theorem flushed_eq (c : Dev nD) (t : Fin cfg1.N) :
    (dat1 V c).flushed 3 t
      = ((cfg1.win 3).blk t).view.read (Elt F) (arrOf (V c main_v0_0) (V c main_v8) (V c main_v0_2)) := by
  show (cfg1.win 3).cut (grid1.coords t) ((dat1 V c).after 3 t) = _
  rw [after1_3]
  unfold outsAt1
  rw [out_eq]
  obtain ⟨a0, a1, a2, b0, b1, c0, c1, d0, d1, d2⟩ := idx_facts t
  funext y
  show blockOf (iblk1 V c 0 t) (iblk1 V c 1 t) (iblk1 V c 2 t) y
      = arrOf (V c main_v0_0) (V c main_v8) (V c main_v0_2) (((cfg1.win 3).blk t).view.emb y)
  have f0 : ((((cfg1.win 3).blk t).view.emb y) 0).val = (y 0).val := by
    show win1_3.index t (0 : Fin 3) * 1 + 1 * (y 0).val = (y 0).val; omega
  have f1 : ((((cfg1.win 3).blk t).view.emb y) 1).val = (y 1).val := by
    show win1_3.index t (1 : Fin 3) * 8705 + 1 * (y 1).val = (y 1).val; omega
  have f2 : ((((cfg1.win 3).blk t).view.emb y) 2).val = t.val * 256 + (y 2).val := by
    show win1_3.index t (2 : Fin 3) * 256 + 1 * (y 2).val = t.val * 256 + (y 2).val; omega
  unfold blockOf arrOf
  by_cases h : (y 1).val < 513
  · rw [dif_pos h, dif_pos (by rw [f1]; exact h)]
    show V c main_v0_0 (((cfg1.win 0).blk t).view.emb (ix3 (y 0) ⟨(y 1).val, h⟩ (y 2))) = V c main_v0_0 _
    refine congrArg (V c main_v0_0) (funext fun d => Fin.ext ?_)
    match d with
    | ⟨0, _⟩ => show win1_0.index t (0 : Fin 3) * 1 + 1 * (y 0).val = ((((cfg1.win 3).blk t).view.emb y) 0).val; rw [f0]; omega
    | ⟨1, _⟩ => show win1_0.index t (1 : Fin 3) * 513 + 1 * (y 1).val = ((((cfg1.win 3).blk t).view.emb y) 1).val; rw [f1]; omega
    | ⟨2, _⟩ => show win1_0.index t (2 : Fin 3) * 256 + 1 * (y 2).val = ((((cfg1.win 3).blk t).view.emb y) 2).val; rw [f2]; omega
  · rw [dif_neg h, dif_neg (by rw [f1]; exact h)]
    have g1 : iblk1 V c 1 t (ix2 (y 0) (y 2)) = V c main_v8 (ix2 ((((cfg1.win 3).blk t).view.emb y) 0) ((((cfg1.win 3).blk t).view.emb y) 2)) := by
      show V c main_v8 (((cfg1.win 1).blk t).view.emb (ix2 (y 0) (y 2))) = V c main_v8 _
      refine congrArg (V c main_v8) (funext fun d => Fin.ext ?_)
      match d with
      | ⟨0, _⟩ => show win1_1.index t (0 : Fin 2) * 1 + 1 * (y 0).val = ((((cfg1.win 3).blk t).view.emb y) 0).val; rw [f0]; omega
      | ⟨1, _⟩ => show win1_1.index t (1 : Fin 2) * 256 + 1 * (y 2).val = ((((cfg1.win 3).blk t).view.emb y) 2).val; rw [f2]; omega
    have g2 : iblk1 V c 2 t (ix2 (y 0) (y 2)) = V c main_v0_2 (ix2 ((((cfg1.win 3).blk t).view.emb y) 0) ((((cfg1.win 3).blk t).view.emb y) 2)) := by
      show V c main_v0_2 (((cfg1.win 2).blk t).view.emb (ix2 (y 0) (y 2))) = V c main_v0_2 _
      refine congrArg (V c main_v0_2) (funext fun d => Fin.ext ?_)
      match d with
      | ⟨0, _⟩ => show win1_2.index t (0 : Fin 2) * 1 + 1 * (y 0).val = ((((cfg1.win 3).blk t).view.emb y) 0).val; rw [f0]; omega
      | ⟨1, _⟩ => show win1_2.index t (1 : Fin 2) * 256 + 1 * (y 2).val = ((((cfg1.win 3).blk t).view.emb y) 2).val; rw [f2]; omega
    rw [g1, g2, f1]

/-- An index of the output array is in point `t`'s block iff each coordinate is in the block's range. -/
theorem mem_blk (t : Fin cfg1.N) (i : S1x8705x8192.Idx) :
    i ∈ ((cfg1.win 3).blk t).view.set ↔ ∀ a : Fin 3, win1_3.index t a * S1x8705x256.size a ≤ (i a).val
      ∧ (i a).val < win1_3.index t a * S1x8705x256.size a + S1x8705x256.size a := by
  show i ∈ ((View.whole main_v9).slice (win1_3.rect t)).set ↔ _
  rw [View.set_slice_whole, Rect.mem_set_unit]
  exact Iff.rfl

/-- Every index of the output array is in the block of the point that holds its column's tile. -/
theorem cover (i : S1x8705x8192.Idx) :
    ∃ t : Fin cfg1.N, (cfg1.win 3).flush t = true ∧ i ∈ ((cfg1.win 3).blk t).view.set := by
  have h0 : (i 0).val < 1 := (i 0).isLt
  have h1 : (i 1).val < 8705 := (i 1).isLt
  have h2 : (i 2).val < 8192 := (i 2).isLt
  have hN : cfg1.N = 32 := N_1
  obtain ⟨t, ht⟩ : ∃ t : Fin cfg1.N, t.val = (i 2).val / 256 := ⟨⟨(i 2).val / 256, by rw [hN]; omega⟩, rfl⟩
  obtain ⟨-, -, -, -, -, -, -, d0, d1, d2⟩ := idx_facts t
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 8705 ≤ (i 1).val ∧ (i 1).val < win1_3.index t (1 : Fin 3) * 8705 + 8705; omega
  | ⟨2, _⟩ => show win1_3.index t (2 : Fin 3) * 256 ≤ (i 2).val ∧ (i 2).val < win1_3.index t (2 : Fin 3) * 256 + 256; omega

/-- The output array after the region: that one function of the three arrays the region was entered with. -/
theorem final (c : Dev nD) :
    (dat1 V c).arrAt 3 cfg1.N = arrOf (V c main_v0_0) (V c main_v8) (V c main_v0_2) :=
  (dat1 V c).arrAt_eq_of_cover 3 _ (fun t _ => flushed_eq V c t) cover

end Entry

end Cert.KernelIdeal.Region1

end
-- ==== Proof.Region0Canon.lean ====
/-
  Region 0, the first output's two stores read back. The body writes the block of shape [1, 513, 2048] by two
  stores: row 0 (a [1, 1, 2048] piece at offsets (0, 0, 0)) and then rows 1..512 (a [1, 512, 2048] piece at offsets
  (0, 1, 0)). The two rectangles are disjoint and cover the block, so the contents the stores leave read, at row 0,
  the first store's value, and at row k + 1, the second store's value at row k — for any value type.
-/
import proofs.«125602_j15221364097584_1_alg».proof.Proof.Gen.KernelIdeal
import Idealize.ShloMosaic.Lib.Pipeline.Value
import Idealize.ShloMosaic.Lib.ValueIdx

noncomputable section

open Idealize.ShloMosaic Idealize.ShloMosaic.ValueIdx

namespace Cert.Zono.R0

open Cert.KernelIdeal Cert.KernelIdeal.Gen

/-- The rectangle of the coefficient rows 1..512 inside the block. -/
abbrev rRows : Rect S1x513x2048 :=
  Rect.unit (s := S1x513x2048) ![0, 1, 0] S1x512x2048.size inb_S1x513x2048_S1x512x2048_0_1_0
/-- The rectangle of the centre row 0 inside the block. -/
abbrev rTop : Rect S1x513x2048 :=
  Rect.unit (s := S1x513x2048) ![0, 0, 0] S1x1x2048.size inb_S1x513x2048_S1x1x2048_0_0_0

/-- Row k of the coefficient rectangle is row k + 1 of the block. -/
theorem rRows_emb (k : Fin 512) (r : Fin 513) (hr : r.val = k.val + 1) (l : Fin 2048) :
    rRows.emb (ix3 (0 : Fin 1) k l) = ix3 (0 : Fin 1) r l := by
  funext a
  refine Fin.ext ?_
  match a with
  | ⟨0, _⟩ => rfl
  | ⟨1, _⟩ => show 1 + 1 * k.val = r.val; omega
  | ⟨2, _⟩ => show 0 + 1 * l.val = l.val; omega

/-- The centre rectangle's one row is row 0 of the block. -/
theorem rTop_emb (l : Fin 2048) :
    rTop.emb (ix3 (0 : Fin 1) (0 : Fin 1) l) = ix3 (0 : Fin 1) (0 : Fin 513) l := by
  funext a
  refine Fin.ext ?_
  match a with
  | ⟨0, _⟩ => rfl
  | ⟨1, _⟩ => rfl
  | ⟨2, _⟩ => show 0 + 1 * l.val = l.val; omega

/-- Row 0 of the block is outside the coefficient rectangle. -/
theorem top_not_mem_rRows (l : Fin 2048) : ix3 (0 : Fin 1) (0 : Fin 513) l ∉ rRows.set := by
  rw [Rect.mem_set_unit]
  intro h
  have h1 : (1 : Nat) ≤ 0 := (h (1 : Fin 3)).1
  omega

variable {Val : EltTy → Type} [∀ e, Nonempty (Val e)] {e : EltTy}

/-- The two pieces, last store first: the coefficient rows, then the centre row. -/
abbrev twoStores (wRows : S1x512x2048.Idx → Val e) (wTop : S1x1x2048.Idx → Val e) : List (View.Piece Val S1x513x2048 e) :=
  [(⟨rRows, wRows⟩ : View.Piece Val S1x513x2048 e), (⟨rTop, wTop⟩ : View.Piece Val S1x513x2048 e)]

/-- Row k + 1 of the block lies under the later store, at its row k. -/
theorem canon_rows (wRows : S1x512x2048.Idx → Val e) (wTop : S1x1x2048.Idx → Val e) (k : Fin 512) (r : Fin 513)
    (hr : r.val = k.val + 1) (l : Fin 2048) :
    View.canon (twoStores wRows wTop) (ix3 (0 : Fin 1) r l) = wRows (ix3 (0 : Fin 1) k l) :=
  (congrArg (View.canon (twoStores wRows wTop)) (rRows_emb k r hr l).symm).trans
    (View.canon_cons_emb rRows wRows [(⟨rTop, wTop⟩ : View.Piece Val S1x513x2048 e)] (ix3 (0 : Fin 1) k l))

/-- Row 0 of the block lies outside the later store and under the earlier one. -/
theorem canon_top (wRows : S1x512x2048.Idx → Val e) (wTop : S1x1x2048.Idx → Val e) (l : Fin 2048) :
    View.canon (twoStores wRows wTop) (ix3 (0 : Fin 1) (0 : Fin 513) l) = wTop (ix3 (0 : Fin 1) (0 : Fin 1) l) :=
  (View.canon_cons_of_not_mem (⟨rRows, wRows⟩ : View.Piece Val S1x513x2048 e) [(⟨rTop, wTop⟩ : View.Piece Val S1x513x2048 e)]
      (top_not_mem_rRows l)).trans
    ((congrArg (View.canon [(⟨rTop, wTop⟩ : View.Piece Val S1x513x2048 e)]) (rTop_emb l).symm).trans
      (View.canon_cons_emb rTop wTop [] (ix3 (0 : Fin 1) (0 : Fin 1) l)))

end Cert.Zono.R0

end
-- ==== Proof.Region0Pieces.lean ====
/-
  Region 0, what the transform body leaves in each output's staging buffer, for any float instance: as a function of
  the input block x0 (shape [1, 513, 2048]) the first output holds the two stores of the new centre row and of the
  scaled coefficient rows, the second the crossing indicator, the third the new error coefficient. The body loads its
  whole input buffer once, so every stored value is a pure term of x0.
-/
import proofs.«125602_j15221364097584_1_alg».proof.Proof.FramePa
import proofs.«125602_j15221364097584_1_alg».proof.Proof.Region0Canon
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx

namespace Cert.Zono.R0

open Cert.KernelIdeal Cert.KernelIdeal.Gen Cert.KernelIdeal.GenP

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The second output's buffer holds the crossing indicator of the block. -/
theorem out2_eq (c : Dev nD) (i : grid0.Coords) (arg1 : Memref sig .tc .vmem S1x513x2048 .f32) (harg1 : arg1.IsWhole) (arg2 : Memref sig .tc .vmem S1x513x2048 .f32) (harg2 : arg2.IsWhole) (arg3 : Memref sig .tc .vmem S1x2048 .f32) (harg3 : arg3.IsWhole) (arg4 : Memref sig .tc .vmem S1x2048 .f32) (harg4 : arg4.IsWhole)
    (x0 : Vec F S1x513x2048 .f32) :
    out0_A_2 c i arg1 harg1 arg2 harg2 arg3 harg3 arg4 harg4 x0 = k0_pay7 x0 := by
  unfold out0_A_2
  rw [View.read_writes_eq_canon _ _ _ (cover0_A_2 c i arg1 harg1 arg2 harg2 arg3 harg3 arg4 harg4 x0)]
  unfold kernelRun0_A
  dsimp only
  try sl_unfold_words
  rw [View.canon_unit_zero hz2]
  simp only [View.readAt_eq_ld, harg1.read_unread, View.ld_unit_zero (S := S1x513x2048) hz3]

/-- The third output's buffer holds the new error coefficient of the block. -/
theorem out3_eq (c : Dev nD) (i : grid0.Coords) (arg1 : Memref sig .tc .vmem S1x513x2048 .f32) (harg1 : arg1.IsWhole) (arg2 : Memref sig .tc .vmem S1x513x2048 .f32) (harg2 : arg2.IsWhole) (arg3 : Memref sig .tc .vmem S1x2048 .f32) (harg3 : arg3.IsWhole) (arg4 : Memref sig .tc .vmem S1x2048 .f32) (harg4 : arg4.IsWhole)
    (x0 : Vec F S1x513x2048 .f32) :
    out0_A_3 c i arg1 harg1 arg2 harg2 arg3 harg3 arg4 harg4 x0 = k0_pay1 (k0_pay7 x0) (k0_pay10 x0) := by
  unfold out0_A_3
  rw [View.read_writes_eq_canon _ _ _ (cover0_A_3 c i arg1 harg1 arg2 harg2 arg3 harg3 arg4 harg4 x0)]
  unfold kernelRun0_A
  dsimp only
  try sl_unfold_words
  rw [View.canon_unit_zero hz2]
  simp only [View.readAt_eq_ld, harg1.read_unread, View.ld_unit_zero (S := S1x513x2048) hz3]

/-- The first output's buffer holds the two stores: the scaled coefficient rows over the new centre row. -/
theorem out1_eq (c : Dev nD) (i : grid0.Coords) (arg1 : Memref sig .tc .vmem S1x513x2048 .f32) (harg1 : arg1.IsWhole) (arg2 : Memref sig .tc .vmem S1x513x2048 .f32) (harg2 : arg2.IsWhole) (arg3 : Memref sig .tc .vmem S1x2048 .f32) (harg3 : arg3.IsWhole) (arg4 : Memref sig .tc .vmem S1x2048 .f32) (harg4 : arg4.IsWhole)
    (x0 : Vec F S1x513x2048 .f32) :
    out0_A_1 c i arg1 harg1 arg2 harg2 arg3 harg3 arg4 harg4 x0 = View.canon (twoStores (k0_pay11 x0) (k0_pay12 x0)) := by
  unfold out0_A_1
  rw [View.read_writes_eq_canon _ _ _ (cover0_A_1 c i arg1 harg1 arg2 harg2 arg3 harg3 arg4 harg4 x0)]
  unfold kernelRun0_A
  dsimp only
  try sl_unfold_words
  simp only [View.readAt_eq_ld, harg1.read_unread, View.ld_unit_zero (S := S1x513x2048) hz3]

end Cert.Zono.R0

end
-- ==== Proof.Spec.lean ====
/-
  The result both programs are proved to compute, as ONE function of the argument array, index by index,
  over the extended reals.

  The argument `x` has one batch, 513 rows and 8192 columns: row 0 is a centre `a`, rows 1 … 512 are error
  coefficients. For a column `c`, with `s = ∑ₖ |x[0, k+1, c]|`:
    upper = a + s, lower = a - s, cross = [lower · upper < 0], pos = [0 ≤ lower]   (truth values as 0 / 1),
    denom = 1 if upper = lower, else upper - lower,      lam = pos + cross · upper / denom,
    delta = max (-lam · lower) ((1 - lam) · upper),
    centre = (delta · ½ + lam · a) · cross + a · pos,    scale = lam · cross + pos,    vals = delta · ½ · cross.
  The transformed array has the centre in row 0 and `x[0, k+1, c] · scale` in row `k+1`. The running count of
  crossing columns, less one, clipped below at zero, is a column's slot `rows c` (a 32-bit integer); the result
  has 8705 rows: rows 0 … 512 are the transformed array, and row `513 + r` holds `vals c` in the column whose
  slot is `r` and zero elsewhere. The float literals stay the words the programs print (the same word on both
  sides is never evaluated).
-/
import Idealize.ShloMosaic.PureOps.Ideal
import Idealize.ShloMosaic.PureOps.Ideal.Laws
import Idealize.ShloMosaic.PureOps.Contract
import Idealize.ShloMosaic.Lib.ValueIdx

noncomputable section

open scoped BigOperators

namespace Cert.Zono

open Idealize.ShloMosaic Idealize.ShloMosaic.ValueIdx

/-- The argument's shape: one batch, the centre row and 512 error rows, 8192 columns. -/
abbrev SX : Shape := ⟨3, ![1, 513, 8192]⟩
/-- A row over the columns, with the batch axis. -/
abbrev SRow : Shape := ⟨2, ![1, 8192]⟩
/-- A row over the columns. -/
abbrev SVec : Shape := ⟨1, ![8192]⟩
/-- Rank zero. -/
abbrev S0 : Shape := ⟨0, ![]⟩
/-- The result's shape: the 513 transformed rows, then one row per slot. -/
abbrev SOut : Shape := ⟨3, ![1, 8705, 8192]⟩

/-- The words of 0, 1 and ½ at the 32-bit format, as the extended reals they denote. -/
abbrev zeroW : EReal := Ideal.ofBits .f32 0x00000000#32
abbrev oneW : EReal := Ideal.ofBits .f32 0x3F800000#32
abbrev halfW : EReal := Ideal.ofBits .f32 0x3F000000#32

/-- A truth value as the extended real 0 or 1. -/
def ind (b : BitVec 1) : EReal := ((b.toNat : ℝ) : EReal)

/-! ## One column: the centre `a` and the sum `s` of the error coefficients' absolute values -/

def upper (a s : EReal) : EReal := a + s
def lower (a s : EReal) : EReal := a - s
/-- 1 where the interval `[lower, upper]` strictly contains zero. -/
def crossS (a s : EReal) : EReal := ind (Ideal.cmp .olt (lower a s * upper a s) zeroW)
/-- 1 where the interval is nonnegative. -/
def posS (a s : EReal) : EReal := ind (Ideal.cmp .oge (lower a s) zeroW)
/-- The interval's width, replaced by 1 where it is a point. -/
def denomS (a s : EReal) : EReal :=
  Scalar.select (Ideal.cmp .oeq (upper a s) (lower a s)) oneW (upper a s - lower a s)
/-- The slope of the relaxation. -/
def lamS (a s : EReal) : EReal := posS a s + Ideal.div (crossS a s * upper a s) (denomS a s)
/-- The width of the relaxation's error. -/
def deltaS (a s : EReal) : EReal := max (-(lamS a s) * lower a s) ((oneW - lamS a s) * upper a s)
def centreS (a s : EReal) : EReal := (deltaS a s * halfW + lamS a s * a) * crossS a s + a * posS a s
def scaleS (a s : EReal) : EReal := lamS a s * crossS a s + posS a s
def valsS (a s : EReal) : EReal := deltaS a s * halfW * crossS a s

/-! ## The arrays -/

/-- Error coefficient `k`'s row of the argument. -/
def errRow (k : Fin 512) : Fin 513 := ⟨k.val + 1, by omega⟩

/-- Column `c`'s centre. -/
def ctr (x : SX.Idx → EReal) (c : Fin 8192) : EReal := x (ix3 0 0 c)

/-- Column `c`'s sum of the error coefficients' absolute values (`|y| = max y (-y)`). -/
def colAbsSum (x : SX.Idx → EReal) (c : Fin 8192) : EReal :=
  ∑ k : Fin 512, max (x (ix3 0 (errRow k) c)) (-(x (ix3 0 (errRow k) c)))

/-- The transformed array: the new centre in row 0, the error coefficients scaled below it. -/
def transformed (x : SX.Idx → EReal) : SX.Idx → EReal := fun i =>
  if (i 1).val = 0 then centreS (ctr x (i 2)) (colAbsSum x (i 2))
  else x i * scaleS (ctr x (i 2)) (colAbsSum x (i 2))

/-- The crossing indicator of every column. -/
def crossArr (x : SX.Idx → EReal) : SRow.Idx → EReal := fun j => crossS (ctr x (j 1)) (colAbsSum x (j 1))

/-- The new error term's coefficient of every column (zero where the column does not cross). -/
def valsArr (x : SX.Idx → EReal) : SRow.Idx → EReal := fun j => valsS (ctr x (j 1)) (colAbsSum x (j 1))

/-- A column's slot among the new rows: the running count of crossing columns up to and including it (the
    indicators converted to 32-bit integers and summed over a window of all columns to its left and itself), less
    one, clipped below at zero. The running count is kept as the window sum it is computed by: nothing below
    depends on its value. -/
def rowsOf (cr : SRow.Idx → EReal) : SVec.Idx → BitVec 32 :=
  maxsi
    (subi
      (Host.reduceWindow IntOp.addi ![8192] ![1] ![8191] ![0]
        (fptosi (F := Ideal) (φ := .f32) 32 (shapeCast SVec (cr : FVec Ideal SRow .f32) (by decide)))
        (broadcastInDim S0 ![] (by decide) (constantI S0 32 0#32)) (by decide) (by decide))
      (broadcastInDim SVec ![] (by decide) (constantI S0 32 1#32)))
    (broadcastInDim SVec ![] (by decide) (constantI S0 32 0#32))

/-- The result: rows 0 … 512 the transformed array; row `513 + r` holds a column's new coefficient where the
    column's slot is `r`, and zero elsewhere. -/
def G (x : SX.Idx → EReal) : SOut.Idx → EReal := fun i =>
  if h : (i 1).val < 513 then transformed x (ix3 0 ⟨(i 1).val, h⟩ (i 2))
  else if rowsOf (crossArr x) (ix1 (i 2)) = BitVec.ofNat 32 ((i 1).val - 513) then valsArr x (ix2 0 (i 2))
  else 0

end Cert.Zono

end
-- ==== Proof.Region0Payload.lean ====
/-
  Region 0, the arithmetic of one column block. For an input block x0 of shape [1, 513, 2048] (row 0 the centres, rows
  1..512 the error coefficients) every value the transform body stores is read here at an index, over the extended
  reals, in the specification's own scalar functions of the column's centre a = x0[0, 0, l] and radius
  s = the sum over k of |x0[0, k+1, l]|. Nothing here mentions memory: these are statements about pure terms.
-/
import proofs.«125602_j15221364097584_1_alg».proof.Proof.Gen.KernelIdeal.Skeleton
import proofs.«125602_j15221364097584_1_alg».proof.Proof.Spec
import Idealize.ShloMosaic.Lib.ValueLayout
import Idealize.ShloMosaic.PureOps.Ideal.Laws

noncomputable section

open Idealize.ShloMosaic Idealize.ShloMosaic.ValueIdx
open scoped BigOperators

namespace Cert.Zono.R0

open Cert.KernelIdeal Cert.KernelIdeal.Gen

/-! ## Two facts about words -/

/-- A truth value widened to 32 bits and converted from a signed integer is the extended real 0 or 1. -/
theorem sitofp_bit (b : BitVec 1) : FloatOps.sitofp (F := Ideal) .f32 (b.setWidth 32) = ind b := by
  rcases BitVec.eq_zero_or_eq_one b with h | h <;> subst h
  · show (((BitVec.toInt ((0#1 : BitVec 1).setWidth 32) : ℤ) : ℝ) : EReal) = (((0#1 : BitVec 1).toNat : ℝ) : EReal)
    have e1 : BitVec.toInt ((0#1 : BitVec 1).setWidth 32) = 0 := by decide
    have e2 : (0#1 : BitVec 1).toNat = 0 := by decide
    rw [e1, e2, Int.cast_zero, Nat.cast_zero]
  · show (((BitVec.toInt ((1#1 : BitVec 1).setWidth 32) : ℤ) : ℝ) : EReal) = (((1#1 : BitVec 1).toNat : ℝ) : EReal)
    have e1 : BitVec.toInt ((1#1 : BitVec 1).setWidth 32) = 1 := by decide
    have e2 : (1#1 : BitVec 1).toNat = 1 := by decide
    rw [e1, e2, Int.cast_one, Nat.cast_one]

/-- Subtracting from the zero word's value is negation. -/
theorem zeroW_sub (y : EReal) : zeroW - y = -y := by
  rw [show zeroW = 0 from Ideal.ofBits_zero_f32, zero_sub]

/-! ## The block's two reads: the centre row and the coefficient rows -/

variable (x0 : Vec Ideal S1x513x2048 .f32)

/-- The centre of column l of the block: its row 0. -/
def bctr (l : Fin 2048) : EReal := x0 (ix3 (0 : Fin 1) (0 : Fin 513) l)

/-- The radius of column l of the block: the sum over its 512 coefficient rows of the absolute values. -/
def brad (l : Fin 2048) : EReal :=
  ∑ k : Fin 512, max (x0 (ix3 (0 : Fin 1) (errRow k) l)) (-(x0 (ix3 (0 : Fin 1) (errRow k) l)))

/-- Row 0 of the block, with its unit axis dropped, read at column l. -/
theorem pay2_apply (l : Fin 2048) : k0_pay2 x0 (ix2 (0 : Fin 1) l) = bctr x0 l := by
  unfold k0_pay2
  refine (shapeCast_1ab_ab_apply _ _ (0 : Fin 1) l).trans ?_
  exact extractStridedSlice_apply _ _ _ _ (ix3 (0 : Fin 1) (0 : Fin 513) l) (fun ax => by
    match ax with
    | ⟨0, _⟩ => rfl
    | ⟨1, _⟩ => rfl
    | ⟨2, _⟩ => exact (Nat.zero_add _).symm)

/-- Rows 1..512 of the block, read at (k, l): row k + 1. -/
theorem pay3_apply (k : Fin 512) (l : Fin 2048) :
    k0_pay3 x0 (ix3 (0 : Fin 1) k l) = x0 (ix3 (0 : Fin 1) (errRow k) l) := by
  unfold k0_pay3
  exact slice3_axis1_apply 1 x0 _ (0 : Fin 1) k l (errRow k) (Nat.add_comm _ _)

/-- The reduced index (0, l) with coordinate k put back on the reduced axis is (0, k, l). -/
theorem lift_eq (k : Fin 512) (l : Fin 2048) :
    reduces_S1x512x2048_S1x2048.lift (ix2 (0 : Fin 1) l) k = ix3 (0 : Fin 1) k l := by
  funext c
  refine Fin.ext ?_
  match c with
  | ⟨0, _⟩ => rfl
  | ⟨1, _⟩ => rfl
  | ⟨2, _⟩ => rfl

/-- The lane sum of the absolute values, read at column l: the column's radius. -/
theorem pay4_apply (l : Fin 2048) : k0_pay4 x0 (ix2 (0 : Fin 1) l) = brad x0 l := by
  unfold k0_pay4
  refine (Ideal.reduceAdd_single (a := (1 : Fin 3)) reduces_S1x512x2048_S1x2048 (absf (k0_pay3 x0)) (ix2 (0 : Fin 1) l)).trans ?_
  unfold brad
  refine Finset.sum_congr rfl fun k _ => ?_
  refine (congrArg (fun i => max (k0_pay3 x0 i) (-(k0_pay3 x0 i))) (lift_eq k l)).trans ?_
  exact congrArg (fun y : EReal => max y (-y)) (pay3_apply x0 k l)

/-! ## The pointwise part, at any index of a row: the specification's scalar functions of the two reads -/

section Pointwise
variable (j : S1x2048.Idx)

theorem pay5_eq : k0_pay5 x0 j = upper (k0_pay2 x0 j) (k0_pay4 x0 j) := rfl
theorem pay6_eq : k0_pay6 x0 j = lower (k0_pay2 x0 j) (k0_pay4 x0 j) := rfl
theorem pay7_eq : k0_pay7 x0 j = crossS (k0_pay2 x0 j) (k0_pay4 x0 j) :=
  sitofp_bit (Ideal.cmp .olt (lower (k0_pay2 x0 j) (k0_pay4 x0 j) * upper (k0_pay2 x0 j) (k0_pay4 x0 j)) zeroW)
theorem pay8_eq : k0_pay8 x0 j = posS (k0_pay2 x0 j) (k0_pay4 x0 j) :=
  sitofp_bit (Ideal.cmp .oge (lower (k0_pay2 x0 j) (k0_pay4 x0 j)) zeroW)

theorem pay9_eq : k0_pay9 x0 j = lamS (k0_pay2 x0 j) (k0_pay4 x0 j) := by
  show k0_pay8 x0 j + Ideal.div (k0_pay7 x0 j * k0_pay5 x0 j)
      (Scalar.select (Ideal.cmp .oeq (k0_pay5 x0 j) (k0_pay6 x0 j)) oneW (k0_pay5 x0 j - k0_pay6 x0 j)) = _
  rw [pay8_eq, pay7_eq, pay5_eq, pay6_eq]
  rfl

theorem pay10_eq : k0_pay10 x0 j = deltaS (k0_pay2 x0 j) (k0_pay4 x0 j) := by
  show max ((zeroW - k0_pay9 x0 j) * k0_pay6 x0 j) ((oneW - k0_pay9 x0 j) * k0_pay5 x0 j) = _
  rw [pay9_eq, pay6_eq, pay5_eq, zeroW_sub]
  rfl

/-- The factor the coefficient rows are multiplied by, before it is broadcast over them. -/
theorem scale_eq : addf (mulf (k0_pay9 x0) (k0_pay7 x0)) (k0_pay8 x0) j = scaleS (k0_pay2 x0 j) (k0_pay4 x0 j) := by
  show k0_pay9 x0 j * k0_pay7 x0 j + k0_pay8 x0 j = _
  rw [pay9_eq, pay7_eq, pay8_eq]
  rfl

/-- The new error coefficient the body stores in the third output. -/
theorem pay1_eq : k0_pay1 (k0_pay7 x0) (k0_pay10 x0) j = valsS (k0_pay2 x0 j) (k0_pay4 x0 j) := by
  show k0_pay10 x0 j * halfW * k0_pay7 x0 j = _
  rw [pay10_eq, pay7_eq]
  rfl

end Pointwise

/-! ## The three stored values at column l of the block -/

/-- The crossing indicator at column l. -/
theorem cross_at (l : Fin 2048) : k0_pay7 x0 (ix2 (0 : Fin 1) l) = crossS (bctr x0 l) (brad x0 l) := by
  rw [pay7_eq, pay2_apply, pay4_apply]

/-- The new error coefficient at column l. -/
theorem vals_at (l : Fin 2048) :
    k0_pay1 (k0_pay7 x0) (k0_pay10 x0) (ix2 (0 : Fin 1) l) = valsS (bctr x0 l) (brad x0 l) := by
  rw [pay1_eq, pay2_apply, pay4_apply]

/-- The new centre, stored as row 0 of the first output. -/
theorem centre_at (l : Fin 2048) :
    k0_pay12 x0 (ix3 (0 : Fin 1) (0 : Fin 1) l) = centreS (bctr x0 l) (brad x0 l) := by
  unfold k0_pay12
  refine (shapeCast_ab_1ab_apply _ _ (0 : Fin 1) (0 : Fin 1) l).trans ?_
  show (k0_pay10 x0 (ix2 (0 : Fin 1) l) * halfW + k0_pay9 x0 (ix2 (0 : Fin 1) l) * k0_pay2 x0 (ix2 (0 : Fin 1) l))
        * k0_pay7 x0 (ix2 (0 : Fin 1) l) + k0_pay2 x0 (ix2 (0 : Fin 1) l) * k0_pay8 x0 (ix2 (0 : Fin 1) l) = _
  rw [pay10_eq, pay9_eq, pay7_eq, pay8_eq, pay2_apply, pay4_apply]
  rfl

/-- Coefficient row k, scaled: what the body stores as row k + 1 of the first output. -/
theorem rows_at (k : Fin 512) (l : Fin 2048) :
    k0_pay11 x0 (ix3 (0 : Fin 1) k l) = x0 (ix3 (0 : Fin 1) (errRow k) l) * scaleS (bctr x0 l) (brad x0 l) := by
  unfold k0_pay11
  show k0_pay3 x0 (ix3 (0 : Fin 1) k l) * _ = _
  refine congr (congrArg HMul.hMul (pay3_apply x0 k l)) ?_
  refine (broadcastTo_apply _ _ (ix3 (0 : Fin 1) k l) (ix3 (0 : Fin 1) (0 : Fin 1) l) (fun ax => by
    match ax with
    | ⟨0, _⟩ => rfl
    | ⟨1, _⟩ => rfl
    | ⟨2, _⟩ => rfl)).trans ?_
  refine (shapeCast_ab_1ab_apply _ _ (0 : Fin 1) (0 : Fin 1) l).trans ?_
  rw [scale_eq, pay2_apply, pay4_apply]

end Cert.Zono.R0

end
-- ==== Proof.Region0Value.lean ====
/-
  Region 0, the three output arrays after the region, over the extended reals, for any contents V the region is entered
  with. Grid point t handles columns 2048 t .. 2048 t + 2047: its input block is those columns of the argument array, and
  what it writes back to each output is those columns of ONE whole-array function of the argument — the specification's
  transformed array, crossing indicator and new error coefficient. The four points' blocks cover each output array, so
  after the region each output array is that function.
-/
import proofs.«125602_j15221364097584_1_alg».proof.Proof.FramePa
import proofs.«125602_j15221364097584_1_alg».proof.Proof.Region0Pieces
import proofs.«125602_j15221364097584_1_alg».proof.Proof.Region0Payload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.Zono.R0

open Cert.KernelIdeal Cert.KernelIdeal.Gen Cert.KernelIdeal.GenP

/-! ## One block against the array: a column map -/

section Point

variable (x0 : Vec Ideal S1x513x2048 .f32) (Xa : SX.Idx → EReal) (κ : Fin 2048 → Fin 8192)
  (hx : ∀ (r : Fin 513) (l : Fin 2048), x0 (ix3 (0 : Fin 1) r l) = Xa (ix3 (0 : Fin 1) r (κ l)))

include hx

/-- The block's centre of column l is the array's centre of column κ l. -/
theorem bctr_eq (l : Fin 2048) : bctr x0 l = ctr Xa (κ l) := hx 0 l

/-- The block's radius of column l is the array's radius of column κ l. -/
theorem brad_eq (l : Fin 2048) : brad x0 l = colAbsSum Xa (κ l) := by
  unfold brad colAbsSum
  exact Finset.sum_congr rfl fun k _ => by rw [hx (errRow k) l]

/-- The second output's value at column l of the block is the crossing indicator of column κ l. -/
theorem cross_point (l : Fin 2048) : k0_pay7 x0 (ix2 (0 : Fin 1) l) = crossArr Xa (ix2 (0 : Fin 1) (κ l)) := by
  rw [cross_at, bctr_eq x0 Xa κ hx, brad_eq x0 Xa κ hx]
  rfl

/-- The third output's value at column l of the block is the new error coefficient of column κ l. -/
theorem vals_point (l : Fin 2048) :
    k0_pay1 (k0_pay7 x0) (k0_pay10 x0) (ix2 (0 : Fin 1) l) = valsArr Xa (ix2 (0 : Fin 1) (κ l)) := by
  rw [vals_at, bctr_eq x0 Xa κ hx, brad_eq x0 Xa κ hx]
  rfl

/-- The first output's value at row r, column l of the block is the transformed array at row r, column κ l. -/
theorem out1_point (r : Fin 513) (l : Fin 2048) :
    View.canon (twoStores (Val := Elt Ideal) (e := .f32) (k0_pay11 x0) (k0_pay12 x0)) (ix3 (0 : Fin 1) r l)
      = transformed Xa (ix3 (0 : Fin 1) r (κ l)) := by
  by_cases h0 : r.val = 0
  · obtain rfl : r = 0 := Fin.ext h0
    rw [canon_top, centre_at, bctr_eq x0 Xa κ hx, brad_eq x0 Xa κ hx]
    unfold transformed
    rw [if_pos (show ((ix3 (0 : Fin 1) (0 : Fin 513) (κ l) : SX.Idx) 1).val = 0 from rfl)]
  · have hr : r.val < 513 := r.isLt
    rw [canon_rows _ _ (⟨r.val - 1, by omega⟩ : Fin 512) r (by show r.val = r.val - 1 + 1; omega), rows_at,
      show errRow (⟨r.val - 1, by omega⟩ : Fin 512) = r from Fin.ext (by show r.val - 1 + 1 = r.val; omega),
      hx r l, bctr_eq x0 Xa κ hx, brad_eq x0 Xa κ hx]
    unfold transformed
    rw [if_neg (show ¬((ix3 (0 : Fin 1) r (κ l) : SX.Idx) 1).val = 0 from h0)]

end Point

/-! ## Functions on a block are determined by their values at coordinates -/

theorem fun_eq_of_cols {β : Type} (f g : S1x2048.Idx → β)
    (h : ∀ l : Fin 2048, f (ix2 (0 : Fin 1) l) = g (ix2 (0 : Fin 1) l)) : f = g := by
  funext j
  obtain ⟨u, l, rfl⟩ : ∃ (u : Fin 1) (l : Fin 2048), j = ix2 u l := ⟨j 0, j 1, eq_ix2 j⟩
  obtain rfl : u = 0 := Subsingleton.elim _ _
  exact h l

theorem fun_eq_of_rows {β : Type} (f g : S1x513x2048.Idx → β)
    (h : ∀ (r : Fin 513) (l : Fin 2048), f (ix3 (0 : Fin 1) r l) = g (ix3 (0 : Fin 1) r l)) : f = g := by
  funext j
  obtain ⟨u, r, l, rfl⟩ : ∃ (u : Fin 1) (r : Fin 513) (l : Fin 2048), j = ix3 u r l := ⟨j 0, j 1, j 2, eq_ix3 j⟩
  obtain rfl : u = 0 := Subsingleton.elim _ _
  exact h r l

/-! ## The grid: which columns a point's blocks are -/

variable (V : (c : Dev nD) → (b : Ref sig .tc) → Buf (Elt Ideal) ((c : Thread nD τ).loc b))

/-- The argument array as region 0 finds it. -/
abbrev X0 (c : Dev nD) : SX.Idx → EReal := V c (Pipeline.arrRef spec0 0)

/-- The printed index maps, decided over the four points: every window's block index is 0 on the unit and row axes
    and the point's number on the column axis. -/
theorem idx_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Column l of point t's blocks is column 2048 t + l of the arrays. -/
def col (t : Fin cfg0.N) (l : Fin 2048) : Fin 8192 :=
  ⟨2048 * t.val + l.val, by have hN : cfg0.N = 4 := N_0; have := t.isLt; have := l.isLt; omega⟩

/-- The input block at point t, read at (r, l): the argument at (r, 2048 t + l). -/
theorem iblk_apply (c : Dev nD) (t : Fin cfg0.N) (r : Fin 513) (l : Fin 2048) :
    (iblk0 V c 0 t : Vec Ideal S1x513x2048 .f32) (ix3 (0 : Fin 1) r l) = X0 V c (ix3 (0 : Fin 1) r (col t l)) := by
  obtain ⟨e0, e1, e2, -⟩ := idx_facts t
  unfold iblk0
  rw [View.read_apply]
  show V c main_arg0 _ = V c main_arg0 _
  congr 1
  funext a
  apply Fin.ext
  match a with
  | ⟨0, _⟩ => show win0_0.index t (0 : Fin 3) * 1 + 1 * 0 = 0; rw [e0]
  | ⟨1, _⟩ => show win0_0.index t (1 : Fin 3) * 513 + 1 * r.val = r.val; rw [e1]; omega
  | ⟨2, _⟩ => show win0_0.index t (2 : Fin 3) * 2048 + 1 * l.val = 2048 * t.val + l.val; rw [e2]; omega

/-- Where element (r, l) of point t's block of the first output sits in its array. -/
theorem blk1_emb (t : Fin cfg0.N) (r : Fin 513) (l : Fin 2048) :
    ((cfg0.win 1).blk t).view.emb (ix3 (0 : Fin 1) r l) = (ix3 (0 : Fin 1) r (col t l) : S1x513x8192.Idx) := by
  obtain ⟨-, -, -, e0, e1, e2, -⟩ := idx_facts t
  funext a
  apply Fin.ext
  match a with
  | ⟨0, _⟩ => show win0_1.index t (0 : Fin 3) * 1 + 1 * 0 = 0; rw [e0]
  | ⟨1, _⟩ => show win0_1.index t (1 : Fin 3) * 513 + 1 * r.val = r.val; rw [e1]; omega
  | ⟨2, _⟩ => show win0_1.index t (2 : Fin 3) * 2048 + 1 * l.val = 2048 * t.val + l.val; rw [e2]; omega

/-- Where element l of point t's block of the second output sits in its array. -/
theorem blk2_emb (t : Fin cfg0.N) (l : Fin 2048) :
    ((cfg0.win 2).blk t).view.emb (ix2 (0 : Fin 1) l) = (ix2 (0 : Fin 1) (col t l) : S1x8192.Idx) := by
  obtain ⟨-, -, -, -, -, -, e0, e1, -⟩ := idx_facts t
  funext a
  apply Fin.ext
  match a with
  | ⟨0, _⟩ => show win0_2.index t (0 : Fin 2) * 1 + 1 * 0 = 0; rw [e0]
  | ⟨1, _⟩ => show win0_2.index t (1 : Fin 2) * 2048 + 1 * l.val = 2048 * t.val + l.val; rw [e1]; omega

/-- Where element l of point t's block of the third output sits in its array. -/
theorem blk3_emb (t : Fin cfg0.N) (l : Fin 2048) :
    ((cfg0.win 3).blk t).view.emb (ix2 (0 : Fin 1) l) = (ix2 (0 : Fin 1) (col t l) : S1x8192.Idx) := by
  obtain ⟨-, -, -, -, -, -, -, -, e0, e1⟩ := idx_facts t
  funext a
  apply Fin.ext
  match a with
  | ⟨0, _⟩ => show win0_3.index t (0 : Fin 2) * 1 + 1 * 0 = 0; rw [e0]
  | ⟨1, _⟩ => show win0_3.index t (1 : Fin 2) * 2048 + 1 * l.val = 2048 * t.val + l.val; rw [e1]; omega

/-! ## What each point writes back is its block of the specification's arrays -/

theorem flushed1_eq (c : Dev nD) (t : Fin cfg0.N) :
    (dat0 V c).flushed 1 t = ((cfg0.win 1).blk t).view.read (Elt Ideal) (transformed (X0 V c)) := by
  show (cfg0.win 1).cut (grid0.coords t) ((dat0 V c).after 1 t) = _
  rw [after0_1]
  unfold outsAt0
  dsimp only
  rw [out1_eq (F := Ideal) c (grid0.coords t) (ms0_0 t) (hs0_0 t) (ms0_1 t) (hs0_1 t) (ms0_2 t) (hs0_2 t) (ms0_3 t) (hs0_3 t) (iblk0 V c 0 t)]
  refine fun_eq_of_rows _ _ fun r l => ?_
  show View.canon (twoStores (Val := Elt Ideal) (e := .f32) (k0_pay11 (iblk0 V c 0 t)) (k0_pay12 (iblk0 V c 0 t))) (ix3 (0 : Fin 1) r l)
    = transformed (X0 V c) (((cfg0.win 1).blk t).view.emb (ix3 (0 : Fin 1) r l))
  rw [blk1_emb]
  exact out1_point (iblk0 V c 0 t) (X0 V c) (col t) (fun r' l' => iblk_apply V c t r' l') r l

theorem flushed2_eq (c : Dev nD) (t : Fin cfg0.N) :
    (dat0 V c).flushed 2 t = ((cfg0.win 2).blk t).view.read (Elt Ideal) (crossArr (X0 V c)) := by
  show (cfg0.win 2).cut (grid0.coords t) ((dat0 V c).after 2 t) = _
  rw [after0_2]
  unfold outsAt0
  dsimp only
  rw [out2_eq (F := Ideal) c (grid0.coords t) (ms0_0 t) (hs0_0 t) (ms0_1 t) (hs0_1 t) (ms0_2 t) (hs0_2 t) (ms0_3 t) (hs0_3 t) (iblk0 V c 0 t)]
  refine fun_eq_of_cols _ _ fun l => ?_
  show k0_pay7 (iblk0 V c 0 t) (ix2 (0 : Fin 1) l) = crossArr (X0 V c) (((cfg0.win 2).blk t).view.emb (ix2 (0 : Fin 1) l))
  rw [blk2_emb]
  exact cross_point (iblk0 V c 0 t) (X0 V c) (col t) (fun r' l' => iblk_apply V c t r' l') l

theorem flushed3_eq (c : Dev nD) (t : Fin cfg0.N) :
    (dat0 V c).flushed 3 t = ((cfg0.win 3).blk t).view.read (Elt Ideal) (valsArr (X0 V c)) := by
  show (cfg0.win 3).cut (grid0.coords t) ((dat0 V c).after 3 t) = _
  rw [after0_3]
  unfold outsAt0
  dsimp only
  rw [out3_eq (F := Ideal) c (grid0.coords t) (ms0_0 t) (hs0_0 t) (ms0_1 t) (hs0_1 t) (ms0_2 t) (hs0_2 t) (ms0_3 t) (hs0_3 t) (iblk0 V c 0 t)]
  refine fun_eq_of_cols _ _ fun l => ?_
  show k0_pay1 (k0_pay7 (iblk0 V c 0 t)) (k0_pay10 (iblk0 V c 0 t)) (ix2 (0 : Fin 1) l)
    = valsArr (X0 V c) (((cfg0.win 3).blk t).view.emb (ix2 (0 : Fin 1) l))
  rw [blk3_emb]
  exact vals_point (iblk0 V c 0 t) (X0 V c) (col t) (fun r' l' => iblk_apply V c t r' l') l

/-! ## The points' blocks cover each output array: column c belongs to point c / 2048 -/

theorem cover1 (i : S1x513x8192.Idx) :
    ∃ t : Fin cfg0.N, (cfg0.win 1).flush t = true ∧ i ∈ ((cfg0.win 1).blk t).view.set := by
  have hN : cfg0.N = 4 := N_0
  have h0 : (i 0).val < 1 := (i 0).isLt
  have h1 : (i 1).val < 513 := (i 1).isLt
  have h2 : (i 2).val < 8192 := (i 2).isLt
  obtain ⟨t, ht⟩ : ∃ t : Fin cfg0.N, t.val = (i 2).val / 2048 := ⟨⟨(i 2).val / 2048, by omega⟩, rfl⟩
  obtain ⟨-, -, -, e0, e1, e2, -⟩ := idx_facts t
  refine ⟨t, flush0_1 t, ?_⟩
  show i ∈ ((View.whole main_v0_0).slice (win0_1.rect t)).set
  rw [View.set_slice_whole, Rect.mem_set_unit]
  intro a
  match a with
  | ⟨0, _⟩ => show win0_1.index t (0 : Fin 3) * 1 ≤ (i 0).val ∧ (i 0).val < win0_1.index t (0 : Fin 3) * 1 + 1; rw [e0]; omega
  | ⟨1, _⟩ => show win0_1.index t (1 : Fin 3) * 513 ≤ (i 1).val ∧ (i 1).val < win0_1.index t (1 : Fin 3) * 513 + 513; rw [e1]; omega
  | ⟨2, _⟩ => show win0_1.index t (2 : Fin 3) * 2048 ≤ (i 2).val ∧ (i 2).val < win0_1.index t (2 : Fin 3) * 2048 + 2048; rw [e2]; omega

theorem cover2 (i : S1x8192.Idx) :
    ∃ t : Fin cfg0.N, (cfg0.win 2).flush t = true ∧ i ∈ ((cfg0.win 2).blk t).view.set := by
  have hN : cfg0.N = 4 := N_0
  have h0 : (i 0).val < 1 := (i 0).isLt
  have h1 : (i 1).val < 8192 := (i 1).isLt
  obtain ⟨t, ht⟩ : ∃ t : Fin cfg0.N, t.val = (i 1).val / 2048 := ⟨⟨(i 1).val / 2048, by omega⟩, rfl⟩
  obtain ⟨-, -, -, -, -, -, e0, e1, -⟩ := idx_facts t
  refine ⟨t, flush0_2 t, ?_⟩
  show i ∈ ((View.whole main_v0_1).slice (win0_2.rect t)).set
  rw [View.set_slice_whole, Rect.mem_set_unit]
  intro a
  match a with
  | ⟨0, _⟩ => show win0_2.index t (0 : Fin 2) * 1 ≤ (i 0).val ∧ (i 0).val < win0_2.index t (0 : Fin 2) * 1 + 1; rw [e0]; omega
  | ⟨1, _⟩ => show win0_2.index t (1 : Fin 2) * 2048 ≤ (i 1).val ∧ (i 1).val < win0_2.index t (1 : Fin 2) * 2048 + 2048; rw [e1]; omega

theorem cover3 (i : S1x8192.Idx) :
    ∃ t : Fin cfg0.N, (cfg0.win 3).flush t = true ∧ i ∈ ((cfg0.win 3).blk t).view.set := by
  have hN : cfg0.N = 4 := N_0
  have h0 : (i 0).val < 1 := (i 0).isLt
  have h1 : (i 1).val < 8192 := (i 1).isLt
  obtain ⟨t, ht⟩ : ∃ t : Fin cfg0.N, t.val = (i 1).val / 2048 := ⟨⟨(i 1).val / 2048, by omega⟩, rfl⟩
  obtain ⟨-, -, -, -, -, -, -, -, e0, e1⟩ := idx_facts t
  refine ⟨t, flush0_3 t, ?_⟩
  show i ∈ ((View.whole main_v0_2).slice (win0_3.rect t)).set
  rw [View.set_slice_whole, Rect.mem_set_unit]
  intro a
  match a with
  | ⟨0, _⟩ => show win0_3.index t (0 : Fin 2) * 1 ≤ (i 0).val ∧ (i 0).val < win0_3.index t (0 : Fin 2) * 1 + 1; rw [e0]; omega
  | ⟨1, _⟩ => show win0_3.index t (1 : Fin 2) * 2048 ≤ (i 1).val ∧ (i 1).val < win0_3.index t (1 : Fin 2) * 2048 + 2048; rw [e1]; omega

/-! ## The three output arrays after the region -/

/-- The first output array after region 0 is the transformed array of the argument as the region finds it. -/
theorem arr1_eq (c : Dev nD) : (dat0 V c).arrAt 1 cfg0.N = transformed (X0 V c) :=
  (dat0 V c).arrAt_eq_of_cover 1 (transformed (X0 V c)) (fun t _ => flushed1_eq V c t) cover1

/-- The second output array after region 0 is the crossing indicator of every column. -/
theorem arr2_eq (c : Dev nD) : (dat0 V c).arrAt 2 cfg0.N = crossArr (X0 V c) :=
  (dat0 V c).arrAt_eq_of_cover 2 (crossArr (X0 V c)) (fun t _ => flushed2_eq V c t) cover2

/-- The third output array after region 0 is the new error coefficient of every column. -/
theorem arr3_eq (c : Dev nD) : (dat0 V c).arrAt 3 cfg0.N = valsArr (X0 V c) :=
  (dat0 V c).arrAt_eq_of_cover 3 (valsArr (X0 V c)) (fun t _ => flushed3_eq V c t) cover3

end Cert.Zono.R0

end
-- ==== Proof.KernelBridge.lean ====
/-
  The kernel program's result, as the two regions and the host operations between them compose it, is the
  specification's result. Rows 0..512 are the transformed array on both sides. In row 513 + r the kernel's second
  region selects, by a one-bit compare of r with the column's slot, between the column's new coefficient and the zero
  word; the specification tests the same equality the other way round and answers the coefficient or 0. The slot on the
  kernel's side is the host's window sum read with a leading unit axis; on the specification's side it is the same
  window sum without that axis.
-/
import proofs.«125602_j15221364097584_1_alg».proof.Proof.Region1
import proofs.«125602_j15221364097584_1_alg».proof.Proof.Glue
import proofs.«125602_j15221364097584_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.Zono.KB

open Cert.KernelIdeal

/-- A select on the one-bit compare "a equals b" is the choice on the equation b = a. -/
theorem select_cmpi_eq {α : Type} (a b : BitVec 32) (u v : α) :
    Scalar.select (IntOp.cmpi .eq a b) u v = if b = a then u else v := by
  have hc : IntOp.cmpi .eq a b = BitVec.ofBool (a == b) := rfl
  rw [hc]
  by_cases h : b = a
  · subst h
    rw [if_pos rfl, beq_self_eq_true]
    exact select_one u v
  · rw [if_neg h, show (a == b) = false from beq_eq_false_iff_ne.mpr (fun e => h e.symm)]
    exact select_zero u v

/-- The slot of column c read with the leading unit axis is the slot of column c. -/
theorem slots_apply (cr : SRow.Idx → EReal) (a : Fin 1) (c : Fin 8192) :
    Glue.slots (F := Ideal) cr (ix2 a c) = rowsOf cr (ix1 c) := by
  unfold Glue.slots
  refine (broadcastInDim_apply _ _ _ (ix2 a c) (ix1 c) (fun a' => ?_)).trans ?_
  · match a' with
    | ⟨0, _⟩ => rfl
  · rfl

/-- One entry of a new row: the kernel's select is the specification's test. -/
theorem sel_eq (cr : SRow.Idx → EReal) (vv : SRow.Idx → EReal) (n : Nat) (a : Fin 1) (c : Fin 8192) :
    Scalar.select (IntOp.cmpi .eq (BitVec.ofNat 32 n) (Glue.slots (F := Ideal) cr (ix2 a c))) (vv (ix2 a c))
        (Scalar.ofBits (F := Ideal) .f32 0x00000000#32)
      = if rowsOf cr (ix1 c) = BitVec.ofNat 32 n then vv (ix2 (0 : Fin 1) c) else 0 := by
  obtain rfl : a = 0 := Subsingleton.elim _ _
  rw [slots_apply, select_cmpi_eq]
  show (if rowsOf cr (ix1 c) = BitVec.ofNat 32 n then vv (ix2 (0 : Fin 1) c) else Ideal.ofBits .f32 0x00000000#32) = _
  rw [Ideal.ofBits_zero_f32]

/-- The kernel program's result array, from the first region's three arrays and the host's slots, is the
    specification's result. -/
theorem arrOf_eq_G (x : SX.Idx → EReal) :
    Region1.arrOf (F := Ideal) (transformed x) (Glue.slots (F := Ideal) (crossArr x)) (valsArr x) = G x := by
  funext i
  show (if h : (i 1).val < 513 then transformed x (ix3 (i 0) ⟨(i 1).val, h⟩ (i 2))
        else Scalar.select (IntOp.cmpi .eq (BitVec.ofNat 32 ((i 1).val - 513)) (Glue.slots (F := Ideal) (crossArr x) (ix2 (i 0) (i 2))))
          (valsArr x (ix2 (i 0) (i 2))) (Scalar.ofBits (F := Ideal) .f32 0x00000000#32))
      = (if h : (i 1).val < 513 then transformed x (ix3 0 ⟨(i 1).val, h⟩ (i 2))
        else if rowsOf (crossArr x) (ix1 (i 2)) = BitVec.ofNat 32 ((i 1).val - 513) then valsArr x (ix2 0 (i 2)) else 0)
  have h0 : (i 0).val < 1 := (i 0).isLt
  have e0 : i 0 = (0 : Fin 1) := Fin.ext (by show (i 0).val = 0; omega)
  by_cases h : (i 1).val < 513
  · rw [dif_pos h, dif_pos h]
    exact congrArg (transformed x) (funext fun d => by
      match d with
      | ⟨0, _⟩ => exact e0
      | ⟨1, _⟩ => rfl
      | ⟨2, _⟩ => rfl)
  · rw [dif_neg h, dif_neg h]
    exact sel_eq (crossArr x) (valsArr x) ((i 1).val - 513) (i 0) (i 2)

end Cert.Zono.KB

end
-- ==== Proof.KernelValue.lean ====
/-
  The kernel program's result, as the specification's function of the argument.

  The run ends with the result array at what the second region's write-backs leave; that is the second region's
  one function of the three arrays it is entered with; those are the first region's transformed array and new
  coefficients untouched, and the slots the host computes from the first region's crossing indicators; the first
  region's three arrays are the specification's functions of the argument array; and the second region's function
  of those three is the specification's result.
-/
import proofs.«125602_j15221364097584_1_alg».proof.Proof.KernelRun
import proofs.«125602_j15221364097584_1_alg».proof.Proof.Glue
import proofs.«125602_j15221364097584_1_alg».proof.Proof.Region1
import proofs.«125602_j15221364097584_1_alg».proof.Proof.Region0Value
import proofs.«125602_j15221364097584_1_alg».proof.Proof.KernelBridge

set_option maxRecDepth 16384

noncomputable section

namespace Cert.KernelIdeal.Whole

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg)

/-- The last boundary's contents at the result array are the specification's result of the launch contents of the
    argument array. -/
theorem value_eq (c : Dev nD) :
    W5 m ρ c (Proc.devRef .tc main_v9) = Cert.Zono.G (m ((c.tc : Thread nD τ).loc main_arg0)) := by
  rw [Named.result_eq, Region1.final (V4 m ρ) c, Glue.entry_transformed, Glue.entry_slots, Glue.entry_vals,
    Glue.exit0_transformed, Glue.exit0_cross, Glue.exit0_vals,
    Cert.Zono.R0.arr1_eq (V0 m ρ) c, Cert.Zono.R0.arr2_eq (V0 m ρ) c, Cert.Zono.R0.arr3_eq (V0 m ρ) c]
  exact Cert.Zono.KB.arrOf_eq_G _

/-- Every weakly fair execution of the kernel program terminates, nothing faulting, with the result array at the
    specification's result of the argument and the argument array as launched. -/
theorem run : θ_run defs (onTc (τ := τ) (main (F := Ideal))) ⟨m, fun _ => 0, ρ⟩ (fun r => ∀ c : Dev nD,
      r.2.mem ((c.tc : Thread nD τ).loc main_v9) = Cert.Zono.G (m ((c.tc : Thread nD τ).loc main_arg0))
      ∧ r.2.mem ((c.tc : Thread nD τ).loc main_arg0) = m ((c.tc : Thread nD τ).loc main_arg0)) :=
  (θ_run defs _ _).mono (fun r h c => ⟨(h c).1.trans (value_eq m ρ c), (h c).2⟩) (Named.run_named m ρ)

end Cert.KernelIdeal.Whole

end
-- ==== Proof.RefStages.lean ====
/-
  The reference's computation, stage by stage, as pure functions of the argument array (one batch, a centre
  row and 512 rows of error coefficients, 8192 columns): per column the sum of the absolute error
  coefficients, the two bounds, the two indicators, the slope, the width, the new centre and the scale;
  then the transformed array (the new centre above the scaled coefficients), the running count of crossing
  columns and the row and column each column's new coefficient goes to, the first placement (the
  transformed array written at row zero of an array of zeros) and the accumulation of the new coefficients
  at the computed positions. Stated for any float values; each stage is the composition of the host
  operations the program applies, in the program's own order of operands.
-/
import proofs.«125602_j15221364097584_1_alg».proof.Proof.Gen.ReferenceIdeal

noncomputable section

namespace Cert.ReferenceIdeal.HandRun

open Cert.ReferenceIdeal Cert.ReferenceIdeal.Gen Idealize.ShloMosaic

variable {F : FTy → Type} [FloatOps F]

/-! ## The stages, as functions of the argument array -/

/-- Rows 1 … 512: the error coefficients. -/
def errs (x : FVec F S1x513x8192 .f32) : FVec F S1x512x8192 .f32 :=
  extractStridedSlice S1x512x8192 ![0, 1, 0] x slices_S1x513x8192_S1x512x8192_0_1_0

/-- Per column, the sum of the absolute values of the error coefficients. -/
def absSum (x : FVec F S1x513x8192 .f32) : FVec F S1x8192 .f32 :=
  Host.reduceAdd (Host.absf (errs x)) (constant S_ .f32 0x00000000#32) reducesTo_S1x512x8192_S1x8192_d1 h_S_

/-- Row 0: the centre, as a 1 × 8192 array. -/
def centre (x : FVec F S1x513x8192 .f32) : FVec F S1x8192 .f32 :=
  shapeCast S1x8192 (extractStridedSlice S1x1x8192 ![0, 0, 0] x slices_S1x513x8192_S1x1x8192_0_0_0) shapeCasts_S1x1x8192_S1x8192

/-- The upper bound: centre plus the sum. -/
def upper (x : FVec F S1x513x8192 .f32) : FVec F S1x8192 .f32 := addf (centre x) (absSum x)

/-- The lower bound: centre minus the sum. -/
def lower (x : FVec F S1x513x8192 .f32) : FVec F S1x8192 .f32 := subf (centre x) (absSum x)

/-- The constant rows 0, 1 and 1/2. -/
def zeros : FVec F S1x8192 .f32 := broadcastInDim S1x8192 ![] bcast_S_S1x8192 (constant S_ .f32 0x00000000#32)
def ones : FVec F S1x8192 .f32 := broadcastInDim S1x8192 ![] bcast_S_S1x8192 (constant S_ .f32 0x3F800000#32)
def halves : FVec F S1x8192 .f32 := broadcastInDim S1x8192 ![] bcast_S_S1x8192 (constant S_ .f32 0x3F000000#32)

/-- The indicator (as a float 0 or 1) that the bounds have opposite signs: lower · upper < 0. -/
def cross (x : FVec F S1x513x8192 .f32) : FVec F S1x8192 .f32 :=
  uitofp .f32 (cmpf .olt (mulf (lower x) (upper x)) zeros)

/-- The indicator that the lower bound is nonnegative. -/
def pos (x : FVec F S1x513x8192 .f32) : FVec F S1x8192 .f32 :=
  uitofp .f32 (cmpf .oge (lower x) zeros)

/-- The denominator: 1 where the bounds coincide, their difference elsewhere. -/
def denom (x : FVec F S1x513x8192 .f32) : FVec F S1x8192 .f32 :=
  select (cmpf .oeq (upper x) (lower x)) ones (subf (upper x) (lower x))

/-- The slope: pos + cross · upper / denom. -/
def lam (x : FVec F S1x513x8192 .f32) : FVec F S1x8192 .f32 :=
  addf (pos x) (Host.divf (mulf (cross x) (upper x)) (denom x))

/-- The width: max (−lam · lower) ((1 − lam) · upper). -/
def delta (x : FVec F S1x513x8192 .f32) : FVec F S1x8192 .f32 :=
  maximumf (mulf (Host.negf (lam x)) (lower x)) (mulf (subf ones (lam x)) (upper x))

/-- The new centre: (delta / 2 + lam · centre) · cross + centre · pos. -/
def newCentre (x : FVec F S1x513x8192 .f32) : FVec F S1x8192 .f32 :=
  addf (mulf (addf (mulf (delta x) halves) (mulf (lam x) (centre x))) (cross x)) (mulf (centre x) (pos x))

/-- The factor of the error coefficients: lam · cross + pos. -/
def scale (x : FVec F S1x513x8192 .f32) : FVec F S1x8192 .f32 :=
  addf (mulf (lam x) (cross x)) (pos x)

/-- The transformed array: the new centre in row 0, the scaled error coefficients below it. -/
def transformed (x : FVec F S1x513x8192 .f32) : FVec F S1x513x8192 .f32 :=
  concatenate S1x513x8192 1
    [⟨S1x1x8192, broadcastInDim S1x1x8192 ![0, 2] bcast_S1x8192_S1x1x8192_0_2 (newCentre x)⟩,
     ⟨S1x512x8192, mulf (errs x)
        (broadcastInDim S1x512x8192 ![0, 1, 2] bcast_S1x1x8192_S1x512x8192_0_1_2
          (broadcastInDim S1x1x8192 ![0, 2] bcast_S1x8192_S1x1x8192_0_2 (scale x)))⟩]
    concatenates_S1x1x8192_S1x512x8192_S1x513x8192_d1

/-- The new error coefficient of a crossing column: delta / 2 · cross. -/
def vals (x : FVec F S1x513x8192 .f32) : FVec F S1x8192 .f32 :=
  mulf (mulf (delta x) halves) (cross x)

/-- The crossing indicator as a 32-bit integer per column. -/
def crossInt (x : FVec F S1x513x8192 .f32) : IVec S8192 32 :=
  fptosi 32 (shapeCast S8192 (cross x) shapeCasts_S1x8192_S8192)

/-- Its running sum over the columns: the windowed integer sum, window 8192 padded 8191 low. -/
def runningCount (x : FVec F S1x513x8192 .f32) : IVec S8192 32 :=
  Host.reduceWindow IntOp.addi ![8192] ![1] ![8191] ![0] (crossInt x)
    (broadcastInDim S_ ![] bcast_S_S_ (constantI S_ 32 0#32)) reduceWindows_S8192_S8192_w8192s1p8191_0 h_S_

/-- A 32-bit constant in every column. -/
def constCols (b : BitVec 32) : IVec S8192 32 := broadcastInDim S8192 ![] bcast_S_S8192 (constantI S_ 32 b)

/-- The new row's rank: max (running count − 1) 0, signed. -/
def rank (x : FVec F S1x513x8192 .f32) : IVec S8192 32 :=
  maxsi (subi (runningCount x) (constCols 1#32)) (constCols 0#32)

/-- The target row before wrapping: 513 + rank. -/
def rowRaw (x : FVec F S1x513x8192 .f32) : IVec S8192 32 := addi (constCols 513#32) (rank x)

/-- The target row: a negative one is moved up by the extent 8705. -/
def rowIdx (x : FVec F S1x513x8192 .f32) : IVec S8192 32 :=
  select (cmpi .slt (rowRaw x) (constCols 0#32)) (addi (rowRaw x) (constCols 8705#32)) (rowRaw x)

/-- The target column: the column's own number (a negative one moved up by 8192). -/
def colIdx : IVec S8192 32 :=
  select (cmpi .slt (iotaInDim S8192 32 0) (constCols 0#32)) (addi (iotaInDim S8192 32 0) (constCols 8192#32)) (iotaInDim S8192 32 0)

/-- The index table: per column the pair (row, column). -/
def indices (x : FVec F S1x513x8192 .f32) : IVec S8192x2 32 :=
  concatenate S8192x2 1
    [⟨S8192x1, broadcastInDim S8192x1 ![0] bcast_S8192_S8192x1_0 (rowIdx x)⟩,
     ⟨S8192x1, broadcastInDim S8192x1 ![0] bcast_S8192_S8192x1_0 colIdx⟩]
    concatenates_S8192x1_S8192x1_S8192x2_d1

/-- The transformed array placed at row 0 of an array of zeros. -/
def placed (x : FVec F S1x513x8192 .f32) : FVec F S1x8705x8192 .f32 :=
  Host.scatter scatter_S1x8705x8192_S1_S1x513x8192_012_n_1_0 (fun _ b => b)
    (broadcastInDim S1x8705x8192 ![] bcast_S_S1x8705x8192 (constant S_ .f32 0x00000000#32))
    (broadcastInDim S1 ![] bcast_S_S1 (constantI S_ 32 0#32))
    (transformed x)

/-- The result: the per-column values accumulated into the placed array at the index table's positions. -/
def refTerm (x : FVec F S1x513x8192 .f32) : FVec F S1x8705x8192 .f32 :=
  Host.scatterAdd scatter_S1x8705x8192_S8192x2_S1x8192_0_12_12_1 (placed x) (indices x) (vals x)

end Cert.ReferenceIdeal.HandRun

end
-- ==== Proof.RefRun.lean ====
/-
  The reference program's run, written out: its @main — ninety-five statements in two windows, with
  the calls of `_where` (one select) and `cumsum` (a zero, its broadcast, the windowed integer sum)
  unfolded at their call sites over the calls' own buffers — is a straight line of ninety-six host
  operations. Every weakly fair execution of it terminates, leaves the argument as it was, and leaves the
  result buffer at the operations' composed term of the argument: the last of the named stages.
-/
import proofs.«125602_j15221364097584_1_alg».proof.Proof.RefStages
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The run -/

/-- @main's operations in order, the calls unfolded over their buffer records. -/
abbrev ops : List (HloOp τ sig (Elt F)) :=
  [
    unary main_arg0 main_v0 ((extractStridedSlice S1x512x8192 ![0, 1, 0] · slices_S1x513x8192_S1x512x8192_0_1_0) : (⟨S1x513x8192, .f32⟩ : BufTy).Contents (Elt F) → (⟨S1x512x8192, .f32⟩ : BufTy).Contents (Elt F)),
    unary main_v0 main_v1 (Host.absf : (⟨S1x512x8192, .f32⟩ : BufTy).Contents (Elt F) → (⟨S1x512x8192, .f32⟩ : BufTy).Contents (Elt F)),
    nullary main_cst (constant S_ .f32 0x00000000#32),
    binary main_v1 main_cst main_v2 ((fun x v => Host.reduceAdd x v reducesTo_S1x512x8192_S1x8192_d1 h_S_) : (⟨S1x512x8192, .f32⟩ : BufTy).Contents (Elt F) → (⟨S_, .f32⟩ : BufTy).Contents (Elt F) → (⟨S1x8192, .f32⟩ : BufTy).Contents (Elt F)),
    unary main_arg0 main_v3 ((extractStridedSlice S1x1x8192 ![0, 0, 0] · slices_S1x513x8192_S1x1x8192_0_0_0) : (⟨S1x513x8192, .f32⟩ : BufTy).Contents (Elt F) → (⟨S1x1x8192, .f32⟩ : BufTy).Contents (Elt F)),
    reshape main_v3 main_v4 rfl shapeCasts_S1x1x8192_S1x8192,
    binary main_v4 main_v2 main_v5 (addf : (⟨S1x8192, .f32⟩ : BufTy).Contents (Elt F) → (⟨S1x8192, .f32⟩ : BufTy).Contents (Elt F) → (⟨S1x8192, .f32⟩ : BufTy).Contents (Elt F)),
    unary main_arg0 main_v6 ((extractStridedSlice S1x1x8192 ![0, 0, 0] · slices_S1x513x8192_S1x1x8192_0_0_0) : (⟨S1x513x8192, .f32⟩ : BufTy).Contents (Elt F) → (⟨S1x1x8192, .f32⟩ : BufTy).Contents (Elt F)),
    reshape main_v6 main_v7 rfl shapeCasts_S1x1x8192_S1x8192,
    binary main_v7 main_v2 main_v8 (subf : (⟨S1x8192, .f32⟩ : BufTy).Contents (Elt F) → (⟨S1x8192, .f32⟩ : BufTy).Contents (Elt F) → (⟨S1x8192, .f32⟩ : BufTy).Contents (Elt F)),
    binary main_v8 main_v5 main_v9 (mulf : (⟨S1x8192, .f32⟩ : BufTy).Contents (Elt F) → (⟨S1x8192, .f32⟩ : BufTy).Contents (Elt F) → (⟨S1x8192, .f32⟩ : BufTy).Contents (Elt F)),
    nullary main_cst_0 (constant S_ .f32 0x00000000#32),
    unary main_cst_0 main_v10 (broadcastInDim S1x8192 ![] bcast_S_S1x8192 : (⟨S_, .f32⟩ : BufTy).Contents (Elt F) → (⟨S1x8192, .f32⟩ : BufTy).Contents (Elt F)),
    binary main_v9 main_v10 main_v11 (cmpf .olt : (⟨S1x8192, .f32⟩ : BufTy).Contents (Elt F) → (⟨S1x8192, .f32⟩ : BufTy).Contents (Elt F) → (⟨S1x8192, .i1⟩ : BufTy).Contents (Elt F)),
    unary main_v11 main_v12 (uitofp .f32 : (⟨S1x8192, .i1⟩ : BufTy).Contents (Elt F) → (⟨S1x8192, .f32⟩ : BufTy).Contents (Elt F)),
    nullary main_cst_1 (constant S_ .f32 0x00000000#32),
    unary main_cst_1 main_v13 (broadcastInDim S1x8192 ![] bcast_S_S1x8192 : (⟨S_, .f32⟩ : BufTy).Contents (Elt F) → (⟨S1x8192, .f32⟩ : BufTy).Contents (Elt F)),
    binary main_v8 main_v13 main_v14 (cmpf .oge : (⟨S1x8192, .f32⟩ : BufTy).Contents (Elt F) → (⟨S1x8192, .f32⟩ : BufTy).Contents (Elt F) → (⟨S1x8192, .i1⟩ : BufTy).Contents (Elt F)),
    unary main_v14 main_v15 (uitofp .f32 : (⟨S1x8192, .i1⟩ : BufTy).Contents (Elt F) → (⟨S1x8192, .f32⟩ : BufTy).Contents (Elt F)),
    binary main_v5 main_v8 main_v16 (cmpf .oeq : (⟨S1x8192, .f32⟩ : BufTy).Contents (Elt F) → (⟨S1x8192, .f32⟩ : BufTy).Contents (Elt F) → (⟨S1x8192, .i1⟩ : BufTy).Contents (Elt F)),
    nullary main_cst_2 (constant S_ .f32 0x3F800000#32),
    unary main_cst_2 main_v17 (broadcastInDim S1x8192 ![] bcast_S_S1x8192 : (⟨S_, .f32⟩ : BufTy).Contents (Elt F) → (⟨S1x8192, .f32⟩ : BufTy).Contents (Elt F)),
    binary main_v5 main_v8 main_v18 (subf : (⟨S1x8192, .f32⟩ : BufTy).Contents (Elt F) → (⟨S1x8192, .f32⟩ : BufTy).Contents (Elt F) → (⟨S1x8192, .f32⟩ : BufTy).Contents (Elt F)),
    TRef.ternary (.of main_v16) (.of main_v17) (.of main_v18) main_call0.v0 select,
    binary main_v12 main_v5 main_v20 (mulf : (⟨S1x8192, .f32⟩ : BufTy).Contents (Elt F) → (⟨S1x8192, .f32⟩ : BufTy).Contents (Elt F) → (⟨S1x8192, .f32⟩ : BufTy).Contents (Elt F)),
    binary main_v20 main_v19 main_v21 (Host.divf : (⟨S1x8192, .f32⟩ : BufTy).Contents (Elt F) → (⟨S1x8192, .f32⟩ : BufTy).Contents (Elt F) → (⟨S1x8192, .f32⟩ : BufTy).Contents (Elt F)),
    binary main_v15 main_v21 main_v22 (addf : (⟨S1x8192, .f32⟩ : BufTy).Contents (Elt F) → (⟨S1x8192, .f32⟩ : BufTy).Contents (Elt F) → (⟨S1x8192, .f32⟩ : BufTy).Contents (Elt F)),
    unary main_v22 main_v23 (Host.negf : (⟨S1x8192, .f32⟩ : BufTy).Contents (Elt F) → (⟨S1x8192, .f32⟩ : BufTy).Contents (Elt F)),
    binary main_v23 main_v8 main_v24 (mulf : (⟨S1x8192, .f32⟩ : BufTy).Contents (Elt F) → (⟨S1x8192, .f32⟩ : BufTy).Contents (Elt F) → (⟨S1x8192, .f32⟩ : BufTy).Contents (Elt F)),
    nullary main_cst_3 (constant S_ .f32 0x3F800000#32),
    unary main_cst_3 main_v25 (broadcastInDim S1x8192 ![] bcast_S_S1x8192 : (⟨S_, .f32⟩ : BufTy).Contents (Elt F) → (⟨S1x8192, .f32⟩ : BufTy).Contents (Elt F)),
    binary main_v25 main_v22 main_v26 (subf : (⟨S1x8192, .f32⟩ : BufTy).Contents (Elt F) → (⟨S1x8192, .f32⟩ : BufTy).Contents (Elt F) → (⟨S1x8192, .f32⟩ : BufTy).Contents (Elt F)),
    binary main_v26 main_v5 main_v27 (mulf : (⟨S1x8192, .f32⟩ : BufTy).Contents (Elt F) → (⟨S1x8192, .f32⟩ : BufTy).Contents (Elt F) → (⟨S1x8192, .f32⟩ : BufTy).Contents (Elt F)),
    binary main_v24 main_v27 main_v28 (maximumf : (⟨S1x8192, .f32⟩ : BufTy).Contents (Elt F) → (⟨S1x8192, .f32⟩ : BufTy).Contents (Elt F) → (⟨S1x8192, .f32⟩ : BufTy).Contents (Elt F)),
    nullary main_cst_4 (constant S_ .f32 0x3F000000#32),
    unary main_cst_4 main_v29 (broadcastInDim S1x8192 ![] bcast_S_S1x8192 : (⟨S_, .f32⟩ : BufTy).Contents (Elt F) → (⟨S1x8192, .f32⟩ : BufTy).Contents (Elt F)),
    binary main_v28 main_v29 main_v30 (mulf : (⟨S1x8192, .f32⟩ : BufTy).Contents (Elt F) → (⟨S1x8192, .f32⟩ : BufTy).Contents (Elt F) → (⟨S1x8192, .f32⟩ : BufTy).Contents (Elt F)),
    unary main_arg0 main_v31 ((extractStridedSlice S1x1x8192 ![0, 0, 0] · slices_S1x513x8192_S1x1x8192_0_0_0) : (⟨S1x513x8192, .f32⟩ : BufTy).Contents (Elt F) → (⟨S1x1x8192, .f32⟩ : BufTy).Contents (Elt F)),
    reshape main_v31 main_v32 rfl shapeCasts_S1x1x8192_S1x8192,
    binary main_v22 main_v32 main_v33 (mulf : (⟨S1x8192, .f32⟩ : BufTy).Contents (Elt F) → (⟨S1x8192, .f32⟩ : BufTy).Contents (Elt F) → (⟨S1x8192, .f32⟩ : BufTy).Contents (Elt F)),
    binary main_v30 main_v33 main_v34 (addf : (⟨S1x8192, .f32⟩ : BufTy).Contents (Elt F) → (⟨S1x8192, .f32⟩ : BufTy).Contents (Elt F) → (⟨S1x8192, .f32⟩ : BufTy).Contents (Elt F)),
    binary main_v34 main_v12 main_v35 (mulf : (⟨S1x8192, .f32⟩ : BufTy).Contents (Elt F) → (⟨S1x8192, .f32⟩ : BufTy).Contents (Elt F) → (⟨S1x8192, .f32⟩ : BufTy).Contents (Elt F)),
    unary main_arg0 main_v36 ((extractStridedSlice S1x1x8192 ![0, 0, 0] · slices_S1x513x8192_S1x1x8192_0_0_0) : (⟨S1x513x8192, .f32⟩ : BufTy).Contents (Elt F) → (⟨S1x1x8192, .f32⟩ : BufTy).Contents (Elt F)),
    reshape main_v36 main_v37 rfl shapeCasts_S1x1x8192_S1x8192,
    binary main_v37 main_v15 main_v38 (mulf : (⟨S1x8192, .f32⟩ : BufTy).Contents (Elt F) → (⟨S1x8192, .f32⟩ : BufTy).Contents (Elt F) → (⟨S1x8192, .f32⟩ : BufTy).Contents (Elt F)),
    binary main_v35 main_v38 main_v39 (addf : (⟨S1x8192, .f32⟩ : BufTy).Contents (Elt F) → (⟨S1x8192, .f32⟩ : BufTy).Contents (Elt F) → (⟨S1x8192, .f32⟩ : BufTy).Contents (Elt F)),
    unary main_arg0 main_v40 ((extractStridedSlice S1x512x8192 ![0, 1, 0] · slices_S1x513x8192_S1x512x8192_0_1_0) : (⟨S1x513x8192, .f32⟩ : BufTy).Contents (Elt F) → (⟨S1x512x8192, .f32⟩ : BufTy).Contents (Elt F)),
    binary main_v22 main_v12 main_v41 (mulf : (⟨S1x8192, .f32⟩ : BufTy).Contents (Elt F) → (⟨S1x8192, .f32⟩ : BufTy).Contents (Elt F) → (⟨S1x8192, .f32⟩ : BufTy).Contents (Elt F)),
    binary main_v41 main_v15 main_v42 (addf : (⟨S1x8192, .f32⟩ : BufTy).Contents (Elt F) → (⟨S1x8192, .f32⟩ : BufTy).Contents (Elt F) → (⟨S1x8192, .f32⟩ : BufTy).Contents (Elt F)),
    unary main_v42 main_v43 (broadcastInDim S1x1x8192 ![0, 2] bcast_S1x8192_S1x1x8192_0_2 : (⟨S1x8192, .f32⟩ : BufTy).Contents (Elt F) → (⟨S1x1x8192, .f32⟩ : BufTy).Contents (Elt F)),
    unary main_v43 main_v44 (broadcastInDim S1x512x8192 ![0, 1, 2] bcast_S1x1x8192_S1x512x8192_0_1_2 : (⟨S1x1x8192, .f32⟩ : BufTy).Contents (Elt F) → (⟨S1x512x8192, .f32⟩ : BufTy).Contents (Elt F)),
    binary main_v40 main_v44 main_v45 (mulf : (⟨S1x512x8192, .f32⟩ : BufTy).Contents (Elt F) → (⟨S1x512x8192, .f32⟩ : BufTy).Contents (Elt F) → (⟨S1x512x8192, .f32⟩ : BufTy).Contents (Elt F)),
    unary main_v39 main_v46 (broadcastInDim S1x1x8192 ![0, 2] bcast_S1x8192_S1x1x8192_0_2 : (⟨S1x8192, .f32⟩ : BufTy).Contents (Elt F) → (⟨S1x1x8192, .f32⟩ : BufTy).Contents (Elt F)),
    binary main_v46 main_v45 main_v47 ((fun a b => concatenate S1x513x8192 1 [⟨S1x1x8192, a⟩, ⟨S1x512x8192, b⟩] concatenates_S1x1x8192_S1x512x8192_S1x513x8192_d1) : (⟨S1x1x8192, .f32⟩ : BufTy).Contents (Elt F) → (⟨S1x512x8192, .f32⟩ : BufTy).Contents (Elt F) → (⟨S1x513x8192, .f32⟩ : BufTy).Contents (Elt F)),
    reshape main_v12 main_v48 rfl shapeCasts_S1x8192_S8192,
    unary main_v48 main_v49 (fptosi 32 : (⟨S8192, .f32⟩ : BufTy).Contents (Elt F) → (⟨S8192, .i32⟩ : BufTy).Contents (Elt F)),
    TRef.nullary main_call1.call0.c (constantI S_ 32 0#32),
    TRef.unary main_call1.call0.c main_call1.call0.v0 (broadcastInDim S_ ![] bcast_S_S_),
    TRef.binary (.of main_v49) main_call1.call0.v0 main_call1.call0.v1 (fun x v => Host.reduceWindow IntOp.addi ![8192] ![1] ![8191] ![0] x v reduceWindows_S8192_S8192_w8192s1p8191_0 h_S_),
    nullary main_c (constantI S_ 32 1#32),
    unary main_c main_v51 (broadcastInDim S8192 ![] bcast_S_S8192 : (⟨S_, .i32⟩ : BufTy).Contents (Elt F) → (⟨S8192, .i32⟩ : BufTy).Contents (Elt F)),
    binary main_v50 main_v51 main_v52 (subi : (⟨S8192, .i32⟩ : BufTy).Contents (Elt F) → (⟨S8192, .i32⟩ : BufTy).Contents (Elt F) → (⟨S8192, .i32⟩ : BufTy).Contents (Elt F)),
    nullary main_c_5 (constantI S_ 32 0#32),
    unary main_c_5 main_v53 (broadcastInDim S8192 ![] bcast_S_S8192 : (⟨S_, .i32⟩ : BufTy).Contents (Elt F) → (⟨S8192, .i32⟩ : BufTy).Contents (Elt F)),
    binary main_v52 main_v53 main_v54 (maxsi : (⟨S8192, .i32⟩ : BufTy).Contents (Elt F) → (⟨S8192, .i32⟩ : BufTy).Contents (Elt F) → (⟨S8192, .i32⟩ : BufTy).Contents (Elt F)),
    nullary main_c_6 (constantI S_ 32 513#32),
    unary main_c_6 main_v55 (broadcastInDim S8192 ![] bcast_S_S8192 : (⟨S_, .i32⟩ : BufTy).Contents (Elt F) → (⟨S8192, .i32⟩ : BufTy).Contents (Elt F)),
    binary main_v55 main_v54 main_v56 (addi : (⟨S8192, .i32⟩ : BufTy).Contents (Elt F) → (⟨S8192, .i32⟩ : BufTy).Contents (Elt F) → (⟨S8192, .i32⟩ : BufTy).Contents (Elt F)),
    nullary main_cst_7 (constant S_ .f32 0x3F000000#32),
    unary main_cst_7 main_v57 (broadcastInDim S1x8192 ![] bcast_S_S1x8192 : (⟨S_, .f32⟩ : BufTy).Contents (Elt F) → (⟨S1x8192, .f32⟩ : BufTy).Contents (Elt F)),
    binary main_v28 main_v57 main_v58 (mulf : (⟨S1x8192, .f32⟩ : BufTy).Contents (Elt F) → (⟨S1x8192, .f32⟩ : BufTy).Contents (Elt F) → (⟨S1x8192, .f32⟩ : BufTy).Contents (Elt F)),
    binary main_v58 main_v12 main_v59 (mulf : (⟨S1x8192, .f32⟩ : BufTy).Contents (Elt F) → (⟨S1x8192, .f32⟩ : BufTy).Contents (Elt F) → (⟨S1x8192, .f32⟩ : BufTy).Contents (Elt F)),
    nullary main_cst_8 (constant S_ .f32 0x00000000#32),
    unary main_cst_8 main_v60 (broadcastInDim S1x8705x8192 ![] bcast_S_S1x8705x8192 : (⟨S_, .f32⟩ : BufTy).Contents (Elt F) → (⟨S1x8705x8192, .f32⟩ : BufTy).Contents (Elt F)),
    nullary main_c_9 (constantI S_ 32 0#32),
    unary main_c_9 main_v61 (broadcastInDim S1 ![] bcast_S_S1 : (⟨S_, .i32⟩ : BufTy).Contents (Elt F) → (⟨S1, .i32⟩ : BufTy).Contents (Elt F)),
    ternary main_v60 main_v61 main_v47 main_v62 ((fun x i u => Host.scatter scatter_S1x8705x8192_S1_S1x513x8192_012_n_1_0 (fun _ b => b) x i u) : (⟨S1x8705x8192, .f32⟩ : BufTy).Contents (Elt F) → (⟨S1, .i32⟩ : BufTy).Contents (Elt F) → (⟨S1x513x8192, .f32⟩ : BufTy).Contents (Elt F) → (⟨S1x8705x8192, .f32⟩ : BufTy).Contents (Elt F)),
    nullary main_v63 (iotaInDim S8192 32 0),
    nullary main_c_10 (constantI S_ 32 0#32),
    unary main_c_10 main_v64 (broadcastInDim S8192 ![] bcast_S_S8192 : (⟨S_, .i32⟩ : BufTy).Contents (Elt F) → (⟨S8192, .i32⟩ : BufTy).Contents (Elt F)),
    binary main_v56 main_v64 main_v65 (cmpi .slt : (⟨S8192, .i32⟩ : BufTy).Contents (Elt F) → (⟨S8192, .i32⟩ : BufTy).Contents (Elt F) → (⟨S8192, .i1⟩ : BufTy).Contents (Elt F)),
    nullary main_c_11 (constantI S_ 32 8705#32),
    unary main_c_11 main_v66 (broadcastInDim S8192 ![] bcast_S_S8192 : (⟨S_, .i32⟩ : BufTy).Contents (Elt F) → (⟨S8192, .i32⟩ : BufTy).Contents (Elt F)),
    binary main_v56 main_v66 main_v67 (addi : (⟨S8192, .i32⟩ : BufTy).Contents (Elt F) → (⟨S8192, .i32⟩ : BufTy).Contents (Elt F) → (⟨S8192, .i32⟩ : BufTy).Contents (Elt F)),
    ternary main_v65 main_v67 main_v56 main_v68 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_12 (constantI S_ 32 0#32),
    unary main_c_12 main_v69 (broadcastInDim S8192 ![] bcast_S_S8192 : (⟨S_, .i32⟩ : BufTy).Contents (Elt F) → (⟨S8192, .i32⟩ : BufTy).Contents (Elt F)),
    binary main_v63 main_v69 main_v70 (cmpi .slt : (⟨S8192, .i32⟩ : BufTy).Contents (Elt F) → (⟨S8192, .i32⟩ : BufTy).Contents (Elt F) → (⟨S8192, .i1⟩ : BufTy).Contents (Elt F)),
    nullary main_c_13 (constantI S_ 32 8192#32),
    unary main_c_13 main_v71 (broadcastInDim S8192 ![] bcast_S_S8192 : (⟨S_, .i32⟩ : BufTy).Contents (Elt F) → (⟨S8192, .i32⟩ : BufTy).Contents (Elt F)),
    binary main_v63 main_v71 main_v72 (addi : (⟨S8192, .i32⟩ : BufTy).Contents (Elt F) → (⟨S8192, .i32⟩ : BufTy).Contents (Elt F) → (⟨S8192, .i32⟩ : BufTy).Contents (Elt F)),
    ternary main_v70 main_v72 main_v63 main_v73 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v68 main_v74 (broadcastInDim S8192x1 ![0] bcast_S8192_S8192x1_0 : (⟨S8192, .i32⟩ : BufTy).Contents (Elt F) → (⟨S8192x1, .i32⟩ : BufTy).Contents (Elt F)),
    unary main_v73 main_v75 (broadcastInDim S8192x1 ![0] bcast_S8192_S8192x1_0 : (⟨S8192, .i32⟩ : BufTy).Contents (Elt F) → (⟨S8192x1, .i32⟩ : BufTy).Contents (Elt F)),
    binary main_v74 main_v75 main_v76 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    ternary main_v62 main_v76 main_v59 main_v77 ((fun x i u => Host.scatterAdd scatter_S1x8705x8192_S8192x2_S1x8192_0_12_12_1 x i u) : (⟨S1x8705x8192, .f32⟩ : BufTy).Contents (Elt F) → (⟨S8192x2, .i32⟩ : BufTy).Contents (Elt F) → (⟨S1x8192, .f32⟩ : BufTy).Contents (Elt F) → (⟨S1x8705x8192, .f32⟩ : BufTy).Contents (Elt F)) ]

set_option maxRecDepth 4096 in
set_option maxHeartbeats 8000000 in
/-- @main is that straight line: the two windows in order, the functions' definitions unfolded at their
    calls, and the sequencing reassociated. -/
theorem main_eq (c : Dev nD) : main (F := F) c = seq ops := by
  simp only [main, main_part0, main_part1, fn_where.body, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., unary_bufs_sub .., nullary_bufs_sub .., binary_bufs_sub .., unary_bufs_sub .., reshape_bufs_sub ..,
    binary_bufs_sub .., unary_bufs_sub .., reshape_bufs_sub .., binary_bufs_sub .., binary_bufs_sub .., nullary_bufs_sub ..,
    unary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., ternary_bufs_sub ..,
    binary_bufs_sub .., binary_bufs_sub .., binary_bufs_sub .., unary_bufs_sub .., binary_bufs_sub .., nullary_bufs_sub ..,
    unary_bufs_sub .., binary_bufs_sub .., binary_bufs_sub .., binary_bufs_sub .., nullary_bufs_sub .., unary_bufs_sub ..,
    binary_bufs_sub .., unary_bufs_sub .., reshape_bufs_sub .., binary_bufs_sub .., binary_bufs_sub .., binary_bufs_sub ..,
    unary_bufs_sub .., reshape_bufs_sub .., binary_bufs_sub .., binary_bufs_sub .., unary_bufs_sub .., binary_bufs_sub ..,
    binary_bufs_sub .., unary_bufs_sub .., unary_bufs_sub .., binary_bufs_sub .., unary_bufs_sub .., binary_bufs_sub ..,
    reshape_bufs_sub .., unary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., binary_bufs_sub ..,
    nullary_bufs_sub .., unary_bufs_sub .., nullary_bufs_sub .., unary_bufs_sub .., ternary_bufs_sub .., nullary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., ternary_bufs_sub ..⟩

/-! ## The fold at the result buffer, window by window

Read as one term the fold repeats each shared stage once per use; instead the line is cut into consecutive windows,
and for each window the buffers that later windows read are shown to hold their named stages of the argument,
given that the buffers the window itself reads do. Each of the two concatenations is a window of its own: its operands
are then read directly off the valuation, and the equation is a congruence in the two pieces. -/

/-- Operations 1 … 10. -/
abbrev opsA1 : List (HloOp τ sig (Elt F)) :=
  [
    unary main_arg0 main_v0 ((extractStridedSlice S1x512x8192 ![0, 1, 0] · slices_S1x513x8192_S1x512x8192_0_1_0) : (⟨S1x513x8192, .f32⟩ : BufTy).Contents (Elt F) → (⟨S1x512x8192, .f32⟩ : BufTy).Contents (Elt F)),
    unary main_v0 main_v1 (Host.absf : (⟨S1x512x8192, .f32⟩ : BufTy).Contents (Elt F) → (⟨S1x512x8192, .f32⟩ : BufTy).Contents (Elt F)),
    nullary main_cst (constant S_ .f32 0x00000000#32),
    binary main_v1 main_cst main_v2 ((fun x v => Host.reduceAdd x v reducesTo_S1x512x8192_S1x8192_d1 h_S_) : (⟨S1x512x8192, .f32⟩ : BufTy).Contents (Elt F) → (⟨S_, .f32⟩ : BufTy).Contents (Elt F) → (⟨S1x8192, .f32⟩ : BufTy).Contents (Elt F)),
    unary main_arg0 main_v3 ((extractStridedSlice S1x1x8192 ![0, 0, 0] · slices_S1x513x8192_S1x1x8192_0_0_0) : (⟨S1x513x8192, .f32⟩ : BufTy).Contents (Elt F) → (⟨S1x1x8192, .f32⟩ : BufTy).Contents (Elt F)),
    reshape main_v3 main_v4 rfl shapeCasts_S1x1x8192_S1x8192,
    binary main_v4 main_v2 main_v5 (addf : (⟨S1x8192, .f32⟩ : BufTy).Contents (Elt F) → (⟨S1x8192, .f32⟩ : BufTy).Contents (Elt F) → (⟨S1x8192, .f32⟩ : BufTy).Contents (Elt F)),
    unary main_arg0 main_v6 ((extractStridedSlice S1x1x8192 ![0, 0, 0] · slices_S1x513x8192_S1x1x8192_0_0_0) : (⟨S1x513x8192, .f32⟩ : BufTy).Contents (Elt F) → (⟨S1x1x8192, .f32⟩ : BufTy).Contents (Elt F)),
    reshape main_v6 main_v7 rfl shapeCasts_S1x1x8192_S1x8192,
    binary main_v7 main_v2 main_v8 (subf : (⟨S1x8192, .f32⟩ : BufTy).Contents (Elt F) → (⟨S1x8192, .f32⟩ : BufTy).Contents (Elt F) → (⟨S1x8192, .f32⟩ : BufTy).Contents (Elt F)) ]

/-- Operations 11 … 19. -/
abbrev opsA2 : List (HloOp τ sig (Elt F)) :=
  [
    binary main_v8 main_v5 main_v9 (mulf : (⟨S1x8192, .f32⟩ : BufTy).Contents (Elt F) → (⟨S1x8192, .f32⟩ : BufTy).Contents (Elt F) → (⟨S1x8192, .f32⟩ : BufTy).Contents (Elt F)),
    nullary main_cst_0 (constant S_ .f32 0x00000000#32),
    unary main_cst_0 main_v10 (broadcastInDim S1x8192 ![] bcast_S_S1x8192 : (⟨S_, .f32⟩ : BufTy).Contents (Elt F) → (⟨S1x8192, .f32⟩ : BufTy).Contents (Elt F)),
    binary main_v9 main_v10 main_v11 (cmpf .olt : (⟨S1x8192, .f32⟩ : BufTy).Contents (Elt F) → (⟨S1x8192, .f32⟩ : BufTy).Contents (Elt F) → (⟨S1x8192, .i1⟩ : BufTy).Contents (Elt F)),
    unary main_v11 main_v12 (uitofp .f32 : (⟨S1x8192, .i1⟩ : BufTy).Contents (Elt F) → (⟨S1x8192, .f32⟩ : BufTy).Contents (Elt F)),
    nullary main_cst_1 (constant S_ .f32 0x00000000#32),
    unary main_cst_1 main_v13 (broadcastInDim S1x8192 ![] bcast_S_S1x8192 : (⟨S_, .f32⟩ : BufTy).Contents (Elt F) → (⟨S1x8192, .f32⟩ : BufTy).Contents (Elt F)),
    binary main_v8 main_v13 main_v14 (cmpf .oge : (⟨S1x8192, .f32⟩ : BufTy).Contents (Elt F) → (⟨S1x8192, .f32⟩ : BufTy).Contents (Elt F) → (⟨S1x8192, .i1⟩ : BufTy).Contents (Elt F)),
    unary main_v14 main_v15 (uitofp .f32 : (⟨S1x8192, .i1⟩ : BufTy).Contents (Elt F) → (⟨S1x8192, .f32⟩ : BufTy).Contents (Elt F)) ]

/-- Operations 20 … 27. -/
abbrev opsA3 : List (HloOp τ sig (Elt F)) :=
  [
    binary main_v5 main_v8 main_v16 (cmpf .oeq : (⟨S1x8192, .f32⟩ : BufTy).Contents (Elt F) → (⟨S1x8192, .f32⟩ : BufTy).Contents (Elt F) → (⟨S1x8192, .i1⟩ : BufTy).Contents (Elt F)),
    nullary main_cst_2 (constant S_ .f32 0x3F800000#32),
    unary main_cst_2 main_v17 (broadcastInDim S1x8192 ![] bcast_S_S1x8192 : (⟨S_, .f32⟩ : BufTy).Contents (Elt F) → (⟨S1x8192, .f32⟩ : BufTy).Contents (Elt F)),
    binary main_v5 main_v8 main_v18 (subf : (⟨S1x8192, .f32⟩ : BufTy).Contents (Elt F) → (⟨S1x8192, .f32⟩ : BufTy).Contents (Elt F) → (⟨S1x8192, .f32⟩ : BufTy).Contents (Elt F)),
    TRef.ternary (.of main_v16) (.of main_v17) (.of main_v18) main_call0.v0 select,
    binary main_v12 main_v5 main_v20 (mulf : (⟨S1x8192, .f32⟩ : BufTy).Contents (Elt F) → (⟨S1x8192, .f32⟩ : BufTy).Contents (Elt F) → (⟨S1x8192, .f32⟩ : BufTy).Contents (Elt F)),
    binary main_v20 main_v19 main_v21 (Host.divf : (⟨S1x8192, .f32⟩ : BufTy).Contents (Elt F) → (⟨S1x8192, .f32⟩ : BufTy).Contents (Elt F) → (⟨S1x8192, .f32⟩ : BufTy).Contents (Elt F)),
    binary main_v15 main_v21 main_v22 (addf : (⟨S1x8192, .f32⟩ : BufTy).Contents (Elt F) → (⟨S1x8192, .f32⟩ : BufTy).Contents (Elt F) → (⟨S1x8192, .f32⟩ : BufTy).Contents (Elt F)) ]

/-- Operations 28 … 34. -/
abbrev opsA4 : List (HloOp τ sig (Elt F)) :=
  [
    unary main_v22 main_v23 (Host.negf : (⟨S1x8192, .f32⟩ : BufTy).Contents (Elt F) → (⟨S1x8192, .f32⟩ : BufTy).Contents (Elt F)),
    binary main_v23 main_v8 main_v24 (mulf : (⟨S1x8192, .f32⟩ : BufTy).Contents (Elt F) → (⟨S1x8192, .f32⟩ : BufTy).Contents (Elt F) → (⟨S1x8192, .f32⟩ : BufTy).Contents (Elt F)),
    nullary main_cst_3 (constant S_ .f32 0x3F800000#32),
    unary main_cst_3 main_v25 (broadcastInDim S1x8192 ![] bcast_S_S1x8192 : (⟨S_, .f32⟩ : BufTy).Contents (Elt F) → (⟨S1x8192, .f32⟩ : BufTy).Contents (Elt F)),
    binary main_v25 main_v22 main_v26 (subf : (⟨S1x8192, .f32⟩ : BufTy).Contents (Elt F) → (⟨S1x8192, .f32⟩ : BufTy).Contents (Elt F) → (⟨S1x8192, .f32⟩ : BufTy).Contents (Elt F)),
    binary main_v26 main_v5 main_v27 (mulf : (⟨S1x8192, .f32⟩ : BufTy).Contents (Elt F) → (⟨S1x8192, .f32⟩ : BufTy).Contents (Elt F) → (⟨S1x8192, .f32⟩ : BufTy).Contents (Elt F)),
    binary main_v24 main_v27 main_v28 (maximumf : (⟨S1x8192, .f32⟩ : BufTy).Contents (Elt F) → (⟨S1x8192, .f32⟩ : BufTy).Contents (Elt F) → (⟨S1x8192, .f32⟩ : BufTy).Contents (Elt F)) ]

/-- Operations 35 … 46. -/
abbrev opsB1 : List (HloOp τ sig (Elt F)) :=
  [
    nullary main_cst_4 (constant S_ .f32 0x3F000000#32),
    unary main_cst_4 main_v29 (broadcastInDim S1x8192 ![] bcast_S_S1x8192 : (⟨S_, .f32⟩ : BufTy).Contents (Elt F) → (⟨S1x8192, .f32⟩ : BufTy).Contents (Elt F)),
    binary main_v28 main_v29 main_v30 (mulf : (⟨S1x8192, .f32⟩ : BufTy).Contents (Elt F) → (⟨S1x8192, .f32⟩ : BufTy).Contents (Elt F) → (⟨S1x8192, .f32⟩ : BufTy).Contents (Elt F)),
    unary main_arg0 main_v31 ((extractStridedSlice S1x1x8192 ![0, 0, 0] · slices_S1x513x8192_S1x1x8192_0_0_0) : (⟨S1x513x8192, .f32⟩ : BufTy).Contents (Elt F) → (⟨S1x1x8192, .f32⟩ : BufTy).Contents (Elt F)),
    reshape main_v31 main_v32 rfl shapeCasts_S1x1x8192_S1x8192,
    binary main_v22 main_v32 main_v33 (mulf : (⟨S1x8192, .f32⟩ : BufTy).Contents (Elt F) → (⟨S1x8192, .f32⟩ : BufTy).Contents (Elt F) → (⟨S1x8192, .f32⟩ : BufTy).Contents (Elt F)),
    binary main_v30 main_v33 main_v34 (addf : (⟨S1x8192, .f32⟩ : BufTy).Contents (Elt F) → (⟨S1x8192, .f32⟩ : BufTy).Contents (Elt F) → (⟨S1x8192, .f32⟩ : BufTy).Contents (Elt F)),
    binary main_v34 main_v12 main_v35 (mulf : (⟨S1x8192, .f32⟩ : BufTy).Contents (Elt F) → (⟨S1x8192, .f32⟩ : BufTy).Contents (Elt F) → (⟨S1x8192, .f32⟩ : BufTy).Contents (Elt F)),
    unary main_arg0 main_v36 ((extractStridedSlice S1x1x8192 ![0, 0, 0] · slices_S1x513x8192_S1x1x8192_0_0_0) : (⟨S1x513x8192, .f32⟩ : BufTy).Contents (Elt F) → (⟨S1x1x8192, .f32⟩ : BufTy).Contents (Elt F)),
    reshape main_v36 main_v37 rfl shapeCasts_S1x1x8192_S1x8192,
    binary main_v37 main_v15 main_v38 (mulf : (⟨S1x8192, .f32⟩ : BufTy).Contents (Elt F) → (⟨S1x8192, .f32⟩ : BufTy).Contents (Elt F) → (⟨S1x8192, .f32⟩ : BufTy).Contents (Elt F)),
    binary main_v35 main_v38 main_v39 (addf : (⟨S1x8192, .f32⟩ : BufTy).Contents (Elt F) → (⟨S1x8192, .f32⟩ : BufTy).Contents (Elt F) → (⟨S1x8192, .f32⟩ : BufTy).Contents (Elt F)) ]

/-- Operations 47 … 53. -/
abbrev opsB2 : List (HloOp τ sig (Elt F)) :=
  [
    unary main_arg0 main_v40 ((extractStridedSlice S1x512x8192 ![0, 1, 0] · slices_S1x513x8192_S1x512x8192_0_1_0) : (⟨S1x513x8192, .f32⟩ : BufTy).Contents (Elt F) → (⟨S1x512x8192, .f32⟩ : BufTy).Contents (Elt F)),
    binary main_v22 main_v12 main_v41 (mulf : (⟨S1x8192, .f32⟩ : BufTy).Contents (Elt F) → (⟨S1x8192, .f32⟩ : BufTy).Contents (Elt F) → (⟨S1x8192, .f32⟩ : BufTy).Contents (Elt F)),
    binary main_v41 main_v15 main_v42 (addf : (⟨S1x8192, .f32⟩ : BufTy).Contents (Elt F) → (⟨S1x8192, .f32⟩ : BufTy).Contents (Elt F) → (⟨S1x8192, .f32⟩ : BufTy).Contents (Elt F)),
    unary main_v42 main_v43 (broadcastInDim S1x1x8192 ![0, 2] bcast_S1x8192_S1x1x8192_0_2 : (⟨S1x8192, .f32⟩ : BufTy).Contents (Elt F) → (⟨S1x1x8192, .f32⟩ : BufTy).Contents (Elt F)),
    unary main_v43 main_v44 (broadcastInDim S1x512x8192 ![0, 1, 2] bcast_S1x1x8192_S1x512x8192_0_1_2 : (⟨S1x1x8192, .f32⟩ : BufTy).Contents (Elt F) → (⟨S1x512x8192, .f32⟩ : BufTy).Contents (Elt F)),
    binary main_v40 main_v44 main_v45 (mulf : (⟨S1x512x8192, .f32⟩ : BufTy).Contents (Elt F) → (⟨S1x512x8192, .f32⟩ : BufTy).Contents (Elt F) → (⟨S1x512x8192, .f32⟩ : BufTy).Contents (Elt F)),
    unary main_v39 main_v46 (broadcastInDim S1x1x8192 ![0, 2] bcast_S1x8192_S1x1x8192_0_2 : (⟨S1x8192, .f32⟩ : BufTy).Contents (Elt F) → (⟨S1x1x8192, .f32⟩ : BufTy).Contents (Elt F)) ]

/-- Operations 54 … 54. -/
abbrev opsB3 : List (HloOp τ sig (Elt F)) :=
  [
    binary main_v46 main_v45 main_v47 ((fun a b => concatenate S1x513x8192 1 [⟨S1x1x8192, a⟩, ⟨S1x512x8192, b⟩] concatenates_S1x1x8192_S1x512x8192_S1x513x8192_d1) : (⟨S1x1x8192, .f32⟩ : BufTy).Contents (Elt F) → (⟨S1x512x8192, .f32⟩ : BufTy).Contents (Elt F) → (⟨S1x513x8192, .f32⟩ : BufTy).Contents (Elt F)) ]

/-- Operations 55 … 68. -/
abbrev opsC1 : List (HloOp τ sig (Elt F)) :=
  [
    reshape main_v12 main_v48 rfl shapeCasts_S1x8192_S8192,
    unary main_v48 main_v49 (fptosi 32 : (⟨S8192, .f32⟩ : BufTy).Contents (Elt F) → (⟨S8192, .i32⟩ : BufTy).Contents (Elt F)),
    TRef.nullary main_call1.call0.c (constantI S_ 32 0#32),
    TRef.unary main_call1.call0.c main_call1.call0.v0 (broadcastInDim S_ ![] bcast_S_S_),
    TRef.binary (.of main_v49) main_call1.call0.v0 main_call1.call0.v1 (fun x v => Host.reduceWindow IntOp.addi ![8192] ![1] ![8191] ![0] x v reduceWindows_S8192_S8192_w8192s1p8191_0 h_S_),
    nullary main_c (constantI S_ 32 1#32),
    unary main_c main_v51 (broadcastInDim S8192 ![] bcast_S_S8192 : (⟨S_, .i32⟩ : BufTy).Contents (Elt F) → (⟨S8192, .i32⟩ : BufTy).Contents (Elt F)),
    binary main_v50 main_v51 main_v52 (subi : (⟨S8192, .i32⟩ : BufTy).Contents (Elt F) → (⟨S8192, .i32⟩ : BufTy).Contents (Elt F) → (⟨S8192, .i32⟩ : BufTy).Contents (Elt F)),
    nullary main_c_5 (constantI S_ 32 0#32),
    unary main_c_5 main_v53 (broadcastInDim S8192 ![] bcast_S_S8192 : (⟨S_, .i32⟩ : BufTy).Contents (Elt F) → (⟨S8192, .i32⟩ : BufTy).Contents (Elt F)),
    binary main_v52 main_v53 main_v54 (maxsi : (⟨S8192, .i32⟩ : BufTy).Contents (Elt F) → (⟨S8192, .i32⟩ : BufTy).Contents (Elt F) → (⟨S8192, .i32⟩ : BufTy).Contents (Elt F)),
    nullary main_c_6 (constantI S_ 32 513#32),
    unary main_c_6 main_v55 (broadcastInDim S8192 ![] bcast_S_S8192 : (⟨S_, .i32⟩ : BufTy).Contents (Elt F) → (⟨S8192, .i32⟩ : BufTy).Contents (Elt F)),
    binary main_v55 main_v54 main_v56 (addi : (⟨S8192, .i32⟩ : BufTy).Contents (Elt F) → (⟨S8192, .i32⟩ : BufTy).Contents (Elt F) → (⟨S8192, .i32⟩ : BufTy).Contents (Elt F)) ]

/-- Operations 69 … 72. -/
abbrev opsC2 : List (HloOp τ sig (Elt F)) :=
  [
    nullary main_cst_7 (constant S_ .f32 0x3F000000#32),
    unary main_cst_7 main_v57 (broadcastInDim S1x8192 ![] bcast_S_S1x8192 : (⟨S_, .f32⟩ : BufTy).Contents (Elt F) → (⟨S1x8192, .f32⟩ : BufTy).Contents (Elt F)),
    binary main_v28 main_v57 main_v58 (mulf : (⟨S1x8192, .f32⟩ : BufTy).Contents (Elt F) → (⟨S1x8192, .f32⟩ : BufTy).Contents (Elt F) → (⟨S1x8192, .f32⟩ : BufTy).Contents (Elt F)),
    binary main_v58 main_v12 main_v59 (mulf : (⟨S1x8192, .f32⟩ : BufTy).Contents (Elt F) → (⟨S1x8192, .f32⟩ : BufTy).Contents (Elt F) → (⟨S1x8192, .f32⟩ : BufTy).Contents (Elt F)) ]

/-- Operations 73 … 94. -/
abbrev opsD1 : List (HloOp τ sig (Elt F)) :=
  [
    nullary main_cst_8 (constant S_ .f32 0x00000000#32),
    unary main_cst_8 main_v60 (broadcastInDim S1x8705x8192 ![] bcast_S_S1x8705x8192 : (⟨S_, .f32⟩ : BufTy).Contents (Elt F) → (⟨S1x8705x8192, .f32⟩ : BufTy).Contents (Elt F)),
    nullary main_c_9 (constantI S_ 32 0#32),
    unary main_c_9 main_v61 (broadcastInDim S1 ![] bcast_S_S1 : (⟨S_, .i32⟩ : BufTy).Contents (Elt F) → (⟨S1, .i32⟩ : BufTy).Contents (Elt F)),
    ternary main_v60 main_v61 main_v47 main_v62 ((fun x i u => Host.scatter scatter_S1x8705x8192_S1_S1x513x8192_012_n_1_0 (fun _ b => b) x i u) : (⟨S1x8705x8192, .f32⟩ : BufTy).Contents (Elt F) → (⟨S1, .i32⟩ : BufTy).Contents (Elt F) → (⟨S1x513x8192, .f32⟩ : BufTy).Contents (Elt F) → (⟨S1x8705x8192, .f32⟩ : BufTy).Contents (Elt F)),
    nullary main_v63 (iotaInDim S8192 32 0),
    nullary main_c_10 (constantI S_ 32 0#32),
    unary main_c_10 main_v64 (broadcastInDim S8192 ![] bcast_S_S8192 : (⟨S_, .i32⟩ : BufTy).Contents (Elt F) → (⟨S8192, .i32⟩ : BufTy).Contents (Elt F)),
    binary main_v56 main_v64 main_v65 (cmpi .slt : (⟨S8192, .i32⟩ : BufTy).Contents (Elt F) → (⟨S8192, .i32⟩ : BufTy).Contents (Elt F) → (⟨S8192, .i1⟩ : BufTy).Contents (Elt F)),
    nullary main_c_11 (constantI S_ 32 8705#32),
    unary main_c_11 main_v66 (broadcastInDim S8192 ![] bcast_S_S8192 : (⟨S_, .i32⟩ : BufTy).Contents (Elt F) → (⟨S8192, .i32⟩ : BufTy).Contents (Elt F)),
    binary main_v56 main_v66 main_v67 (addi : (⟨S8192, .i32⟩ : BufTy).Contents (Elt F) → (⟨S8192, .i32⟩ : BufTy).Contents (Elt F) → (⟨S8192, .i32⟩ : BufTy).Contents (Elt F)),
    ternary main_v65 main_v67 main_v56 main_v68 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_12 (constantI S_ 32 0#32),
    unary main_c_12 main_v69 (broadcastInDim S8192 ![] bcast_S_S8192 : (⟨S_, .i32⟩ : BufTy).Contents (Elt F) → (⟨S8192, .i32⟩ : BufTy).Contents (Elt F)),
    binary main_v63 main_v69 main_v70 (cmpi .slt : (⟨S8192, .i32⟩ : BufTy).Contents (Elt F) → (⟨S8192, .i32⟩ : BufTy).Contents (Elt F) → (⟨S8192, .i1⟩ : BufTy).Contents (Elt F)),
    nullary main_c_13 (constantI S_ 32 8192#32),
    unary main_c_13 main_v71 (broadcastInDim S8192 ![] bcast_S_S8192 : (⟨S_, .i32⟩ : BufTy).Contents (Elt F) → (⟨S8192, .i32⟩ : BufTy).Contents (Elt F)),
    binary main_v63 main_v71 main_v72 (addi : (⟨S8192, .i32⟩ : BufTy).Contents (Elt F) → (⟨S8192, .i32⟩ : BufTy).Contents (Elt F) → (⟨S8192, .i32⟩ : BufTy).Contents (Elt F)),
    ternary main_v70 main_v72 main_v63 main_v73 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v68 main_v74 (broadcastInDim S8192x1 ![0] bcast_S8192_S8192x1_0 : (⟨S8192, .i32⟩ : BufTy).Contents (Elt F) → (⟨S8192x1, .i32⟩ : BufTy).Contents (Elt F)),
    unary main_v73 main_v75 (broadcastInDim S8192x1 ![0] bcast_S8192_S8192x1_0 : (⟨S8192, .i32⟩ : BufTy).Contents (Elt F) → (⟨S8192x1, .i32⟩ : BufTy).Contents (Elt F)) ]

/-- Operations 95 … 95. -/
abbrev opsD2 : List (HloOp τ sig (Elt F)) :=
  [
    binary main_v74 main_v75 main_v76 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)) ]

/-- Operations 96 … 96. -/
abbrev opsD3 : List (HloOp τ sig (Elt F)) :=
  [
    ternary main_v62 main_v76 main_v59 main_v77 ((fun x i u => Host.scatterAdd scatter_S1x8705x8192_S8192x2_S1x8192_0_12_12_1 x i u) : (⟨S1x8705x8192, .f32⟩ : BufTy).Contents (Elt F) → (⟨S8192x2, .i32⟩ : BufTy).Contents (Elt F) → (⟨S1x8192, .f32⟩ : BufTy).Contents (Elt F) → (⟨S1x8705x8192, .f32⟩ : BufTy).Contents (Elt F)) ]

/-- The line is its windows in order. -/
theorem ops_eq : (ops : List (HloOp τ sig (Elt F))) = opsA1 ++ (opsA2 ++ (opsA3 ++ (opsA4 ++ (opsB1 ++ (opsB2 ++ (opsB3 ++ (opsC1 ++ (opsC2 ++ (opsD1 ++ (opsD2 ++ (opsD3))))))))))) := rfl

/-- The fold over two lines one after the other. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

attribute [local irreducible] Host.reduceAdd Host.reduceWindow Host.scatter Host.scatterAdd concatenate in
set_option maxRecDepth 16384 in
set_option maxHeartbeats 1000000 in
/-- Window A1: the buffers later windows read, after it, from the ones it reads. -/
theorem stepA1 (W : Valuation τ sig (Elt F)) (x : FVec F S1x513x8192 .f32)
    (ha0 : W (main_arg0 : DevRef τ sig) = x) :
    after opsA1 W (main_arg0 : DevRef τ sig) = x
      ∧ after opsA1 W (main_v5 : DevRef τ sig) = upper x
      ∧ after opsA1 W (main_v8 : DevRef τ sig) = lower x := by
  refine ⟨?_, ?_, ?_⟩
  · after_results_simp
    exact ha0
  · after_results_simp
    try simp only [ha0]
    try rfl
  · after_results_simp
    try simp only [ha0]
    try rfl

attribute [local irreducible] Host.reduceAdd Host.reduceWindow Host.scatter Host.scatterAdd concatenate in
set_option maxRecDepth 16384 in
set_option maxHeartbeats 1000000 in
/-- Window A2: the buffers later windows read, after it, from the ones it reads. -/
theorem stepA2 (W : Valuation τ sig (Elt F)) (x : FVec F S1x513x8192 .f32)
    (ha0 : W (main_arg0 : DevRef τ sig) = x)
    (h5 : W (main_v5 : DevRef τ sig) = upper x)
    (h8 : W (main_v8 : DevRef τ sig) = lower x) :
    after opsA2 W (main_arg0 : DevRef τ sig) = x
      ∧ after opsA2 W (main_v5 : DevRef τ sig) = upper x
      ∧ after opsA2 W (main_v8 : DevRef τ sig) = lower x
      ∧ after opsA2 W (main_v12 : DevRef τ sig) = cross x
      ∧ after opsA2 W (main_v15 : DevRef τ sig) = pos x := by
  refine ⟨?_, ?_, ?_, ?_, ?_⟩
  · after_results_simp
    exact ha0
  · after_results_simp
    exact h5
  · after_results_simp
    exact h8
  · after_results_simp
    try simp only [ha0, h5, h8]
    try rfl
  · after_results_simp
    try simp only [ha0, h5, h8]
    try rfl

attribute [local irreducible] Host.reduceAdd Host.reduceWindow Host.scatter Host.scatterAdd concatenate in
set_option maxRecDepth 16384 in
set_option maxHeartbeats 1000000 in
/-- Window A3: the buffers later windows read, after it, from the ones it reads. -/
theorem stepA3 (W : Valuation τ sig (Elt F)) (x : FVec F S1x513x8192 .f32)
    (ha0 : W (main_arg0 : DevRef τ sig) = x)
    (h5 : W (main_v5 : DevRef τ sig) = upper x)
    (h8 : W (main_v8 : DevRef τ sig) = lower x)
    (h12 : W (main_v12 : DevRef τ sig) = cross x)
    (h15 : W (main_v15 : DevRef τ sig) = pos x) :
    after opsA3 W (main_arg0 : DevRef τ sig) = x
      ∧ after opsA3 W (main_v5 : DevRef τ sig) = upper x
      ∧ after opsA3 W (main_v8 : DevRef τ sig) = lower x
      ∧ after opsA3 W (main_v12 : DevRef τ sig) = cross x
      ∧ after opsA3 W (main_v15 : DevRef τ sig) = pos x
      ∧ after opsA3 W (main_v22 : DevRef τ sig) = lam x := by
  refine ⟨?_, ?_, ?_, ?_, ?_, ?_⟩
  · after_results_simp
    exact ha0
  · after_results_simp
    exact h5
  · after_results_simp
    exact h8
  · after_results_simp
    exact h12
  · after_results_simp
    exact h15
  · after_results_simp
    try simp only [ha0, h5, h8, h12, h15]
    try rfl

attribute [local irreducible] Host.reduceAdd Host.reduceWindow Host.scatter Host.scatterAdd concatenate in
set_option maxRecDepth 16384 in
set_option maxHeartbeats 1000000 in
/-- Window A4: the buffers later windows read, after it, from the ones it reads. -/
theorem stepA4 (W : Valuation τ sig (Elt F)) (x : FVec F S1x513x8192 .f32)
    (ha0 : W (main_arg0 : DevRef τ sig) = x)
    (h5 : W (main_v5 : DevRef τ sig) = upper x)
    (h8 : W (main_v8 : DevRef τ sig) = lower x)
    (h12 : W (main_v12 : DevRef τ sig) = cross x)
    (h15 : W (main_v15 : DevRef τ sig) = pos x)
    (h22 : W (main_v22 : DevRef τ sig) = lam x) :
    after opsA4 W (main_arg0 : DevRef τ sig) = x
      ∧ after opsA4 W (main_v12 : DevRef τ sig) = cross x
      ∧ after opsA4 W (main_v15 : DevRef τ sig) = pos x
      ∧ after opsA4 W (main_v22 : DevRef τ sig) = lam x
      ∧ after opsA4 W (main_v28 : DevRef τ sig) = delta x := by
  refine ⟨?_, ?_, ?_, ?_, ?_⟩
  · after_results_simp
    exact ha0
  · after_results_simp
    exact h12
  · after_results_simp
    exact h15
  · after_results_simp
    exact h22
  · after_results_simp
    try simp only [ha0, h5, h8, h12, h15, h22]
    try rfl

attribute [local irreducible] Host.reduceAdd Host.reduceWindow Host.scatter Host.scatterAdd concatenate in
set_option maxRecDepth 16384 in
set_option maxHeartbeats 1000000 in
/-- Window B1: the buffers later windows read, after it, from the ones it reads. -/
theorem stepB1 (W : Valuation τ sig (Elt F)) (x : FVec F S1x513x8192 .f32)
    (ha0 : W (main_arg0 : DevRef τ sig) = x)
    (h12 : W (main_v12 : DevRef τ sig) = cross x)
    (h15 : W (main_v15 : DevRef τ sig) = pos x)
    (h22 : W (main_v22 : DevRef τ sig) = lam x)
    (h28 : W (main_v28 : DevRef τ sig) = delta x) :
    after opsB1 W (main_arg0 : DevRef τ sig) = x
      ∧ after opsB1 W (main_v12 : DevRef τ sig) = cross x
      ∧ after opsB1 W (main_v15 : DevRef τ sig) = pos x
      ∧ after opsB1 W (main_v22 : DevRef τ sig) = lam x
      ∧ after opsB1 W (main_v28 : DevRef τ sig) = delta x
      ∧ after opsB1 W (main_v39 : DevRef τ sig) = newCentre x := by
  refine ⟨?_, ?_, ?_, ?_, ?_, ?_⟩
  · after_results_simp
    exact ha0
  · after_results_simp
    exact h12
  · after_results_simp
    exact h15
  · after_results_simp
    exact h22
  · after_results_simp
    exact h28
  · after_results_simp
    try simp only [ha0, h12, h15, h22, h28]
    try rfl

attribute [local irreducible] Host.reduceAdd Host.reduceWindow Host.scatter Host.scatterAdd concatenate in
set_option maxRecDepth 16384 in
set_option maxHeartbeats 1000000 in
/-- Window B2: the buffers later windows read, after it, from the ones it reads. -/
theorem stepB2 (W : Valuation τ sig (Elt F)) (x : FVec F S1x513x8192 .f32)
    (ha0 : W (main_arg0 : DevRef τ sig) = x)
    (h12 : W (main_v12 : DevRef τ sig) = cross x)
    (h15 : W (main_v15 : DevRef τ sig) = pos x)
    (h22 : W (main_v22 : DevRef τ sig) = lam x)
    (h28 : W (main_v28 : DevRef τ sig) = delta x)
    (h39 : W (main_v39 : DevRef τ sig) = newCentre x) :
    after opsB2 W (main_v12 : DevRef τ sig) = cross x
      ∧ after opsB2 W (main_v28 : DevRef τ sig) = delta x
      ∧ after opsB2 W (main_v45 : DevRef τ sig) = mulf (errs x) (broadcastInDim S1x512x8192 ![0, 1, 2] bcast_S1x1x8192_S1x512x8192_0_1_2 (broadcastInDim S1x1x8192 ![0, 2] bcast_S1x8192_S1x1x8192_0_2 (scale x)))
      ∧ after opsB2 W (main_v46 : DevRef τ sig) = broadcastInDim S1x1x8192 ![0, 2] bcast_S1x8192_S1x1x8192_0_2 (newCentre x) := by
  refine ⟨?_, ?_, ?_, ?_⟩
  · after_results_simp
    exact h12
  · after_results_simp
    exact h28
  · after_results_simp
    try simp only [ha0, h12, h15, h22, h28, h39]
    try rfl
  · after_results_simp
    try simp only [ha0, h12, h15, h22, h28, h39]
    try rfl

attribute [local irreducible] Host.reduceAdd Host.reduceWindow Host.scatter Host.scatterAdd concatenate in
set_option maxRecDepth 16384 in
set_option maxHeartbeats 1000000 in
/-- Window B3: the buffers later windows read, after it, from the ones it reads. -/
theorem stepB3 (W : Valuation τ sig (Elt F)) (x : FVec F S1x513x8192 .f32)
    (h12 : W (main_v12 : DevRef τ sig) = cross x)
    (h28 : W (main_v28 : DevRef τ sig) = delta x)
    (h45 : W (main_v45 : DevRef τ sig) = mulf (errs x) (broadcastInDim S1x512x8192 ![0, 1, 2] bcast_S1x1x8192_S1x512x8192_0_1_2 (broadcastInDim S1x1x8192 ![0, 2] bcast_S1x8192_S1x1x8192_0_2 (scale x))))
    (h46 : W (main_v46 : DevRef τ sig) = broadcastInDim S1x1x8192 ![0, 2] bcast_S1x8192_S1x1x8192_0_2 (newCentre x)) :
    after opsB3 W (main_v12 : DevRef τ sig) = cross x
      ∧ after opsB3 W (main_v28 : DevRef τ sig) = delta x
      ∧ after opsB3 W (main_v47 : DevRef τ sig) = transformed x := by
  refine ⟨?_, ?_, ?_⟩
  · after_results_simp
    exact h12
  · after_results_simp
    exact h28
  · after_results_simp
    exact congrArg₂ (fun (a : FVec F S1x1x8192 .f32) (b : FVec F S1x512x8192 .f32) =>
      concatenate S1x513x8192 1 [⟨S1x1x8192, a⟩, ⟨S1x512x8192, b⟩] concatenates_S1x1x8192_S1x512x8192_S1x513x8192_d1) h46 h45

attribute [local irreducible] Host.reduceAdd Host.reduceWindow Host.scatter Host.scatterAdd concatenate in
set_option maxRecDepth 16384 in
set_option maxHeartbeats 1000000 in
/-- Window C1: the buffers later windows read, after it, from the ones it reads. -/
theorem stepC1 (W : Valuation τ sig (Elt F)) (x : FVec F S1x513x8192 .f32)
    (h12 : W (main_v12 : DevRef τ sig) = cross x)
    (h28 : W (main_v28 : DevRef τ sig) = delta x)
    (h47 : W (main_v47 : DevRef τ sig) = transformed x) :
    after opsC1 W (main_v12 : DevRef τ sig) = cross x
      ∧ after opsC1 W (main_v28 : DevRef τ sig) = delta x
      ∧ after opsC1 W (main_v47 : DevRef τ sig) = transformed x
      ∧ after opsC1 W (main_v56 : DevRef τ sig) = rowRaw x := by
  refine ⟨?_, ?_, ?_, ?_⟩
  · after_results_simp
    exact h12
  · after_results_simp
    exact h28
  · after_results_simp
    exact h47
  · after_results_simp
    try simp only [h12, h28, h47]
    try rfl

attribute [local irreducible] Host.reduceAdd Host.reduceWindow Host.scatter Host.scatterAdd concatenate in
set_option maxRecDepth 16384 in
set_option maxHeartbeats 1000000 in
/-- Window C2: the buffers later windows read, after it, from the ones it reads. -/
theorem stepC2 (W : Valuation τ sig (Elt F)) (x : FVec F S1x513x8192 .f32)
    (h12 : W (main_v12 : DevRef τ sig) = cross x)
    (h28 : W (main_v28 : DevRef τ sig) = delta x)
    (h47 : W (main_v47 : DevRef τ sig) = transformed x)
    (h56 : W (main_v56 : DevRef τ sig) = rowRaw x) :
    after opsC2 W (main_v47 : DevRef τ sig) = transformed x
      ∧ after opsC2 W (main_v56 : DevRef τ sig) = rowRaw x
      ∧ after opsC2 W (main_v59 : DevRef τ sig) = vals x := by
  refine ⟨?_, ?_, ?_⟩
  · after_results_simp
    exact h47
  · after_results_simp
    exact h56
  · after_results_simp
    try simp only [h12, h28, h47, h56]
    try rfl

attribute [local irreducible] Host.reduceAdd Host.reduceWindow Host.scatter Host.scatterAdd concatenate in
set_option maxRecDepth 16384 in
set_option maxHeartbeats 1000000 in
/-- Window D1: the buffers later windows read, after it, from the ones it reads. -/
theorem stepD1 (W : Valuation τ sig (Elt F)) (x : FVec F S1x513x8192 .f32)
    (h47 : W (main_v47 : DevRef τ sig) = transformed x)
    (h56 : W (main_v56 : DevRef τ sig) = rowRaw x)
    (h59 : W (main_v59 : DevRef τ sig) = vals x) :
    after opsD1 W (main_v59 : DevRef τ sig) = vals x
      ∧ after opsD1 W (main_v62 : DevRef τ sig) = placed x
      ∧ after opsD1 W (main_v74 : DevRef τ sig) = broadcastInDim S8192x1 ![0] bcast_S8192_S8192x1_0 (rowIdx x)
      ∧ after opsD1 W (main_v75 : DevRef τ sig) = broadcastInDim S8192x1 ![0] bcast_S8192_S8192x1_0 (colIdx : IVec S8192 32) := by
  refine ⟨?_, ?_, ?_, ?_⟩
  · after_results_simp
    exact h59
  · after_results_simp
    try simp only [h47, h56, h59]
    try rfl
  · after_results_simp
    try simp only [h47, h56, h59]
    try rfl
  · after_results_simp
    try simp only [h47, h56, h59]
    try rfl

attribute [local irreducible] Host.reduceAdd Host.reduceWindow Host.scatter Host.scatterAdd concatenate in
set_option maxRecDepth 16384 in
set_option maxHeartbeats 1000000 in
/-- Window D2: the buffers later windows read, after it, from the ones it reads. -/
theorem stepD2 (W : Valuation τ sig (Elt F)) (x : FVec F S1x513x8192 .f32)
    (h59 : W (main_v59 : DevRef τ sig) = vals x)
    (h62 : W (main_v62 : DevRef τ sig) = placed x)
    (h74 : W (main_v74 : DevRef τ sig) = broadcastInDim S8192x1 ![0] bcast_S8192_S8192x1_0 (rowIdx x))
    (h75 : W (main_v75 : DevRef τ sig) = broadcastInDim S8192x1 ![0] bcast_S8192_S8192x1_0 (colIdx : IVec S8192 32)) :
    after opsD2 W (main_v59 : DevRef τ sig) = vals x
      ∧ after opsD2 W (main_v62 : DevRef τ sig) = placed x
      ∧ after opsD2 W (main_v76 : DevRef τ sig) = indices x := by
  refine ⟨?_, ?_, ?_⟩
  · after_results_simp
    exact h59
  · after_results_simp
    exact h62
  · after_results_simp
    exact congrArg₂ (fun (a b : IVec S8192x1 32) =>
      concatenate S8192x2 1 [⟨S8192x1, a⟩, ⟨S8192x1, b⟩] concatenates_S8192x1_S8192x1_S8192x2_d1) h74 h75

attribute [local irreducible] Host.reduceAdd Host.reduceWindow Host.scatter Host.scatterAdd concatenate in
set_option maxRecDepth 16384 in
set_option maxHeartbeats 1000000 in
/-- Window D3: the buffers later windows read, after it, from the ones it reads. -/
theorem stepD3 (W : Valuation τ sig (Elt F)) (x : FVec F S1x513x8192 .f32)
    (h59 : W (main_v59 : DevRef τ sig) = vals x)
    (h62 : W (main_v62 : DevRef τ sig) = placed x)
    (h76 : W (main_v76 : DevRef τ sig) = indices x) :
    after opsD3 W (main_v77 : DevRef τ sig) = refTerm x := by
  after_results_simp
  try simp only [h59, h62, h76]
  try rfl

set_option maxRecDepth 16384 in
/-- The fold at the result buffer is the last stage of the argument: window by window, each window's results
    read off the previous window's. -/
theorem out_eq (V : Valuation τ sig (Elt F)) :
    after ops V (main_v77 : DevRef τ sig) = refTerm (V (main_arg0 : DevRef τ sig)) := by
  rw [ops_eq]
  simp only [after_append']
  obtain ⟨a1_arg0, a1_v5, a1_v8⟩ := stepA1 V (V (main_arg0 : DevRef τ sig)) rfl
  obtain ⟨a2_arg0, a2_v5, a2_v8, a2_v12, a2_v15⟩ := stepA2 _ (V (main_arg0 : DevRef τ sig)) a1_arg0 a1_v5 a1_v8
  obtain ⟨a3_arg0, a3_v5, a3_v8, a3_v12, a3_v15, a3_v22⟩ := stepA3 _ (V (main_arg0 : DevRef τ sig)) a2_arg0 a2_v5 a2_v8 a2_v12 a2_v15
  obtain ⟨a4_arg0, a4_v12, a4_v15, a4_v22, a4_v28⟩ := stepA4 _ (V (main_arg0 : DevRef τ sig)) a3_arg0 a3_v5 a3_v8 a3_v12 a3_v15 a3_v22
  obtain ⟨b1_arg0, b1_v12, b1_v15, b1_v22, b1_v28, b1_v39⟩ := stepB1 _ (V (main_arg0 : DevRef τ sig)) a4_arg0 a4_v12 a4_v15 a4_v22 a4_v28
  obtain ⟨b2_v12, b2_v28, b2_v45, b2_v46⟩ := stepB2 _ (V (main_arg0 : DevRef τ sig)) b1_arg0 b1_v12 b1_v15 b1_v22 b1_v28 b1_v39
  obtain ⟨b3_v12, b3_v28, b3_v47⟩ := stepB3 _ (V (main_arg0 : DevRef τ sig)) b2_v12 b2_v28 b2_v45 b2_v46
  obtain ⟨c1_v12, c1_v28, c1_v47, c1_v56⟩ := stepC1 _ (V (main_arg0 : DevRef τ sig)) b3_v12 b3_v28 b3_v47
  obtain ⟨c2_v47, c2_v56, c2_v59⟩ := stepC2 _ (V (main_arg0 : DevRef τ sig)) c1_v12 c1_v28 c1_v47 c1_v56
  obtain ⟨d1_v59, d1_v62, d1_v74, d1_v75⟩ := stepD1 _ (V (main_arg0 : DevRef τ sig)) c2_v47 c2_v56 c2_v59
  obtain ⟨d2_v59, d2_v62, d2_v76⟩ := stepD2 _ (V (main_arg0 : DevRef τ sig)) d1_v59 d1_v62 d1_v74 d1_v75
  exact stepD3 _ (V (main_arg0 : DevRef τ sig)) d2_v59 d2_v62 d2_v76

set_option maxRecDepth 16384 in
set_option maxHeartbeats 4000000 in
/-- No operation writes the argument's buffer. -/
theorem arg0_eq (V : Valuation τ sig (Elt F)) :
    after ops V (main_arg0 : DevRef τ sig) = V (main_arg0 : DevRef τ sig) := by
  after_results_simp

set_option maxRecDepth 16384 in
set_option maxHeartbeats 4000000 in
/-- On every device, for any float values, from any memory with zero counters: every weakly fair execution of
    @main terminates with the result buffer at the composed term of the argument's launch contents, and the
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v77).trans (out_eq _), (h c main_arg0).trans (arg0_eq _)⟩)
    (run_seq scopedRefs_eq scopedSems_eq defs main (fun _ => ops) main_eq (fun _ => ops_sub) m ρ)

end Cert.ReferenceIdeal.HandRun

end
-- ==== Proof.LibScatter.lean ====
/-
  A scatter whose body returns the update (`.at[…].set`), read at one index of the result.

  The scatter is the left fold, over all update indices in row-major order, of the step that writes the
  update's element at its result index when that index is inside the operand. Reading the fold at a fixed
  result index `i` never needs the fold's value elsewhere: a step whose result index is not `i` leaves the
  element at `i` as it was, and a step whose result index is `i` replaces it by its own update element,
  whatever was there. So
    * if no update index lands on `i`, the result at `i` is the operand's element;
    * if some update index lands on `i` and every one that does carries the same value `v`, the result is `v`.
  Both are proved by induction over the list of positions, for any list.
-/
import Idealize.ShloMosaic.PureOps.ShapeOps

namespace Cert.LibScatter

open Idealize.ShloMosaic

variable {s si u : Shape} {w : Nat} {α : Type}

/-- One step of the fold: position `n` of the update writes its element at its result index. -/
def step (d : ScatterDims s si u) (idx : IVec si w) (upd : u.Idx → α) (r : s.Idx → α) (n : Fin u.numel) : s.Idx → α :=
  match d.resultIdx? (u.rowMajor.symm n) idx with
  | some i => fun i' => if i' = i then (fun _ b => b) (r i) (upd (u.rowMajor.symm n)) else r i'
  | none => r

/-- The scatter is the fold of `step`. -/
theorem scatter_eq_foldl (d : ScatterDims s si u) (x : s.Idx → α) (idx : IVec si w) (upd : u.Idx → α) :
    Host.scatter d (fun _ b => b) x idx upd = (List.finRange u.numel).foldl (step d idx upd) x := rfl

/-- A step whose result index is not `i` leaves the element at `i`. -/
theorem step_apply_of_ne (d : ScatterDims s si u) (idx : IVec si w) (upd : u.Idx → α) (r : s.Idx → α) (n : Fin u.numel)
    (i : s.Idx) (h : d.resultIdx? (u.rowMajor.symm n) idx ≠ some i) : step d idx upd r n i = r i := by
  unfold step
  cases hq : d.resultIdx? (u.rowMajor.symm n) idx with
  | none => rfl
  | some i' =>
    have hne : i ≠ i' := fun e => h (by rw [hq, e])
    exact if_neg hne

/-- A step whose result index is `i` puts its update element there. -/
theorem step_apply_of_eq (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step
  rw [h]
  exact if_pos rfl

/-- Over a list of positions none of which lands on `i`, the fold leaves the element at `i`. -/
theorem foldl_apply_of_miss (d : ScatterDims s si u) (idx : IVec si w) (upd : u.Idx → α) (i : s.Idx) :
    ∀ (L : List (Fin u.numel)) (r : s.Idx → α), (∀ n ∈ L, d.resultIdx? (u.rowMajor.symm n) idx ≠ some i) →
      L.foldl (step d idx upd) r i = r i
  | [], _, _ => rfl
  | n :: L, r, h => by
    rw [List.foldl_cons, foldl_apply_of_miss d idx upd i L _ fun m hm => h m (List.mem_cons_of_mem _ hm),
      step_apply_of_ne d idx upd r n i (h n List.mem_cons_self)]

/-- Over a list of positions of which at least one lands on `i`, all that do carrying the value `v`, the fold
    has `v` at `i`. -/
theorem foldl_apply_of_hit (d : ScatterDims s si u) (idx : IVec si w) (upd : u.Idx → α) (i : s.Idx) (v : α) :
    ∀ (L : List (Fin u.numel)) (r : s.Idx → α),
      (∀ n ∈ L, d.resultIdx? (u.rowMajor.symm n) idx = some i → upd (u.rowMajor.symm n) = v) →
      (∃ n ∈ L, d.resultIdx? (u.rowMajor.symm n) idx = some i) →
      L.foldl (step d idx upd) r i = v
  | [], _, _, hex => by obtain ⟨n, hn, _⟩ := hex; cases hn
  | n :: L, r, hv, hex => by
    rw [List.foldl_cons]
    by_cases hL : ∃ m ∈ L, d.resultIdx? (u.rowMajor.symm m) idx = some i
    · exact foldl_apply_of_hit d idx upd i v L _ (fun m hm => hv m (List.mem_cons_of_mem _ hm)) hL
    · have hn : d.resultIdx? (u.rowMajor.symm n) idx = some i := by
        obtain ⟨m, hm, hmi⟩ := hex
        rcases List.mem_cons.mp hm with rfl | hm'
        · exact hmi
        · exact absurd ⟨m, hm', hmi⟩ hL
      rw [foldl_apply_of_miss d idx upd i L _ fun m hm hmi => hL ⟨m, hm, hmi⟩,
        step_apply_of_eq d idx upd r n i hn]
      exact hv n List.mem_cons_self hn

/-- THE SCATTER AT AN INDEX NO UPDATE LANDS ON: the operand's element. -/
theorem scatter_set_apply_of_miss (d : ScatterDims s si u) (x : s.Idx → α) (idx : IVec si w) (upd : u.Idx → α) (i : s.Idx)
    (h : ∀ j : u.Idx, d.resultIdx? j idx ≠ some i) : Host.scatter d (fun _ b => b) x idx upd i = x i := by
  rw [scatter_eq_foldl]
  exact foldl_apply_of_miss d idx upd i _ x fun n _ => h _

/-- THE SCATTER AT AN INDEX SOME UPDATE LANDS ON, all that do carrying the value `v`: `v`. -/
theorem scatter_set_apply_of_hit (d : ScatterDims s si u) (x : s.Idx → α) (idx : IVec si w) (upd : u.Idx → α) (i : s.Idx) (v : α)
    (hv : ∀ j : u.Idx, d.resultIdx? j idx = some i → upd j = v) (j₀ : u.Idx) (h₀ : d.resultIdx? j₀ idx = some i) :
    Host.scatter d (fun _ b => b) x idx upd i = v := by
  rw [scatter_eq_foldl]
  refine foldl_apply_of_hit d idx upd i v _ x (fun n _ hn => hv _ hn) ⟨u.rowMajor j₀, List.mem_finRange _, ?_⟩
  rw [Equiv.symm_apply_apply]; exact h₀

end Cert.LibScatter
-- ==== Proof.RefPlaced.lean ====
/-
  The first placement read at an index. The transformed array (513 rows) is written into an array of zeros
  (8705 rows) by a scatter with ONE start index, the zero row, whose window is the whole update: update
  index (0, r, c) lands at result index (0, r, c). So every result index with row below 513 is landed on by
  exactly one update index, the one with the same coordinates, and reads the transformed array there; every
  result index with row 513 or more is landed on by none and reads the zero it held.
-/
import proofs.«125602_j15221364097584_1_alg».proof.Proof.RefStages
import proofs.«125602_j15221364097584_1_alg».proof.Proof.LibScatter
import Idealize.ShloMosaic.Lib.ValueIdx

noncomputable section

namespace Cert.ReferenceIdeal.HandRun

open Cert.ReferenceIdeal Cert.ReferenceIdeal.Gen Idealize.ShloMosaic Idealize.ShloMosaic.ValueIdx

variable {F : FTy → Type} [FloatOps F]

/-- The placement's dimension numbers: the window is all three axes of the update, the one start component
    names the row axis. -/
abbrev dPlace : ScatterDims S1x8705x8192 S1 S1x513x8192 := scatter_S1x8705x8192_S1_S1x513x8192_012_n_1_0

/-- Its one start index: row zero. -/
abbrev zeroStart : IVec S1 32 := broadcastInDim S1 ![] bcast_S_S1 (constantI S_ 32 0#32)

/-- The window starts at zero on every axis. -/
theorem place_start (j : S1x513x8192.Idx) (a : Fin S1x8705x8192.rank) : dPlace.start j zeroStart a = 0 := by
  unfold ScatterDims.start
  split
  · rfl
  · rfl

/-- The window coordinate on each axis is the update index's own. -/
theorem place_window (j : S1x513x8192.Idx) (a : Fin S1x8705x8192.rank) : dPlace.window j a = (j a).val := by
  match a with
  | ⟨0, _⟩ => rfl
  | ⟨1, _⟩ => rfl
  | ⟨2, _⟩ => rfl

/-- An update index as a result index: the same coordinates (513 rows among 8705). -/
def embed (j : S1x513x8192.Idx) : S1x8705x8192.Idx :=
  fun a => ⟨(j a).val, by
    match a with
    | ⟨0, _⟩ => exact (j 0).isLt
    | ⟨1, _⟩ => exact Nat.lt_trans (j 1).isLt (show (513 : Nat) < 8705 by decide)
    | ⟨2, _⟩ => exact (j 2).isLt⟩

/-- Every update index lands, at its own coordinates. -/
theorem place_resultIdx (j : S1x513x8192.Idx) : dPlace.resultIdx? j zeroStart = some (embed j) := by
  have h : ∀ a, 0 ≤ dPlace.start j zeroStart a + dPlace.window j a
      ∧ dPlace.start j zeroStart a + dPlace.window j a < S1x8705x8192.size a := by
    intro a
    rw [place_start, place_window, Int.zero_add]
    exact ⟨Int.natCast_nonneg _, Int.ofNat_lt.mpr (embed j a).isLt⟩
  unfold ScatterDims.resultIdx?
  rw [dif_pos h]
  congr 1
  funext a
  apply Fin.ext
  show (dPlace.start j zeroStart a + dPlace.window j a).toNat = (j a).val
  rw [place_start, place_window, Int.zero_add]
  exact Int.toNat_natCast _

/-- A row below 513 of the placed array is that row of the transformed array. -/
theorem placed_apply_lt (x : FVec F S1x513x8192 .f32) (i : S1x8705x8192.Idx) (h : (i 1).val < 513) :
    placed x i = transformed x (ix3 (0 : Fin 1) (⟨(i 1).val, h⟩ : Fin 513) (i 2)) := by
  have hi0 : (i 0).val = 0 := Nat.lt_one_iff.mp (i 0).isLt
  unfold placed
  refine LibScatter.scatter_set_apply_of_hit dPlace _ zeroStart (transformed x) i _ (fun j hj => ?_)
    (ix3 (0 : Fin 1) (⟨(i 1).val, h⟩ : Fin 513) (i 2)) ?_
  · rw [place_resultIdx] at hj
    have e : embed j = i := Option.some.inj hj
    congr 1
    funext a
    apply Fin.ext
    have ea := congrArg (fun k : S1x8705x8192.Idx => (k a).val) e
    match a with
    | ⟨0, _⟩ => exact ea.trans hi0
    | ⟨1, _⟩ => exact ea
    | ⟨2, _⟩ => exact ea
  · rw [place_resultIdx]
    congr 1
    funext a
    apply Fin.ext
    match a with
    | ⟨0, _⟩ => exact hi0.symm
    | ⟨1, _⟩ => rfl
    | ⟨2, _⟩ => rfl

/-- A row from 513 on of the placed array is the zero word's value. -/
theorem placed_apply_ge (x : FVec F S1x513x8192 .f32) (i : S1x8705x8192.Idx) (h : 513 ≤ (i 1).val) :
    placed x i = FloatOps.ofBits .f32 0x00000000#32 := by
  unfold placed
  refine (LibScatter.scatter_set_apply_of_miss dPlace _ zeroStart (transformed x) i fun j hj => ?_).trans rfl
  rw [place_resultIdx] at hj
  have e : (j 1).val = (i 1).val := congrArg (fun k : S1x8705x8192.Idx => (k 1).val) (Option.some.inj hj)
  have hj1 : (j 1).val < 513 := (j 1).isLt
  omega

end Cert.ReferenceIdeal.HandRun

end
-- ==== Proof.RefIndex.lean ====
/-
  Where the accumulation's updates land. The per-column values (one batch, 8192 columns) are added into the
  placed array at the positions an index table names: for column c the pair (row, column), the row being
  513 plus the column's rank — moved up by the extent 8705 if that sum is negative as a signed 32-bit word —
  and the column being c itself (likewise moved up by 8192 if negative, which it never is). Start indices are
  read signed and are not clamped, and an update whose position falls outside the array is dropped. Since a
  rank is a maximum with zero it is nonnegative as a signed word, and then: the update of column c lands at
  (0, ρ, c') exactly when c = c', 513 ≤ ρ and the rank is the word of ρ − 513. No bound on the rank is used:
  a rank of 8192 or more sends its update outside the array (row 8705 or beyond, or — after the 32-bit sum
  wraps — a negative row that the move by 8705 leaves negative).
-/
import proofs.«125602_j15221364097584_1_alg».proof.Proof.RefStages
import Idealize.ShloMosaic.Lib.ValueIdx
import Idealize.ShloMosaic.Lib.Pipeline.Value

noncomputable section

namespace Cert.ReferenceIdeal.HandRun

open Cert.ReferenceIdeal Cert.ReferenceIdeal.Gen Idealize.ShloMosaic Idealize.ShloMosaic.ValueIdx

variable {F : FTy → Type} [FloatOps F]

/-! ## The dimension numbers read at an update index -/

/-- The accumulation's dimension numbers: the update's batch axis is the window, its column axis the scatter
    axis; the two start components name the row and column axes of the operand. -/
abbrev dAcc : ScatterDims S1x8705x8192 S8192x2 S1x8192 := scatter_S1x8705x8192_S8192x2_S1x8192_0_12_12_1

/-- On the batch axis the window starts at zero. -/
theorem acc_start_batch (idx : IVec S8192x2 32) (j : S1x8192.Idx) (a : Fin S1x8705x8192.rank) (ha : a.val = 0) :
    dAcc.start j idx a = 0 := by
  obtain rfl : a = ⟨0, by decide⟩ := Fin.ext ha
  unfold ScatterDims.start
  exact dif_neg (by decide)

/-- On the row axis it starts at the table's first entry for the update's column, read signed. -/
theorem acc_start_row (idx : IVec S8192x2 32) (j : S1x8192.Idx) (a : Fin S1x8705x8192.rank) (ha : a.val = 1) :
    dAcc.start j idx a = (idx (ix2 (j 1 : Fin 8192) (0 : Fin 2))).toInt := by
  obtain rfl : a = ⟨1, by decide⟩ := Fin.ext ha
  unfold ScatterDims.start
  rw [dif_pos (by decide)]
  refine congrArg (fun k => (idx k).toInt) (funext fun b => Fin.ext ?_)
  match b with
  | ⟨0, _⟩ => rfl
  | ⟨1, _⟩ => rfl

/-- On the column axis it starts at the table's second entry for the update's column, read signed. -/
theorem acc_start_col (idx : IVec S8192x2 32) (j : S1x8192.Idx) (a : Fin S1x8705x8192.rank) (ha : a.val = 2) :
    dAcc.start j idx a = (idx (ix2 (j 1 : Fin 8192) (1 : Fin 2))).toInt := by
  obtain rfl : a = ⟨2, by decide⟩ := Fin.ext ha
  unfold ScatterDims.start
  rw [dif_pos (by decide)]
  refine congrArg (fun k => (idx k).toInt) (funext fun b => Fin.ext ?_)
  match b with
  | ⟨0, _⟩ => rfl
  | ⟨1, _⟩ => rfl

/-- The window coordinate is zero on every axis (the window is the update's batch axis, of extent one). -/
theorem acc_window (j : S1x8192.Idx) (a : Fin S1x8705x8192.rank) : dAcc.window j a = 0 := by
  match a with
  | ⟨0, _⟩ =>
    have h : dAcc.window j ⟨0, by decide⟩ = (j 0).val := rfl
    exact h.trans (Nat.lt_one_iff.mp (j 0).isLt)
  | ⟨1, _⟩ => rfl
  | ⟨2, _⟩ => rfl

/-- An update index lands at `i` exactly when the table's two entries for its column, read signed, are `i`'s row
    and column. -/
theorem acc_resultIdx_iff (idx : IVec S8192x2 32) (j : S1x8192.Idx) (i : S1x8705x8192.Idx) :
    dAcc.resultIdx? j idx = some i ↔
      (idx (ix2 (j 1 : Fin 8192) (0 : Fin 2))).toInt = ((i 1).val : Int) ∧ (idx (ix2 (j 1 : Fin 8192) (1 : Fin 2))).toInt = ((i 2).val : Int) := by
  have hi0 : (i 0).val = 0 := Nat.lt_one_iff.mp (i 0).isLt
  have hi1 : (i 1).val < 8705 := (i 1).isLt
  have hi2 : (i 2).val < 8192 := (i 2).isLt
  unfold ScatterDims.resultIdx?
  constructor
  · intro h
    split at h
    · next hh =>
      have e := Option.some.inj h
      have e1 : (dAcc.start j idx 1 + (dAcc.window j 1 : Int)).toNat = (i 1).val :=
        congrArg (fun k : S1x8705x8192.Idx => (k 1).val) e
      have e2 : (dAcc.start j idx 2 + (dAcc.window j 2 : Int)).toNat = (i 2).val :=
        congrArg (fun k : S1x8705x8192.Idx => (k 2).val) e
      have h1 := (hh 1).1
      have h2 := (hh 2).1
      rw [acc_start_row idx j 1 rfl, acc_window] at e1 h1
      rw [acc_start_col idx j 2 rfl, acc_window] at e2 h2
      constructor <;> omega
    · exact absurd h (by simp)
  · intro ⟨h1, h2⟩
    have hh : ∀ a, 0 ≤ dAcc.start j idx a + dAcc.window j a
        ∧ dAcc.start j idx a + dAcc.window j a < S1x8705x8192.size a := by
      intro a
      match a with
      | ⟨0, _⟩ =>
        rw [acc_start_batch idx j _ rfl, acc_window]
        refine ⟨Int.le_refl _, ?_⟩
        show (0 : Int) + ((0 : Nat) : Int) < ((1 : Nat) : Int)
        decide
      | ⟨1, _⟩ =>
        rw [acc_start_row idx j _ rfl, acc_window, h1]
        refine ⟨by omega, ?_⟩
        show ((i 1).val : Int) + ((0 : Nat) : Int) < ((8705 : Nat) : Int)
        omega
      | ⟨2, _⟩ =>
        rw [acc_start_col idx j _ rfl, acc_window, h2]
        refine ⟨by omega, ?_⟩
        show ((i 2).val : Int) + ((0 : Nat) : Int) < ((8192 : Nat) : Int)
        omega
    rw [dif_pos hh]
    congr 1
    funext a
    apply Fin.ext
    match a with
    | ⟨0, p⟩ =>
      show (dAcc.start j idx ⟨0, p⟩ + (dAcc.window j ⟨0, p⟩ : Int)).toNat = (i 0).val
      rw [acc_start_batch idx j _ rfl, acc_window, hi0]
      rfl
    | ⟨1, p⟩ =>
      show (dAcc.start j idx ⟨1, p⟩ + (dAcc.window j ⟨1, p⟩ : Int)).toNat = (i 1).val
      rw [acc_start_row idx j _ rfl, acc_window, h1]
      omega
    | ⟨2, p⟩ =>
      show (dAcc.start j idx ⟨2, p⟩ + (dAcc.window j ⟨2, p⟩ : Int)).toNat = (i 2).val
      rw [acc_start_col idx j _ rfl, acc_window, h2]
      omega

/-! ## The index table read at a column -/

/-- Two columns set side by side: the first entry of row `c` is the first column's. -/
theorem cat_left (A B : IVec S8192x1 32) (c : Fin 8192) :
    concatenate S8192x2 1 [⟨S8192x1, A⟩, ⟨S8192x1, B⟩] concatenates_S8192x1_S8192x1_S8192x2_d1 (ix2 c (0 : Fin 2))
      = A (ix2 c (0 : Fin 1)) := by
  have hi : ∀ b : Fin S8192x1.rank,
      ((ix2 c (0 : Fin 1) : S8192x1.Idx) b).val = ((ix2 c (0 : Fin 2) : S8192x2.Idx) (b.cast rfl)).val := by
    intro b
    match b with
    | ⟨0, _⟩ => rfl
    | ⟨1, _⟩ => rfl
  exact concatenate_pair_apply_left (t := S8192x2) (s₁ := S8192x1) (s₂ := S8192x1) 1 A B
    concatenates_S8192x1_S8192x1_S8192x2_d1 (ix2 c (0 : Fin 2)) rfl (ix2 c (0 : Fin 1)) hi

/-- … and the second entry of row `c` is the second column's. -/
theorem cat_right (A B : IVec S8192x1 32) (c : Fin 8192) :
    concatenate S8192x2 1 [⟨S8192x1, A⟩, ⟨S8192x1, B⟩] concatenates_S8192x1_S8192x1_S8192x2_d1 (ix2 c (1 : Fin 2))
      = B (ix2 c (0 : Fin 1)) := by
  have hi : ∀ b : Fin S8192x1.rank, b.cast (rfl : S8192x1.rank = S8192x2.rank) ≠ 1 →
      ((ix2 c (0 : Fin 1) : S8192x1.Idx) b).val = ((ix2 c (1 : Fin 2) : S8192x2.Idx) (b.cast rfl)).val := by
    intro b hb
    match b with
    | ⟨0, _⟩ => rfl
    | ⟨1, _⟩ => exact absurd rfl hb
  exact concatenate_pair_apply_right (t := S8192x2) (s₁ := S8192x1) (s₂ := S8192x1) 1 A B
    concatenates_S8192x1_S8192x1_S8192x2_d1 (ix2 c (1 : Fin 2)) rfl rfl (ix2 c (0 : Fin 1)) hi rfl

/-- A row of 8192 words stood up as a column reads the same word at each row. -/
theorem bcast_col (v : IVec S8192 32) (c : Fin 8192) :
    broadcastInDim S8192x1 ![0] bcast_S8192_S8192x1_0 v (ix2 c (0 : Fin 1)) = v (ix1 c) := by
  refine broadcastInDim_apply _ bcast_S8192_S8192x1_0 v (ix2 c (0 : Fin 1)) (ix1 c) (fun a => ?_)
  match a with
  | ⟨0, _⟩ => rfl

/-- The table's first entry for column `c` is the column's target row. -/
theorem indices_row (x : FVec F S1x513x8192 .f32) (c : Fin 8192) :
    indices x (ix2 c (0 : Fin 2)) = rowIdx x (ix1 c) :=
  (cat_left _ _ c).trans (bcast_col _ c)

/-- The table's second entry for column `c` is the column's target column. -/
theorem indices_col (x : FVec F S1x513x8192 .f32) (c : Fin 8192) :
    indices x (ix2 c (1 : Fin 2)) = colIdx (ix1 c) :=
  (cat_right _ _ c).trans (bcast_col _ c)

/-! ## The words: a nonnegative rank's row, a column's number -/

theorem cmpi_slt (a b : BitVec 32) : IntOp.cmpi .slt a b = BitVec.ofBool (a.slt b) := rfl

theorem select_ofBool {α : Type} (b : Bool) (a c : α) : Scalar.select (BitVec.ofBool b) a c = if b then a else c := by
  cases b <;> rfl

/-- The row a rank `R` is sent to: `513 + R`, moved up by 8705 where that is negative as a signed word. -/
def rowOf (R : BitVec 32) : BitVec 32 := if (513#32 + R).slt 0#32 then 513#32 + R + 8705#32 else 513#32 + R

theorem rowIdx_apply (x : FVec F S1x513x8192 .f32) (k : S8192.Idx) : rowIdx x k = rowOf (rank x k) := by
  show Scalar.select (IntOp.cmpi .slt (IntOp.addi 513#32 (rank x k)) 0#32)
    (IntOp.addi (IntOp.addi 513#32 (rank x k)) 8705#32) (IntOp.addi 513#32 (rank x k)) = _
  rw [cmpi_slt, select_ofBool]
  rfl

/-- A rank is a maximum with zero, so nonnegative as a signed word. -/
theorem rank_nonneg (x : FVec F S1x513x8192 .f32) (k : S8192.Idx) : 0 ≤ (rank x k).toInt := by
  show 0 ≤ (IntOp.maxsi (IntOp.subi (runningCount x k) 1#32) 0#32).toInt
  unfold IntOp.maxsi
  split
  · next h =>
    have h' := BitVec.slt_iff_toInt_lt.mp h
    have z : (0#32 : BitVec 32).toInt = 0 := by decide
    rw [z] at h'
    omega
  · decide

/-- THE ROW ARITHMETIC: for a nonnegative rank `R` and a row `ρ` of the result, `R`'s row read signed is `ρ`
    exactly when `ρ` is one of the new rows and `R` is the word of its offset `ρ − 513`. -/
theorem rowOf_toInt_eq_iff (R : BitVec 32) (hR : 0 ≤ R.toInt) (ρ : Nat) (hρ : ρ < 8705) :
    (rowOf R).toInt = (ρ : Int) ↔ 513 ≤ ρ ∧ R = BitVec.ofNat 32 (ρ - 513) := by
  have hlt := R.isLt
  have hn : R.toNat < 2147483648 := by
    have h := BitVec.toInt_eq_toNat_cond R
    by_contra hc
    rw [if_neg (by omega)] at h
    omega
  have hraw : (513#32 + R).toNat = 513 + R.toNat := by
    rw [BitVec.toNat_add]
    show (513 + R.toNat) % 4294967296 = _
    omega
  have hofNat : ∀ m : Nat, m < 4294967296 → (R = BitVec.ofNat 32 m ↔ R.toNat = m) := by
    intro m hm
    rw [BitVec.toNat_eq, BitVec.toNat_ofNat]
    show R.toNat = m % 4294967296 ↔ _
    omega
  have z : (0#32 : BitVec 32).toInt = 0 := by decide
  unfold rowOf
  by_cases hlt2 : 513 + R.toNat < 2147483648
  · have hi : (513#32 + R).toInt = ((513 + R.toNat : Nat) : Int) := by
      rw [BitVec.toInt_eq_toNat_of_lt (by rw [hraw]; omega), hraw]
    have hsl : (513#32 + R).slt 0#32 = false := by
      rw [BitVec.slt_eq_decide, hi, z]
      exact decide_eq_false (by omega)
    rw [hsl, if_neg (by decide), hi, hofNat (ρ - 513) (by omega)]
    omega
  · have hsum : (513#32 + R + 8705#32).toNat = 9218 + R.toNat := by
      rw [BitVec.toNat_add, hraw]
      show (513 + R.toNat + 8705) % 4294967296 = _
      omega
    have hi : (513#32 + R).toInt = ((513 + R.toNat : Nat) : Int) - 4294967296 := by
      have h := BitVec.toInt_eq_toNat_cond (513#32 + R)
      rw [hraw, if_neg (by omega)] at h
      exact h
    have hsl : (513#32 + R).slt 0#32 = true := by
      rw [BitVec.slt_eq_decide, hi, z]
      exact decide_eq_true (by omega)
    have hi2 : (513#32 + R + 8705#32).toInt = ((9218 + R.toNat : Nat) : Int) - 4294967296 := by
      have h := BitVec.toInt_eq_toNat_cond (513#32 + R + 8705#32)
      rw [hsum, if_neg (by omega)] at h
      exact h
    rw [hsl, if_pos rfl, hi2, hofNat (ρ - 513) (by omega)]
    omega

/-- A column's target column, read signed, is the column's number. -/
theorem colIdx_toInt (c : Fin 8192) : (colIdx (ix1 c)).toInt = (c.val : Int) := by
  have hc := c.isLt
  have h1 : (BitVec.ofNat 32 c.val).toNat = c.val := by
    rw [BitVec.toNat_ofNat]
    show c.val % 4294967296 = c.val
    omega
  have h2 : (BitVec.ofNat 32 c.val).toInt = (c.val : Int) := by
    rw [BitVec.toInt_eq_toNat_of_lt (by rw [h1]; omega), h1]
  have z : (0#32 : BitVec 32).toInt = 0 := by decide
  have h3 : (BitVec.ofNat 32 c.val).slt 0#32 = false := by
    rw [BitVec.slt_eq_decide, h2, z]
    exact decide_eq_false (by omega)
  show (Scalar.select (IntOp.cmpi .slt (BitVec.ofNat 32 c.val) 0#32) (IntOp.addi (BitVec.ofNat 32 c.val) 8192#32)
    (BitVec.ofNat 32 c.val)).toInt = _
  rw [cmpi_slt, select_ofBool, h3, if_neg (by decide)]
  exact h2

/-! ## Where column `c`'s update lands -/

/-- The update of the column `j 1` lands at result index `i` exactly when `i`'s row is one of the new rows, the
    column's rank is the word of that row's offset, and `i`'s column is the update's. -/
theorem acc_hit_iff (x : FVec F S1x513x8192 .f32) (j : S1x8192.Idx) (i : S1x8705x8192.Idx) :
    dAcc.resultIdx? j (indices x) = some i ↔
      513 ≤ (i 1).val ∧ rank x (ix1 (j 1 : Fin 8192)) = BitVec.ofNat 32 ((i 1).val - 513) ∧ (j 1).val = (i 2).val := by
  refine (acc_resultIdx_iff (indices x) j i).trans ?_
  have e1 : (indices x (ix2 (j 1 : Fin 8192) (0 : Fin 2))).toInt = (rowOf (rank x (ix1 (j 1 : Fin 8192)))).toInt :=
    congrArg BitVec.toInt ((indices_row x (j 1)).trans (rowIdx_apply x _))
  have e2 : (indices x (ix2 (j 1 : Fin 8192) (1 : Fin 2))).toInt = ((j 1).val : Int) :=
    (congrArg BitVec.toInt (indices_col x (j 1))).trans (colIdx_toInt (j 1))
  have e3 := rowOf_toInt_eq_iff (rank x (ix1 (j 1 : Fin 8192))) (rank_nonneg x _) (i 1).val (i 1).isLt
  constructor
  · rintro ⟨h1, h2⟩
    have h1' := e3.mp (e1.symm.trans h1)
    have h2' : ((j 1).val : Int) = ((i 2).val : Int) := e2.symm.trans h2
    exact ⟨h1'.1, h1'.2, by exact_mod_cast h2'⟩
  · rintro ⟨h1, h2, h3⟩
    have h3' : ((j 1).val : Int) = ((i 2).val : Int) := by exact_mod_cast h3
    exact ⟨e1.trans (e3.mpr ⟨h1, h2⟩), e2.trans h3'⟩

end Cert.ReferenceIdeal.HandRun

end
-- ==== Proof.RefCols.lean ====
/-
  The reference's column quantities at the extended reals, read index by index, against the specification.
  Per column c the reference computes, from the centre a = x[0, 0, c] and the sum s of the absolute values
  of the error coefficients x[0, k+1, c], a chain of pointwise operations; each stage at column c is the
  specification's scalar function of (a, s) by unfolding, once the centre (a slice and a reshape) and the
  sum (a host reduction over the row axis, from the zero word) are read at c. The transformed array is a
  concatenation along the row axis: row 0 reads the first piece (the new centre, broadcast), row r ≥ 1 the
  second piece at row r − 1 (the error coefficient times the broadcast scale).
-/
import proofs.«125602_j15221364097584_1_alg».proof.Proof.RefStages
import proofs.«125602_j15221364097584_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.HandRun

open Cert Cert.ReferenceIdeal Cert.ReferenceIdeal.Gen Idealize.ShloMosaic Idealize.ShloMosaic.ValueIdx

/-! ## The centre and the sum at a column -/

/-- The centre row at column `c` is the argument's entry (0, 0, c). -/
theorem centre_apply (x : FVec Ideal S1x513x8192 .f32) (c : Fin 8192) :
    centre x (ix2 (0 : Fin 1) c) = Zono.ctr x c := by
  unfold centre Zono.ctr
  rw [shapeCast_1ab_ab_apply]
  exact slice3_axis1_apply 0 x _ (0 : Fin 1) (0 : Fin 1) c (0 : Fin 513) rfl

/-- Error coefficient `k` at column `c` is the argument's entry (0, k + 1, c). -/
theorem errs_apply (x : FVec Ideal S1x513x8192 .f32) (k : Fin 512) (c : Fin 8192) :
    errs x (ix3 (0 : Fin 1) k c) = x (ix3 (0 : Fin 1) (Zono.errRow k) c) := by
  unfold errs
  exact slice3_axis1_apply 1 x _ (0 : Fin 1) k c (Zono.errRow k) (by show k.val + 1 = 1 + k.val; omega)

/-- The host sum over the row axis at column `c`: zero plus the sum over the 512 error coefficients of their
    absolute values. -/
theorem absSum_apply (x : FVec Ideal S1x513x8192 .f32) (c : Fin 8192) :
    absSum x (ix2 (0 : Fin 1) c) = Zono.colAbsSum x c := by
  have hred : S1x512x8192.Reduces [1] S1x8192 := by decide
  unfold Zono.colAbsSum
  show Ideal.hostReduceAdd reducesTo_S1x512x8192_S1x8192_d1 (Host.absf (errs x)) (Ideal.ofBits .f32 0x00000000#32)
    (ix2 (0 : Fin 1) c) = _
  rw [Ideal.hostReduceAdd_single _ hred, Ideal.ofBits_zero_f32, zero_add]
  show (∑ k : Fin 512, Host.absf (errs x) (hred.lift (ix2 (0 : Fin 1) c) k)) = _
  refine Finset.sum_congr rfl fun k _ => ?_
  have e : hred.lift (ix2 (0 : Fin 1) c) k = ix3 (0 : Fin 1) (k : Fin 512) c := by
    funext a
    apply Fin.ext
    match a with
    | ⟨0, _⟩ => rfl
    | ⟨1, _⟩ => rfl
    | ⟨2, _⟩ => rfl
  show max (errs x (hred.lift (ix2 (0 : Fin 1) c) k)) (-(errs x (hred.lift (ix2 (0 : Fin 1) c) k))) = _
  rw [e, errs_apply]

/-! ## The pointwise stages at an index: the specification's scalar functions of the centre and the sum -/

theorem cross_apply (x : FVec Ideal S1x513x8192 .f32) (j : S1x8192.Idx) :
    cross x j = Zono.crossS (centre x j) (absSum x j) := rfl
theorem pos_apply (x : FVec Ideal S1x513x8192 .f32) (j : S1x8192.Idx) :
    pos x j = Zono.posS (centre x j) (absSum x j) := rfl
theorem denom_apply (x : FVec Ideal S1x513x8192 .f32) (j : S1x8192.Idx) :
    denom x j = Zono.denomS (centre x j) (absSum x j) := rfl
theorem lam_apply (x : FVec Ideal S1x513x8192 .f32) (j : S1x8192.Idx) :
    lam x j = Zono.lamS (centre x j) (absSum x j) := rfl
theorem delta_apply (x : FVec Ideal S1x513x8192 .f32) (j : S1x8192.Idx) :
    delta x j = Zono.deltaS (centre x j) (absSum x j) := rfl
theorem newCentre_apply (x : FVec Ideal S1x513x8192 .f32) (j : S1x8192.Idx) :
    newCentre x j = Zono.centreS (centre x j) (absSum x j) := rfl
theorem scale_apply (x : FVec Ideal S1x513x8192 .f32) (j : S1x8192.Idx) :
    scale x j = Zono.scaleS (centre x j) (absSum x j) := rfl
theorem vals_apply (x : FVec Ideal S1x513x8192 .f32) (j : S1x8192.Idx) :
    vals x j = Zono.valsS (centre x j) (absSum x j) := rfl

/-! ## The arrays -/

/-- The crossing indicators are the specification's. -/
theorem cross_eq (x : FVec Ideal S1x513x8192 .f32) : cross x = Zono.crossArr x := by
  funext j
  obtain ⟨a, c, rfl⟩ : ∃ (a : Fin 1) (c : Fin 8192), j = ix2 a c := ⟨j 0, j 1, eq_ix2 j⟩
  obtain rfl : a = 0 := Subsingleton.elim _ _
  rw [cross_apply, centre_apply, absSum_apply]
  rfl

/-- The new coefficients are the specification's. -/
theorem vals_eq (x : FVec Ideal S1x513x8192 .f32) : vals x = Zono.valsArr x := by
  funext j
  obtain ⟨a, c, rfl⟩ : ∃ (a : Fin 1) (c : Fin 8192), j = ix2 a c := ⟨j 0, j 1, eq_ix2 j⟩
  obtain rfl : a = 0 := Subsingleton.elim _ _
  rw [vals_apply, centre_apply, absSum_apply]
  rfl

/-- The ranks are the specification's slots: the same integer operations on the same indicators. -/
theorem rank_eq (x : FVec Ideal S1x513x8192 .f32) : rank x = Zono.rowsOf (Zono.crossArr x) := by
  rw [← cross_eq]
  rfl

/-! ## The concatenation and the broadcasts, read at an index of any operands -/

/-- A one-row array set above a 512-row array: row 0 is the first piece's row. -/
theorem cat_rows_first (A : FVec Ideal S1x1x8192 .f32) (B : FVec Ideal S1x512x8192 .f32) (c : Fin 8192) :
    concatenate S1x513x8192 1 [⟨S1x1x8192, A⟩, ⟨S1x512x8192, B⟩] concatenates_S1x1x8192_S1x512x8192_S1x513x8192_d1
      (ix3 (0 : Fin 1) (0 : Fin 513) c) = A (ix3 (0 : Fin 1) (0 : Fin 1) c) := by
  have hi : ∀ b : Fin S1x1x8192.rank,
      ((ix3 (0 : Fin 1) (0 : Fin 1) c : S1x1x8192.Idx) b).val
        = ((ix3 (0 : Fin 1) (0 : Fin 513) c : S1x513x8192.Idx) (b.cast rfl)).val := by
    intro b
    match b with
    | ⟨0, _⟩ => rfl
    | ⟨1, _⟩ => rfl
    | ⟨2, _⟩ => rfl
  exact concatenate_pair_apply_left (t := S1x513x8192) (s₁ := S1x1x8192) (s₂ := S1x512x8192) 1 A B
    concatenates_S1x1x8192_S1x512x8192_S1x513x8192_d1 (ix3 (0 : Fin 1) (0 : Fin 513) c) rfl
    (ix3 (0 : Fin 1) (0 : Fin 1) c) hi

/-- … and row k + 1 is the second piece's row k. -/
theorem cat_rows_rest (A : FVec Ideal S1x1x8192 .f32) (B : FVec Ideal S1x512x8192 .f32) (k : Fin 512) (c : Fin 8192) :
    concatenate S1x513x8192 1 [⟨S1x1x8192, A⟩, ⟨S1x512x8192, B⟩] concatenates_S1x1x8192_S1x512x8192_S1x513x8192_d1
      (ix3 (0 : Fin 1) (Zono.errRow k) c) = B (ix3 (0 : Fin 1) k c) := by
  have hi : ∀ b : Fin S1x512x8192.rank, b.cast (rfl : S1x512x8192.rank = S1x513x8192.rank) ≠ 1 →
      ((ix3 (0 : Fin 1) k c : S1x512x8192.Idx) b).val
        = ((ix3 (0 : Fin 1) (Zono.errRow k) c : S1x513x8192.Idx) (b.cast rfl)).val := by
    intro b hb
    match b with
    | ⟨0, _⟩ => rfl
    | ⟨1, _⟩ => exact absurd rfl hb
    | ⟨2, _⟩ => rfl
  exact concatenate_pair_apply_right (t := S1x513x8192) (s₁ := S1x1x8192) (s₂ := S1x512x8192) 1 A B
    concatenates_S1x1x8192_S1x512x8192_S1x513x8192_d1 (ix3 (0 : Fin 1) (Zono.errRow k) c) rfl rfl
    (ix3 (0 : Fin 1) k c) hi rfl

/-- A row over the columns given a unit row axis reads the same entry. -/
theorem bcast_unit_row (v : FVec Ideal S1x8192 .f32) (c : Fin 8192) :
    broadcastInDim S1x1x8192 ![0, 2] bcast_S1x8192_S1x1x8192_0_2 v (ix3 (0 : Fin 1) (0 : Fin 1) c)
      = v (ix2 (0 : Fin 1) c) := by
  refine broadcastInDim_apply _ bcast_S1x8192_S1x1x8192_0_2 v (ix3 (0 : Fin 1) (0 : Fin 1) c) (ix2 (0 : Fin 1) c)
    (fun a => ?_)
  match a with
  | ⟨0, _⟩ => rfl
  | ⟨1, _⟩ => rfl

/-- A one-row array repeated over 512 rows reads its one row at every row. -/
theorem bcast_rows (w : FVec Ideal S1x1x8192 .f32) (k : Fin 512) (c : Fin 8192) :
    broadcastInDim S1x512x8192 ![0, 1, 2] bcast_S1x1x8192_S1x512x8192_0_1_2 w (ix3 (0 : Fin 1) k c)
      = w (ix3 (0 : Fin 1) (0 : Fin 1) c) := by
  refine broadcastInDim_apply _ bcast_S1x1x8192_S1x512x8192_0_1_2 w (ix3 (0 : Fin 1) k c)
    (ix3 (0 : Fin 1) (0 : Fin 1) c) (fun a => ?_)
  match a with
  | ⟨0, _⟩ => rfl
  | ⟨1, _⟩ => rfl
  | ⟨2, _⟩ => rfl

/-- The transformed array's row 0 at column `c`. -/
theorem transformed_first (x : FVec Ideal S1x513x8192 .f32) (c : Fin 8192) :
    transformed x (ix3 (0 : Fin 1) (0 : Fin 513) c) = Zono.centreS (Zono.ctr x c) (Zono.colAbsSum x c) := by
  refine (cat_rows_first _ _ c).trans ((bcast_unit_row _ c).trans ?_)
  rw [newCentre_apply, centre_apply, absSum_apply]

/-- The transformed array's row k + 1 at column `c`. -/
theorem transformed_rest (x : FVec Ideal S1x513x8192 .f32) (k : Fin 512) (c : Fin 8192) :
    transformed x (ix3 (0 : Fin 1) (Zono.errRow k) c)
      = x (ix3 (0 : Fin 1) (Zono.errRow k) c) * Zono.scaleS (Zono.ctr x c) (Zono.colAbsSum x c) := by
  refine (cat_rows_rest _ _ k c).trans ?_
  rw [mulf_apply, errs_apply, bcast_rows, bcast_unit_row, scale_apply, centre_apply, absSum_apply]

/-- The transformed array is the specification's. -/
theorem transformed_eq (x : FVec Ideal S1x513x8192 .f32) : transformed x = Zono.transformed x := by
  funext i
  obtain ⟨a, r, c, rfl⟩ : ∃ (a : Fin 1) (r : Fin 513) (c : Fin 8192), i = ix3 a r c := ⟨i 0, i 1, i 2, eq_ix3 i⟩
  obtain rfl : a = 0 := Subsingleton.elim _ _
  have hspec : Zono.transformed x (ix3 (0 : Fin 1) r c) =
      if r.val = 0 then Zono.centreS (Zono.ctr x c) (Zono.colAbsSum x c)
      else x (ix3 (0 : Fin 1) r c) * Zono.scaleS (Zono.ctr x c) (Zono.colAbsSum x c) := rfl
  rw [hspec]
  by_cases hr : r.val = 0
  · obtain rfl : r = (0 : Fin 513) := Fin.ext hr
    rw [if_pos hr]
    exact transformed_first x c
  · have hr2 : r.val < 513 := r.isLt
    obtain ⟨k, rfl⟩ : ∃ k : Fin 512, r = Zono.errRow k :=
      ⟨⟨r.val - 1, by omega⟩, Fin.ext (by show r.val = r.val - 1 + 1; omega)⟩
    rw [if_neg hr]
    exact transformed_rest x k c

end Cert.ReferenceIdeal.HandRun

end
-- ==== Proof.RefValue.lean ====
/-
  The reference's result is the specification's, index by index, at the extended reals.

  The result is the accumulation: at result index i, the placed array's element plus the sum of the new
  coefficients of the columns whose update lands on i. A row below 513 is landed on by no column (a landing
  row is 513 plus a nonnegative rank), so the result there is the placed array's element, which is the
  transformed array's; the sum is empty and adds zero. A row ρ ≥ 513 holds zero in the placed array, and
  the only column that can land at (0, ρ, c) is c itself, which does exactly when its rank is the word of
  ρ − 513: the sum is that column's new coefficient or empty, and zero plus it is it.
-/
import proofs.«125602_j15221364097584_1_alg».proof.Proof.RefStages
import proofs.«125602_j15221364097584_1_alg».proof.Proof.Spec
import proofs.«125602_j15221364097584_1_alg».proof.Proof.RefPlaced
import proofs.«125602_j15221364097584_1_alg».proof.Proof.RefIndex
import proofs.«125602_j15221364097584_1_alg».proof.Proof.RefCols

noncomputable section

open scoped BigOperators

namespace Cert.ReferenceIdeal.HandRun

open Cert Cert.ReferenceIdeal Cert.ReferenceIdeal.Gen Idealize.ShloMosaic Idealize.ShloMosaic.ValueIdx

/-! ## The accumulation read at an index -/

/-- An accumulating scatter at the extended reals, at a result index: the operand's element plus the sum, over all
    update indices, of the updates that land there. Stated for any shapes and operands. -/
theorem scatterAdd_apply {s si su : Shape} {w : Nat} (d : ScatterDims s si su) (X : FVec Ideal s .f32) (I : IVec si w)
    (U : FVec Ideal su .f32) (i : s.Idx) :
    Host.scatterAdd d X I U i = X i + ∑ j : su.Idx, if d.resultIdx? j I = some i then U j else 0 := by
  show Ideal.hostScatterAdd d X I U i = _
  unfold Ideal.hostScatterAdd
  rw [Finset.sum_filter]

/-- The reference's result at an index: the placed array's element plus the new coefficients landing there. -/
theorem refTerm_apply (x : FVec Ideal S1x513x8192 .f32) (i : S1x8705x8192.Idx) :
    refTerm x i = placed x i + ∑ j : S1x8192.Idx, if dAcc.resultIdx? j (indices x) = some i then vals x j else 0 := by
  unfold refTerm
  exact scatterAdd_apply dAcc (placed x) (indices x) (vals x) i

/-! ## Which updates land at an index -/

/-- A row below 513 is landed on by no column: a landing row is 513 or more. -/
theorem landed_lt (x : FVec Ideal S1x513x8192 .f32) (i : S1x8705x8192.Idx) (h : (i 1).val < 513) :
    (∑ j : S1x8192.Idx, if dAcc.resultIdx? j (indices x) = some i then vals x j else 0) = 0 :=
  Finset.sum_eq_zero fun j _ => if_neg fun hj => by
    have h513 := ((acc_hit_iff x j i).mp hj).1
    omega

/-- At row r ≥ 513 and column c only column c's update can land, and it does exactly when the column's rank is the
    word of r − 513. -/
theorem landed_ge (x : FVec Ideal S1x513x8192 .f32) (a : Fin 1) (r : Fin 8705) (c : Fin 8192) (h : 513 ≤ r.val) :
    (∑ j : S1x8192.Idx, if dAcc.resultIdx? j (indices x) = some (ix3 a r c) then vals x j else 0)
      = if rank x (ix1 c) = BitVec.ofNat 32 (r.val - 513) then vals x (ix2 (0 : Fin 1) c) else 0 := by
  refine (Finset.sum_eq_single (ix2 (0 : Fin 1) c) (fun j _ hne => if_neg fun hj => hne ?_)
    (fun hni => absurd (Finset.mem_univ _) hni)).trans ?_
  · have h3 : (j 1).val = c.val := ((acc_hit_iff x j (ix3 a r c)).mp hj).2.2
    obtain ⟨a', c', rfl⟩ : ∃ (a' : Fin 1) (c' : Fin 8192), j = ix2 a' c' := ⟨j 0, j 1, eq_ix2 j⟩
    obtain rfl : a' = 0 := Subsingleton.elim _ _
    obtain rfl : c' = c := Fin.ext h3
    rfl
  · by_cases hR : rank x (ix1 c) = BitVec.ofNat 32 (r.val - 513)
    · rw [if_pos hR, if_pos ((acc_hit_iff x (ix2 (0 : Fin 1) c) (ix3 a r c)).mpr ⟨h, hR, rfl⟩)]
    · rw [if_neg hR, if_neg fun hj => hR ((acc_hit_iff x (ix2 (0 : Fin 1) c) (ix3 a r c)).mp hj).2.1]

/-! ## The value -/

/-- THE REFERENCE'S VALUE: its composed term is the specification's result. -/
theorem refTerm_eq (x : FVec Ideal S1x513x8192 .f32) : refTerm x = Zono.G x := by
  funext i
  obtain ⟨a, r, c, rfl⟩ : ∃ (a : Fin 1) (r : Fin 8705) (c : Fin 8192), i = ix3 a r c := ⟨i 0, i 1, i 2, eq_ix3 i⟩
  have hr : r.val < 8705 := r.isLt
  have hG : Zono.G x (ix3 a r c) =
      if h : r.val < 513 then Zono.transformed x (ix3 (0 : Fin 1) (⟨r.val, h⟩ : Fin 513) c)
      else if Zono.rowsOf (Zono.crossArr x) (ix1 c) = BitVec.ofNat 32 (r.val - 513)
        then Zono.valsArr x (ix2 (0 : Fin 1) c) else 0 := rfl
  rw [hG, refTerm_apply]
  by_cases h : r.val < 513
  · rw [dif_pos h, landed_lt x (ix3 a r c) h, add_zero]
    exact (placed_apply_lt x (ix3 a r c) h).trans (congrFun (transformed_eq x) _)
  · have h513 : 513 ≤ r.val := by omega
    rw [dif_neg h, landed_ge x a r c h513, rank_eq, vals_eq, placed_apply_ge x (ix3 a r c) h513]
    show Ideal.ofBits .f32 0x00000000#32 + _ = _
    rw [Ideal.ofBits_zero_f32, zero_add]

end Cert.ReferenceIdeal.HandRun

end
-- ==== Proof.lean ====
/-
  Both programs compute one function of the argument array.

  The argument has a centre row and 512 rows of error coefficients over 8192 columns. Per column, the sum of the
  coefficients' absolute values gives an interval about the centre; a column whose interval strictly contains zero
  "crosses". The result keeps 513 transformed rows (a new centre, the coefficients scaled) and appends one row per
  crossing column, in column order: row 513 + r holds the new coefficient of the column whose slot (its rank among
  the crossing columns) is r, and zero elsewhere.

  The kernel program computes the transformed rows, the crossing indicators and the new coefficients tile by tile,
  ranks the crossing columns on the host, and builds the appended rows by comparing every row number with every
  column's slot. The reference computes the same column quantities on whole arrays and scatters each new
  coefficient to its row. Over the extended reals the two agree index by index: the column quantities are the same
  expressions (a subtraction from zero is a negation, an indicator is 0 or 1 however it is converted, a sum is a
  sum), and a scatter of one value per column into zeros is that value where the row matches the slot and zero
  elsewhere — whatever the rank's value, since a slot that is no row number lands nowhere on either side. No
  finiteness of the argument is used. Each program's frame is its launch over its segments; the idealization
  rewrote nothing, so it preserves trivially.
-/
import proofs.«125602_j15221364097584_1_alg».proof.Defs
import proofs.«125602_j15221364097584_1_alg».proof.Proof.Gen.Kernel
import proofs.«125602_j15221364097584_1_alg».proof.Proof.Gen.KernelIdeal
import proofs.«125602_j15221364097584_1_alg».proof.Proof.Gen.ReferenceIdeal
import proofs.«125602_j15221364097584_1_alg».proof.Proof.Gen.Pre_finite_inputs
import proofs.«125602_j15221364097584_1_alg».proof.Proof.FramePbK
import proofs.«125602_j15221364097584_1_alg».proof.Proof.KernelValue
import proofs.«125602_j15221364097584_1_alg».proof.Proof.RefRun
import proofs.«125602_j15221364097584_1_alg».proof.Proof.RefValue
import Idealize.ShloMosaic.Adequacy
import Idealize.ShloMosaic.Init

noncomputable section

namespace Cert.Proof

open Idealize.ShloMosaic Idealize.SL.Sem

/-- The word-level kernel program runs and leaves its argument as launched. -/
theorem frame_kernel : Cert.frame_Kernel := fun m ρ _ => Cert.Kernel.GenP.frame m ρ

/-- The idealized kernel program runs and leaves its argument as launched. -/
theorem frame_kernelIdeal : Cert.frame_KernelIdeal := fun m ρ _ => Cert.KernelIdeal.GenP.frame m ρ

/-- The reference runs and leaves its argument as launched: its run, with the result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- From memories agreeing on the argument both programs end with the specification's result of it. -/
theorem algebraic : Cert.algebraic_KernelIdeal_ReferenceIdeal := by
  intro m ρ m' ρ' _ hagree
  refine ⟨fun c => Cert.Zono.G (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.HandRun.refTerm_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
